-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S969x16 : Shape := ⟨2, ![969, 16]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S969x16 : S_.BroadcastsInDim S969x16 (![] : Fin 0 → Fin S969x16.rank)
  reducesTo_S969x16_S_d0_1 : S969x16.ReducesTo [0, 1] S_

variable [Facts]

def fn {F : FTy → Type} [FloatOps F] (main_arg0 : FVec F S262144x16 .f32) (main_arg1 : FVec F S969x16 .f32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S969x16 .f32 := Host.absf main_arg1
  let main_cst_0 : FVec F S_ .f32 := constant S_ .f32 0x7F800000#32
  let main_v5 : FVec F S969x16 .f32 := broadcastInDim S969x16 ![] bcast_S_S969x16 main_cst_0
  let main_v6 : IVec S969x16 1 := cmpf .olt main_v4 main_v5
  let main_c_1 : IVec S_ 1 := constantI S_ 1 1#1
  let main_v7 : IVec S_ 1 := (fun x v => Host.reduce IntOp.andi x v reducesTo_S969x16_S_d0_1 h_S_) main_v6 main_c_1
  let main_v8 : IVec S_ 1 := andi main_v3 main_v7
  main_v8
-- ==== Kernel.lean ====
abbrev S262144x16 : Shape := ⟨2, ![262144, 16]⟩
abbrev S969x16 : Shape := ⟨2, ![969, 16]⟩
abbrev S1x16 : Shape := ⟨2, ![1, 16]⟩
abbrev S16x16 : Shape := ⟨2, ![16, 16]⟩
abbrev S136x16 : Shape := ⟨2, ![136, 16]⟩
abbrev S816x16 : Shape := ⟨2, ![816, 16]⟩
abbrev S4096x16 : Shape := ⟨2, ![4096, 16]⟩
abbrev S4096x1 : Shape := ⟨2, ![4096, 1]⟩
abbrev S4096x2 : Shape := ⟨2, ![4096, 2]⟩
abbrev S4096x3 : Shape := ⟨2, ![4096, 3]⟩
abbrev S4096x4 : Shape := ⟨2, ![4096, 4]⟩
abbrev S4096x5 : Shape := ⟨2, ![4096, 5]⟩
abbrev S4096x6 : Shape := ⟨2, ![4096, 6]⟩
abbrev S4096x7 : Shape := ⟨2, ![4096, 7]⟩
abbrev S4096x8 : Shape := ⟨2, ![4096, 8]⟩
abbrev S4096x9 : Shape := ⟨2, ![4096, 9]⟩
abbrev S4096x10 : Shape := ⟨2, ![4096, 10]⟩
abbrev S4096x11 : Shape := ⟨2, ![4096, 11]⟩
abbrev S4096x12 : Shape := ⟨2, ![4096, 12]⟩
abbrev S4096x13 : Shape := ⟨2, ![4096, 13]⟩
abbrev S4096x14 : Shape := ⟨2, ![4096, 14]⟩
abbrev S4096x15 : Shape := ⟨2, ![4096, 15]⟩
abbrev S4096x136 : Shape := ⟨2, ![4096, 136]⟩
abbrev S4096x21 : Shape := ⟨2, ![4096, 21]⟩
abbrev S4096x28 : Shape := ⟨2, ![4096, 28]⟩
abbrev S4096x36 : Shape := ⟨2, ![4096, 36]⟩
abbrev S4096x45 : Shape := ⟨2, ![4096, 45]⟩
abbrev S4096x55 : Shape := ⟨2, ![4096, 55]⟩
abbrev S4096x66 : Shape := ⟨2, ![4096, 66]⟩
abbrev S4096x78 : Shape := ⟨2, ![4096, 78]⟩
abbrev S4096x91 : Shape := ⟨2, ![4096, 91]⟩
abbrev S4096x105 : Shape := ⟨2, ![4096, 105]⟩
abbrev S4096x120 : Shape := ⟨2, ![4096, 120]⟩
abbrev S4096x816 : Shape := ⟨2, ![4096, 816]⟩

abbrev nBuf : Space → Nat
  | .hbm => 10
  | .vmem => 8
  | .smem => 0
  | _ => 0

abbrev bufTy : (tb : Table) → Fin (tcTables nBuf tb) → BufTy
  | .hbm, ⟨0, _⟩ => ⟨S262144x16, .f32⟩
  | .hbm, ⟨1, _⟩ => ⟨S969x16, .f32⟩
  | .hbm, ⟨2, _⟩ => ⟨S1x16, .f32⟩
  | .hbm, ⟨3, _⟩ => ⟨S16x16, .f32⟩
  | .hbm, ⟨4, _⟩ => ⟨S16x16, .bf16⟩
  | .hbm, ⟨5, _⟩ => ⟨S136x16, .f32⟩
  | .hbm, ⟨6, _⟩ => ⟨S136x16, .bf16⟩
  | .hbm, ⟨7, _⟩ => ⟨S816x16, .f32⟩
  | .hbm, ⟨8, _⟩ => ⟨S816x16, .bf16⟩
  | .hbm, ⟨9, _⟩ => ⟨S262144x16, .f32⟩
  | .local _ .vmem, ⟨0, _⟩ => ⟨S4096x16, .f32⟩
  | .local _ .vmem, ⟨1, _⟩ => ⟨S4096x16, .f32⟩
  | .local _ .vmem, ⟨2, _⟩ => ⟨S1x16, .f32⟩
  | .local _ .vmem, ⟨3, _⟩ => ⟨S16x16, .bf16⟩
  | .local _ .vmem, ⟨4, _⟩ => ⟨S136x16, .bf16⟩
  | .local _ .vmem, ⟨5, _⟩ => ⟨S816x16, .bf16⟩
  | .local _ .vmem, ⟨6, _⟩ => ⟨S4096x16, .f32⟩
  | .local _ .vmem, ⟨7, _⟩ => ⟨S4096x16, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S136x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S816x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S969x16_S1x16_0_0 : S969x16.Slices ![0, 0] S1x16
  slices_S969x16_S16x16_1_0 : S969x16.Slices ![1, 0] S16x16
  bitsLt_bf16_f32 : FTy.bits .bf16 < FTy.bits .f32
  slices_S969x16_S136x16_17_0 : S969x16.Slices ![17, 0] S136x16
  slices_S969x16_S816x16_153_0 : S969x16.Slices ![153, 0] S816x16
  inb_S4096x16_S4096x16_0_0 : ∀ a, (![0, 0] : Fin 2 → Nat) a + S4096x16.size a ≤ S4096x16.size a
  h_S4096x16 : 0 < S4096x16.numel
  slices_S4096x16_o0_0_S4096x1 : S4096x16.Slices ![0, 0] S4096x1
  slices_S4096x16_o0_1_S4096x1 : S4096x16.Slices ![0, 1] S4096x1
  slices_S4096x16_o0_0_S4096x2 : S4096x16.Slices ![0, 0] S4096x2
  broadcasts_S4096x1_S4096x2 : S4096x1.Broadcasts S4096x2
  slices_S4096x16_o0_2_S4096x1 : S4096x16.Slices ![0, 2] S4096x1
  slices_S4096x16_o0_0_S4096x3 : S4096x16.Slices ![0, 0] S4096x3
  broadcasts_S4096x1_S4096x3 : S4096x1.Broadcasts S4096x3
  slices_S4096x16_o0_3_S4096x1 : S4096x16.Slices ![0, 3] S4096x1
  slices_S4096x16_o0_0_S4096x4 : S4096x16.Slices ![0, 0] S4096x4
  broadcasts_S4096x1_S4096x4 : S4096x1.Broadcasts S4096x4
  slices_S4096x16_o0_4_S4096x1 : S4096x16.Slices ![0, 4] S4096x1
  slices_S4096x16_o0_0_S4096x5 : S4096x16.Slices ![0, 0] S4096x5
  broadcasts_S4096x1_S4096x5 : S4096x1.Broadcasts S4096x5
  slices_S4096x16_o0_5_S4096x1 : S4096x16.Slices ![0, 5] S4096x1
  slices_S4096x16_o0_0_S4096x6 : S4096x16.Slices ![0, 0] S4096x6
  broadcasts_S4096x1_S4096x6 : S4096x1.Broadcasts S4096x6
  slices_S4096x16_o0_6_S4096x1 : S4096x16.Slices ![0, 6] S4096x1
  slices_S4096x16_o0_0_S4096x7 : S4096x16.Slices ![0, 0] S4096x7
  broadcasts_S4096x1_S4096x7 : S4096x1.Broadcasts S4096x7
  slices_S4096x16_o0_7_S4096x1 : S4096x16.Slices ![0, 7] S4096x1
  slices_S4096x16_o0_0_S4096x8 : S4096x16.Slices ![0, 0] S4096x8
  broadcasts_S4096x1_S4096x8 : S4096x1.Broadcasts S4096x8
  slices_S4096x16_o0_8_S4096x1 : S4096x16.Slices ![0, 8] S4096x1
  slices_S4096x16_o0_0_S4096x9 : S4096x16.Slices ![0, 0] S4096x9
  broadcasts_S4096x1_S4096x9 : S4096x1.Broadcasts S4096x9
  slices_S4096x16_o0_9_S4096x1 : S4096x16.Slices ![0, 9] S4096x1
  slices_S4096x16_o0_0_S4096x10 : S4096x16.Slices ![0, 0] S4096x10
  broadcasts_S4096x1_S4096x10 : S4096x1.Broadcasts S4096x10
  slices_S4096x16_o0_10_S4096x1 : S4096x16.Slices ![0, 10] S4096x1
  slices_S4096x16_o0_0_S4096x11 : S4096x16.Slices ![0, 0] S4096x11
  broadcasts_S4096x1_S4096x11 : S4096x1.Broadcasts S4096x11
  slices_S4096x16_o0_11_S4096x1 : S4096x16.Slices ![0, 11] S4096x1
  slices_S4096x16_o0_0_S4096x12 : S4096x16.Slices ![0, 0] S4096x12
  broadcasts_S4096x1_S4096x12 : S4096x1.Broadcasts S4096x12
  slices_S4096x16_o0_12_S4096x1 : S4096x16.Slices ![0, 12] S4096x1
  slices_S4096x16_o0_0_S4096x13 : S4096x16.Slices ![0, 0] S4096x13
  broadcasts_S4096x1_S4096x13 : S4096x1.Broadcasts S4096x13
  slices_S4096x16_o0_13_S4096x1 : S4096x16.Slices ![0, 13] S4096x1
  slices_S4096x16_o0_0_S4096x14 : S4096x16.Slices ![0, 0] S4096x14
  broadcasts_S4096x1_S4096x14 : S4096x1.Broadcasts S4096x14
  slices_S4096x16_o0_14_S4096x1 : S4096x16.Slices ![0, 14] S4096x1
  slices_S4096x16_o0_0_S4096x15 : S4096x16.Slices ![0, 0] S4096x15
  broadcasts_S4096x1_S4096x15 : S4096x1.Broadcasts S4096x15
  slices_S4096x16_o0_15_S4096x1 : S4096x16.Slices ![0, 15] S4096x1
  broadcasts_S4096x1_S4096x16 : S4096x1.Broadcasts S4096x16
  concatenates_S4096x1_S4096x2_S4096x3_S4096x4_S4096x5_S4096x6_S4096x7_S4096x8_S4096x9_S4096x10_S4096x11_S4096x12_S4096x13_S4096x14_S4096x15_S4096x16_S4096x136_d1 : Shape.Concatenates [S4096x1, S4096x2, S4096x3, S4096x4, S4096x5, S4096x6, S4096x7, S4096x8, S4096x9, S4096x10, S4096x11, S4096x12, S4096x13, S4096x14, S4096x15, S4096x16] S4096x136 1
  slices_S4096x136_o0_0_S4096x1 : S4096x136.Slices ![0, 0] S4096x1
  slices_S4096x136_o0_0_S4096x3 : S4096x136.Slices ![0, 0] S4096x3
  slices_S4096x136_o0_0_S4096x6 : S4096x136.Slices ![0, 0] S4096x6
  slices_S4096x136_o0_0_S4096x10 : S4096x136.Slices ![0, 0] S4096x10
  slices_S4096x136_o0_0_S4096x15 : S4096x136.Slices ![0, 0] S4096x15
  slices_S4096x136_o0_0_S4096x21 : S4096x136.Slices ![0, 0] S4096x21
  broadcasts_S4096x1_S4096x21 : S4096x1.Broadcasts S4096x21
  slices_S4096x136_o0_0_S4096x28 : S4096x136.Slices ![0, 0] S4096x28
  broadcasts_S4096x1_S4096x28 : S4096x1.Broadcasts S4096x28
  slices_S4096x136_o0_0_S4096x36 : S4096x136.Slices ![0, 0] S4096x36
  broadcasts_S4096x1_S4096x36 : S4096x1.Broadcasts S4096x36
  slices_S4096x136_o0_0_S4096x45 : S4096x136.Slices ![0, 0] S4096x45
  broadcasts_S4096x1_S4096x45 : S4096x1.Broadcasts S4096x45
  slices_S4096x136_o0_0_S4096x55 : S4096x136.Slices ![0, 0] S4096x55
  broadcasts_S4096x1_S4096x55 : S4096x1.Broadcasts S4096x55
  slices_S4096x136_o0_0_S4096x66 : S4096x136.Slices ![0, 0] S4096x66
  broadcasts_S4096x1_S4096x66 : S4096x1.Broadcasts S4096x66
  slices_S4096x136_o0_0_S4096x78 : S4096x136.Slices ![0, 0] S4096x78
  broadcasts_S4096x1_S4096x78 : S4096x1.Broadcasts S4096x78
  slices_S4096x136_o0_0_S4096x91 : S4096x136.Slices ![0, 0] S4096x91
  broadcasts_S4096x1_S4096x91 : S4096x1.Broadcasts S4096x91
  slices_S4096x136_o0_0_S4096x105 : S4096x136.Slices ![0, 0] S4096x105
  broadcasts_S4096x1_S4096x105 : S4096x1.Broadcasts S4096x105
  slices_S4096x136_o0_0_S4096x120 : S4096x136.Slices ![0, 0] S4096x120
  broadcasts_S4096x1_S4096x120 : S4096x1.Broadcasts S4096x120
  broadcasts_S4096x1_S4096x136 : S4096x1.Broadcasts S4096x136
  concatenates_S4096x1_S4096x3_S4096x6_S4096x10_S4096x15_S4096x21_S4096x28_S4096x36_S4096x45_S4096x55_S4096x66_S4096x78_S4096x91_S4096x105_S4096x120_S4096x136_S4096x816_d1 : Shape.Concatenates [S4096x1, S4096x3, S4096x6, S4096x10, S4096x15, S4096x21, S4096x28, S4096x36, S4096x45, S4096x55, S4096x66, S4096x78, S4096x91, S4096x105, S4096x120, S4096x136] S4096x816 1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  broadcasts_S1x16_S4096x16 : S1x16.Broadcasts S4096x16
  inb_S136x16_S136x16_0_0 : ∀ a, (![0, 0] : Fin 2 → Nat) a + S136x16.size a ≤ S136x16.size a
  h_S136x16 : 0 < S136x16.numel
  shapeCasts_S136x16_S136x16 : S136x16.ShapeCasts S136x16
  inb_S816x16_S816x16_0_0 : ∀ a, (![0, 0] : Fin 2 → Nat) a + S816x16.size a ≤ S816x16.size a
  h_S816x16 : 0 < S816x16.numel
  shapeCasts_S816x16_S816x16 : S816x16.ShapeCasts S816x16
  dot_S4096x16_S16x16_S4096x16_1_0_0_1_n_n_wf : DotDims.WF S4096x16 S16x16 S4096x16 [1] [0] [0] [1] [] []
  dot_S4096x136_S136x16_S4096x16_1_0_0_1_n_n_wf : DotDims.WF S4096x136 S136x16 S4096x16 [1] [0] [0] [1] [] []
  dot_S4096x816_S816x16_S4096x16_1_0_0_1_n_n_wf : DotDims.WF S4096x816 S816x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S262144x16.size a
  hwx0_0 : ∀ i : grid0.Coords, EltTy.bits .f32 = 32 ∨ (Rect.block (s := S262144x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .bf16 = 32 ∨ (Rect.block (s := S16x16) S16x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S136x16.size a ≤ S136x16.size a
  hwx0_3 : ∀ i : grid0.Coords, EltTy.bits .bf16 = 32 ∨ (Rect.block (s := S136x16) S136x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S816x16.size a ≤ S816x16.size a
  hwx0_4 : ∀ i : grid0.Coords, EltTy.bits .bf16 = 32 ∨ (Rect.block (s := S816x16) S816x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S262144x16.size a
  hwx0_5 : ∀ i : grid0.Coords, EltTy.bits .f32 = 32 ∨ (Rect.block (s := S262144x16) S4096x16.size (cc0_transform_5 i) (hinb0_5 i)).WholeWords (EltTy.packing .f32)

variable [Facts₀]

def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x136_S136x16_S4096x16_1_0_0_1_n_n : DotDims S4096x136 S136x16 S4096x16 where
  lhsContracting := [1]
  rhsContracting := [0]
  lhsNonContracting := [0]
  rhsNonContracting := [1]
  lhsBatch := []
  rhsBatch := []
  wf := dot_S4096x136_S136x16_S4096x16_1_0_0_1_n_n_wf
def dot_S4096x816_S816x16_S4096x16_1_0_0_1_n_n : DotDims S4096x816 S816x16 S4096x16 where
  lhsContracting := [1]
  rhsContracting := [0]
  lhsNonContracting := [0]
  rhsNonContracting := [1]
  lhsBatch := []
  rhsBatch := []
  wf := dot_S4096x816_S816x16_S4096x16_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S136x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S816x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x16 : Shape := ⟨2, ![262144, 16]⟩
abbrev S969x16 : Shape := ⟨2, ![969, 16]⟩
abbrev S_ : Shape := ⟨0, ![]⟩
abbrev S262144x1 : Shape := ⟨2, ![262144, 1]⟩
abbrev S262144x2 : Shape := ⟨2, ![262144, 2]⟩
abbrev S262144x3 : Shape := ⟨2, ![262144, 3]⟩
abbrev S262144x4 : Shape := ⟨2, ![262144, 4]⟩
abbrev S262144x5 : Shape := ⟨2, ![262144, 5]⟩
abbrev S262144x6 : Shape := ⟨2, ![262144, 6]⟩
abbrev S262144x7 : Shape := ⟨2, ![262144, 7]⟩
abbrev S262144x8 : Shape := ⟨2, ![262144, 8]⟩
abbrev S262144x9 : Shape := ⟨2, ![262144, 9]⟩
abbrev S262144x10 : Shape := ⟨2, ![262144, 10]⟩
abbrev S262144x11 : Shape := ⟨2, ![262144, 11]⟩
abbrev S262144x12 : Shape := ⟨2, ![262144, 12]⟩
abbrev S262144x13 : Shape := ⟨2, ![262144, 13]⟩
abbrev S262144x14 : Shape := ⟨2, ![262144, 14]⟩
abbrev S262144x15 : Shape := ⟨2, ![262144, 15]⟩
abbrev S262144x136 : Shape := ⟨2, ![262144, 136]⟩
abbrev S262144x21 : Shape := ⟨2, ![262144, 21]⟩
abbrev S262144x28 : Shape := ⟨2, ![262144, 28]⟩
abbrev S262144x36 : Shape := ⟨2, ![262144, 36]⟩
abbrev S262144x45 : Shape := ⟨2, ![262144, 45]⟩
abbrev S262144x55 : Shape := ⟨2, ![262144, 55]⟩
abbrev S262144x66 : Shape := ⟨2, ![262144, 66]⟩
abbrev S262144x78 : Shape := ⟨2, ![262144, 78]⟩
abbrev S262144x91 : Shape := ⟨2, ![262144, 91]⟩
abbrev S262144x105 : Shape := ⟨2, ![262144, 105]⟩
abbrev S262144x120 : Shape := ⟨2, ![262144, 120]⟩
abbrev S262144x816 : Shape := ⟨2, ![262144, 816]⟩
abbrev S262144x969 : Shape := ⟨2, ![262144, 969]⟩

abbrev nBuf : Space → Nat
  | .hbm => 133
  | .vmem => 0
  | .smem => 0
  | _ => 0

abbrev hbmTy0_0 (i : Nat) : BufTy := match i % 128 with
  | 0 => ⟨S262144x16, .f32⟩
  | 1 => ⟨S969x16, .f32⟩
  | 2 => ⟨S_, .f32⟩
  | 3 => ⟨S262144x1, .f32⟩
  | 4 => ⟨S262144x1, .f32⟩
  | 5 => ⟨S262144x1, .f32⟩
  | 6 => ⟨S262144x1, .f32⟩
  | 7 => ⟨S262144x1, .f32⟩
  | 8 => ⟨S262144x2, .f32⟩
  | 9 => ⟨S262144x2, .f32⟩
  | 10 => ⟨S262144x2, .f32⟩
  | 11 => ⟨S262144x1, .f32⟩
  | 12 => ⟨S262144x3, .f32⟩
  | 13 => ⟨S262144x3, .f32⟩
  | 14 => ⟨S262144x3, .f32⟩
  | 15 => ⟨S262144x1, .f32⟩
  | 16 => ⟨S262144x4, .f32⟩
  | 17 => ⟨S262144x4, .f32⟩
  | 18 => ⟨S262144x4, .f32⟩
  | 19 => ⟨S262144x1, .f32⟩
  | 20 => ⟨S262144x5, .f32⟩
  | 21 => ⟨S262144x5, .f32⟩
  | 22 => ⟨S262144x5, .f32⟩
  | 23 => ⟨S262144x1, .f32⟩
  | 24 => ⟨S262144x6, .f32⟩
  | 25 => ⟨S262144x6, .f32⟩
  | 26 => ⟨S262144x6, .f32⟩
  | 27 => ⟨S262144x1, .f32⟩
  | 28 => ⟨S262144x7, .f32⟩
  | 29 => ⟨S262144x7, .f32⟩
  | 30 => ⟨S262144x7, .f32⟩
  | 31 => ⟨S262144x1, .f32⟩
  | 32 => ⟨S262144x8, .f32⟩
  | 33 => ⟨S262144x8, .f32⟩
  | 34 => ⟨S262144x8, .f32⟩
  | 35 => ⟨S262144x1, .f32⟩
  | 36 => ⟨S262144x9, .f32⟩
  | 37 => ⟨S262144x9, .f32⟩
  | 38 => ⟨S262144x9, .f32⟩
  | 39 => ⟨S262144x1, .f32⟩
  | 40 => ⟨S262144x10, .f32⟩
  | 41 => ⟨S262144x10, .f32⟩
  | 42 => ⟨S262144x10, .f32⟩
  | 43 => ⟨S262144x1, .f32⟩
  | 44 => ⟨S262144x11, .f32⟩
  | 45 => ⟨S262144x11, .f32⟩
  | 46 => ⟨S262144x11, .f32⟩
  | 47 => ⟨S262144x1, .f32⟩
  | 48 => ⟨S262144x12, .f32⟩
  | 49 => ⟨S262144x12, .f32⟩
  | 50 => ⟨S262144x12, .f32⟩
  | 51 => ⟨S262144x1, .f32⟩
  | 52 => ⟨S262144x13, .f32⟩
  | 53 => ⟨S262144x13, .f32⟩
  | 54 => ⟨S262144x13, .f32⟩
  | 55 => ⟨S262144x1, .f32⟩
  | 56 => ⟨S262144x14, .f32⟩
  | 57 => ⟨S262144x14, .f32⟩
  | 58 => ⟨S262144x14, .f32⟩
  | 59 => ⟨S262144x1, .f32⟩
  | 60 => ⟨S262144x15, .f32⟩
  | 61 => ⟨S262144x15, .f32⟩
  | 62 => ⟨S262144x15, .f32⟩
  | 63 => ⟨S262144x1, .f32⟩
  | 64 => ⟨S262144x16, .f32⟩
  | 65 => ⟨S262144x16, .f32⟩
  | 66 => ⟨S262144x136, .f32⟩
  | 67 => ⟨S262144x1, .f32⟩
  | 68 => ⟨S262144x1, .f32⟩
  | 69 => ⟨S262144x1, .f32⟩
  | 70 => ⟨S262144x1, .f32⟩
  | 71 => ⟨S262144x3, .f32⟩
  | 72 => ⟨S262144x3, .f32⟩
  | 73 => ⟨S262144x3, .f32⟩
  | 74 => ⟨S262144x1, .f32⟩
  | 75 => ⟨S262144x6, .f32⟩
  | 76 => ⟨S262144x6, .f32⟩
  | 77 => ⟨S262144x6, .f32⟩
  | 78 => ⟨S262144x1, .f32⟩
  | 79 => ⟨S262144x10, .f32⟩
  | 80 => ⟨S262144x10, .f32⟩
  | 81 => ⟨S262144x10, .f32⟩
  | 82 => ⟨S262144x1, .f32⟩
  | 83 => ⟨S262144x15, .f32⟩
  | 84 => ⟨S262144x15, .f32⟩
  | 85 => ⟨S262144x15, .f32⟩
  | 86 => ⟨S262144x1, .f32⟩
  | 87 => ⟨S262144x21, .f32⟩
  | 88 => ⟨S262144x21, .f32⟩
  | 89 => ⟨S262144x21, .f32⟩
  | 90 => ⟨S262144x1, .f32⟩
  | 91 => ⟨S262144x28, .f32⟩
  | 92 => ⟨S262144x28, .f32⟩
  | 93 => ⟨S262144x28, .f32⟩
  | 94 => ⟨S262144x1, .f32⟩
  | 95 => ⟨S262144x36, .f32⟩
  | 96 => ⟨S262144x36, .f32⟩
  | 97 => ⟨S262144x36, .f32⟩
  | 98 => ⟨S262144x1, .f32⟩
  | 99 => ⟨S262144x45, .f32⟩
  | 100 => ⟨S262144x45, .f32⟩
  | 101 => ⟨S262144x45, .f32⟩
  | 102 => ⟨S262144x1, .f32⟩
  | 103 => ⟨S262144x55, .f32⟩
  | 104 => ⟨S262144x55, .f32⟩
  | 105 => ⟨S262144x55, .f32⟩
  | 106 => ⟨S262144x1, .f32⟩
  | 107 => ⟨S262144x66, .f32⟩
  | 108 => ⟨S262144x66, .f32⟩
  | 109 => ⟨S262144x66, .f32⟩
  | 110 => ⟨S262144x1, .f32⟩
  | 111 => ⟨S262144x78, .f32⟩
  | 112 => ⟨S262144x78, .f32⟩
  | 113 => ⟨S262144x78, .f32⟩
  | 114 => ⟨S262144x1, .f32⟩
  | 115 => ⟨S262144x91, .f32⟩
  | 116 => ⟨S262144x91, .f32⟩
  | 117 => ⟨S262144x91, .f32⟩
  | 118 => ⟨S262144x1, .f32⟩
  | 119 => ⟨S262144x105, .f32⟩
  | 120 => ⟨S262144x105, .f32⟩
  | 121 => ⟨S262144x105, .f32⟩
  | 122 => ⟨S262144x1, .f32⟩
  | 123 => ⟨S262144x120, .f32⟩
  | 124 => ⟨S262144x120, .f32⟩
  | 125 => ⟨S262144x120, .f32⟩
  | 126 => ⟨S262144x1, .f32⟩
  | 127 => ⟨S262144x136, .f32⟩
  | _ => ⟨S262144x16, .f32⟩

abbrev hbmTy0_1 (i : Nat) : BufTy := match i % 128 with
  | 0 => ⟨S262144x136, .f32⟩
  | 1 => ⟨S262144x816, .f32⟩
  | 2 => ⟨S262144x969, .f32⟩
  | 3 => ⟨S262144x16, .f32⟩
  | 4 => ⟨S262144x16, .f32⟩
  | _ => ⟨S262144x16, .f32⟩

abbrev hbmTy (i : Nat) : BufTy := match i / 128 with
  | 0 => hbmTy0_0 i
  | 1 => hbmTy0_1 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩

abbrev nD : Nat := 1
abbrev τ : Topo := Topo.v7x

variable {F : FTy → Type} [FloatOps F]

class Facts₀ : Prop where
  bcast_S_S262144x1 : S_.BroadcastsInDim S262144x1 (![] : Fin 0 → Fin S262144x1.rank)
  slices_S262144x16_S262144x1_0_0 : S262144x16.Slices ![0, 0] S262144x1
  slices_S262144x16_S262144x1_0_1 : S262144x16.Slices ![0, 1] S262144x1
  slices_S262144x16_S262144x2_0_0 : S262144x16.Slices ![0, 0] S262144x2
  bcast_S262144x1_S262144x2_0_1 : S262144x1.BroadcastsInDim S262144x2 (![0, 1] : Fin 2 → Fin S262144x2.rank)
  slices_S262144x16_S262144x1_0_2 : S262144x16.Slices ![0, 2] S262144x1
  slices_S262144x16_S262144x3_0_0 : S262144x16.Slices ![0, 0] S262144x3
  bcast_S262144x1_S262144x3_0_1 : S262144x1.BroadcastsInDim S262144x3 (![0, 1] : Fin 2 → Fin S262144x3.rank)
  slices_S262144x16_S262144x1_0_3 : S262144x16.Slices ![0, 3] S262144x1
  slices_S262144x16_S262144x4_0_0 : S262144x16.Slices ![0, 0] S262144x4
  bcast_S262144x1_S262144x4_0_1 : S262144x1.BroadcastsInDim S262144x4 (![0, 1] : Fin 2 → Fin S262144x4.rank)
  slices_S262144x16_S262144x1_0_4 : S262144x16.Slices ![0, 4] S262144x1
  slices_S262144x16_S262144x5_0_0 : S262144x16.Slices ![0, 0] S262144x5
  bcast_S262144x1_S262144x5_0_1 : S262144x1.BroadcastsInDim S262144x5 (![0, 1] : Fin 2 → Fin S262144x5.rank)
  slices_S262144x16_S262144x1_0_5 : S262144x16.Slices ![0, 5] S262144x1
  slices_S262144x16_S262144x6_0_0 : S262144x16.Slices ![0, 0] S262144x6
  bcast_S262144x1_S262144x6_0_1 : S262144x1.BroadcastsInDim S262144x6 (![0, 1] : Fin 2 → Fin S262144x6.rank)
  slices_S262144x16_S262144x1_0_6 : S262144x16.Slices ![0, 6] S262144x1
  slices_S262144x16_S262144x7_0_0 : S262144x16.Slices ![0, 0] S262144x7
  bcast_S262144x1_S262144x7_0_1 : S262144x1.BroadcastsInDim S262144x7 (![0, 1] : Fin 2 → Fin S262144x7.rank)
  slices_S262144x16_S262144x1_0_7 : S262144x16.Slices ![0, 7] S262144x1
  slices_S262144x16_S262144x8_0_0 : S262144x16.Slices ![0, 0] S262144x8
  bcast_S262144x1_S262144x8_0_1 : S262144x1.BroadcastsInDim S262144x8 (![0, 1] : Fin 2 → Fin S262144x8.rank)
  slices_S262144x16_S262144x1_0_8 : S262144x16.Slices ![0, 8] S262144x1
  slices_S262144x16_S262144x9_0_0 : S262144x16.Slices ![0, 0] S262144x9
  bcast_S262144x1_S262144x9_0_1 : S262144x1.BroadcastsInDim S262144x9 (![0, 1] : Fin 2 → Fin S262144x9.rank)
  slices_S262144x16_S262144x1_0_9 : S262144x16.Slices ![0, 9] S262144x1
  slices_S262144x16_S262144x10_0_0 : S262144x16.Slices ![0, 0] S262144x10
  bcast_S262144x1_S262144x10_0_1 : S262144x1.BroadcastsInDim S262144x10 (![0, 1] : Fin 2 → Fin S262144x10.rank)
  slices_S262144x16_S262144x1_0_10 : S262144x16.Slices ![0, 10] S262144x1
  slices_S262144x16_S262144x11_0_0 : S262144x16.Slices ![0, 0] S262144x11
  bcast_S262144x1_S262144x11_0_1 : S262144x1.BroadcastsInDim S262144x11 (![0, 1] : Fin 2 → Fin S262144x11.rank)
  slices_S262144x16_S262144x1_0_11 : S262144x16.Slices ![0, 11] S262144x1
  slices_S262144x16_S262144x12_0_0 : S262144x16.Slices ![0, 0] S262144x12
  bcast_S262144x1_S262144x12_0_1 : S262144x1.BroadcastsInDim S262144x12 (![0, 1] : Fin 2 → Fin S262144x12.rank)
  slices_S262144x16_S262144x1_0_12 : S262144x16.Slices ![0, 12] S262144x1
  slices_S262144x16_S262144x13_0_0 : S262144x16.Slices ![0, 0] S262144x13
  bcast_S262144x1_S262144x13_0_1 : S262144x1.BroadcastsInDim S262144x13 (![0, 1] : Fin 2 → Fin S262144x13.rank)
  slices_S262144x16_S262144x1_0_13 : S262144x16.Slices ![0, 13] S262144x1
  slices_S262144x16_S262144x14_0_0 : S262144x16.Slices ![0, 0] S262144x14
  bcast_S262144x1_S262144x14_0_1 : S262144x1.BroadcastsInDim S262144x14 (![0, 1] : Fin 2 → Fin S262144x14.rank)
  slices_S262144x16_S262144x1_0_14 : S262144x16.Slices ![0, 14] S262144x1
  slices_S262144x16_S262144x15_0_0 : S262144x16.Slices ![0, 0] S262144x15
  bcast_S262144x1_S262144x15_0_1 : S262144x1.BroadcastsInDim S262144x15 (![0, 1] : Fin 2 → Fin S262144x15.rank)
  slices_S262144x16_S262144x1_0_15 : S262144x16.Slices ![0, 15] S262144x1
  bcast_S262144x1_S262144x16_0_1 : S262144x1.BroadcastsInDim S262144x16 (![0, 1] : Fin 2 → Fin S262144x16.rank)
  concatenates_S262144x1_S262144x2_S262144x3_S262144x4_S262144x5_S262144x6_S262144x7_S262144x8_S262144x9_S262144x10_S262144x11_S262144x12_S262144x13_S262144x14_S262144x15_S262144x16_S262144x136_d1 : Shape.Concatenates [S262144x1, S262144x2, S262144x3, S262144x4, S262144x5, S262144x6, S262144x7, S262144x8, S262144x9, S262144x10, S262144x11, S262144x12, S262144x13, S262144x14, S262144x15, S262144x16] S262144x136 1
  slices_S262144x136_S262144x1_0_0 : S262144x136.Slices ![0, 0] S262144x1
  slices_S262144x136_S262144x3_0_0 : S262144x136.Slices ![0, 0] S262144x3
  slices_S262144x136_S262144x6_0_0 : S262144x136.Slices ![0, 0] S262144x6
  slices_S262144x136_S262144x10_0_0 : S262144x136.Slices ![0, 0] S262144x10
  slices_S262144x136_S262144x15_0_0 : S262144x136.Slices ![0, 0] S262144x15
  slices_S262144x136_S262144x21_0_0 : S262144x136.Slices ![0, 0] S262144x21
  bcast_S262144x1_S262144x21_0_1 : S262144x1.BroadcastsInDim S262144x21 (![0, 1] : Fin 2 → Fin S262144x21.rank)
  slices_S262144x136_S262144x28_0_0 : S262144x136.Slices ![0, 0] S262144x28
  bcast_S262144x1_S262144x28_0_1 : S262144x1.BroadcastsInDim S262144x28 (![0, 1] : Fin 2 → Fin S262144x28.rank)
  slices_S262144x136_S262144x36_0_0 : S262144x136.Slices ![0, 0] S262144x36
  bcast_S262144x1_S262144x36_0_1 : S262144x1.BroadcastsInDim S262144x36 (![0, 1] : Fin 2 → Fin S262144x36.rank)
  slices_S262144x136_S262144x45_0_0 : S262144x136.Slices ![0, 0] S262144x45
  bcast_S262144x1_S262144x45_0_1 : S262144x1.BroadcastsInDim S262144x45 (![0, 1] : Fin 2 → Fin S262144x45.rank)
  slices_S262144x136_S262144x55_0_0 : S262144x136.Slices ![0, 0] S262144x55
  bcast_S262144x1_S262144x55_0_1 : S262144x1.BroadcastsInDim S262144x55 (![0, 1] : Fin 2 → Fin S262144x55.rank)
  slices_S262144x136_S262144x66_0_0 : S262144x136.Slices ![0, 0] S262144x66
  bcast_S262144x1_S262144x66_0_1 : S262144x1.BroadcastsInDim S262144x66 (![0, 1] : Fin 2 → Fin S262144x66.rank)
  slices_S262144x136_S262144x78_0_0 : S262144x136.Slices ![0, 0] S262144x78
  bcast_S262144x1_S262144x78_0_1 : S262144x1.BroadcastsInDim S262144x78 (![0, 1] : Fin 2 → Fin S262144x78.rank)
  slices_S262144x136_S262144x91_0_0 : S262144x136.Slices ![0, 0] S262144x91
  bcast_S262144x1_S262144x91_0_1 : S262144x1.BroadcastsInDim S262144x91 (![0, 1] : Fin 2 → Fin S262144x91.rank)
  slices_S262144x136_S262144x105_0_0 : S262144x136.Slices ![0, 0] S262144x105
  bcast_S262144x1_S262144x105_0_1 : S262144x1.BroadcastsInDim S262144x105 (![0, 1] : Fin 2 → Fin S262144x105.rank)
  slices_S262144x136_S262144x120_0_0 : S262144x136.Slices ![0, 0] S262144x120
  bcast_S262144x1_S262144x120_0_1 : S262144x1.BroadcastsInDim S262144x120 (![0, 1] : Fin 2 → Fin S262144x120.rank)
  bcast_S262144x1_S262144x136_0_1 : S262144x1.BroadcastsInDim S262144x136 (![0, 1] : Fin 2 → Fin S262144x136.rank)
  concatenates_S262144x1_S262144x3_S262144x6_S262144x10_S262144x15_S262144x21_S262144x28_S262144x36_S262144x45_S262144x55_S262144x66_S262144x78_S262144x91_S262144x105_S262144x120_S262144x136_S262144x816_d1 : Shape.Concatenates [S262144x1, S262144x3, S262144x6, S262144x10, S262144x15, S262144x21, S262144x28, S262144x36, S262144x45, S262144x55, S262144x66, S262144x78, S262144x91, S262144x105, S262144x120, S262144x136] S262144x816 1
  concatenates_S262144x1_S262144x16_S262144x136_S262144x816_S262144x969_d1 : Shape.Concatenates [S262144x1, S262144x16, S262144x136, S262144x816] S262144x969 1
  dot_S262144x969_S969x16_S262144x16_1_0_0_1_n_n_wf : DotDims.WF S262144x969 S969x16 S262144x16 [1] [0] [0] [1] [] []

variable [Facts₀]

def dot_S262144x969_S969x16_S262144x16_1_0_0_1_n_n : DotDims S262144x969 S969x16 S262144x16 where
  lhsContracting := [1]
  rhsContracting := [0]
  lhsNonContracting := [0]
  rhsNonContracting := [1]
  lhsBatch := []
  rhsBatch := []
  wf := dot_S262144x969_S969x16_S262144x16_1_0_0_1_n_n_wf

class Facts : Prop extends Facts₀ where

variable [Facts]
-- ==== Proof.RefStages.lean ====
/-
  The reference's computation, stage by stage, as functions of its two arguments.

  From the input `x` (262144 rows, 16 columns): the 136-column block `quadR x` — for `n = 0 … 15` the products
  `x(·, n) · x(·, c)`, `c ≤ n`, side by side —, the 816-column block `cubicR x` — for `n = 0 … 15` the products of
  `x(·, n)` with the first `(n + 1)(n + 2)/2` columns of the 136-column block —, the 969 columns `polyR x` — a column
  of ones, `x`, and the two blocks —, and the result `x + polyR x · W`.
-/
import proofs.«160123_j33603824124566_2_alg».proof.Proof.Gen.ReferenceIdeal

noncomputable section

namespace Cert.RefStages

open Idealize.ShloMosaic
open Cert.ReferenceIdeal Cert.ReferenceIdeal.Gen

variable {F : FTy → Type} [FloatOps F]

/-- The 136-column block of products of pairs of columns. -/
def quadR (x0 : FVec F S262144x16 .f32) : FVec F S262144x136 .f32 :=
  concatenate S262144x136 1
    [⟨S262144x1, mulf (extractStridedSlice S262144x1 ![0, 0] x0 slices_S262144x16_S262144x1_0_0) (extractStridedSlice S262144x1 ![0, 0] x0 slices_S262144x16_S262144x1_0_0)⟩,
     ⟨S262144x2, mulf (broadcastInDim S262144x2 ![0, 1] bcast_S262144x1_S262144x2_0_1 (extractStridedSlice S262144x1 ![0, 1] x0 slices_S262144x16_S262144x1_0_1)) (extractStridedSlice S262144x2 ![0, 0] x0 slices_S262144x16_S262144x2_0_0)⟩,
     ⟨S262144x3, mulf (broadcastInDim S262144x3 ![0, 1] bcast_S262144x1_S262144x3_0_1 (extractStridedSlice S262144x1 ![0, 2] x0 slices_S262144x16_S262144x1_0_2)) (extractStridedSlice S262144x3 ![0, 0] x0 slices_S262144x16_S262144x3_0_0)⟩,
     ⟨S262144x4, mulf (broadcastInDim S262144x4 ![0, 1] bcast_S262144x1_S262144x4_0_1 (extractStridedSlice S262144x1 ![0, 3] x0 slices_S262144x16_S262144x1_0_3)) (extractStridedSlice S262144x4 ![0, 0] x0 slices_S262144x16_S262144x4_0_0)⟩,
     ⟨S262144x5, mulf (broadcastInDim S262144x5 ![0, 1] bcast_S262144x1_S262144x5_0_1 (extractStridedSlice S262144x1 ![0, 4] x0 slices_S262144x16_S262144x1_0_4)) (extractStridedSlice S262144x5 ![0, 0] x0 slices_S262144x16_S262144x5_0_0)⟩,
     ⟨S262144x6, mulf (broadcastInDim S262144x6 ![0, 1] bcast_S262144x1_S262144x6_0_1 (extractStridedSlice S262144x1 ![0, 5] x0 slices_S262144x16_S262144x1_0_5)) (extractStridedSlice S262144x6 ![0, 0] x0 slices_S262144x16_S262144x6_0_0)⟩,
     ⟨S262144x7, mulf (broadcastInDim S262144x7 ![0, 1] bcast_S262144x1_S262144x7_0_1 (extractStridedSlice S262144x1 ![0, 6] x0 slices_S262144x16_S262144x1_0_6)) (extractStridedSlice S262144x7 ![0, 0] x0 slices_S262144x16_S262144x7_0_0)⟩,
     ⟨S262144x8, mulf (broadcastInDim S262144x8 ![0, 1] bcast_S262144x1_S262144x8_0_1 (extractStridedSlice S262144x1 ![0, 7] x0 slices_S262144x16_S262144x1_0_7)) (extractStridedSlice S262144x8 ![0, 0] x0 slices_S262144x16_S262144x8_0_0)⟩,
     ⟨S262144x9, mulf (broadcastInDim S262144x9 ![0, 1] bcast_S262144x1_S262144x9_0_1 (extractStridedSlice S262144x1 ![0, 8] x0 slices_S262144x16_S262144x1_0_8)) (extractStridedSlice S262144x9 ![0, 0] x0 slices_S262144x16_S262144x9_0_0)⟩,
     ⟨S262144x10, mulf (broadcastInDim S262144x10 ![0, 1] bcast_S262144x1_S262144x10_0_1 (extractStridedSlice S262144x1 ![0, 9] x0 slices_S262144x16_S262144x1_0_9)) (extractStridedSlice S262144x10 ![0, 0] x0 slices_S262144x16_S262144x10_0_0)⟩,
     ⟨S262144x11, mulf (broadcastInDim S262144x11 ![0, 1] bcast_S262144x1_S262144x11_0_1 (extractStridedSlice S262144x1 ![0, 10] x0 slices_S262144x16_S262144x1_0_10)) (extractStridedSlice S262144x11 ![0, 0] x0 slices_S262144x16_S262144x11_0_0)⟩,
     ⟨S262144x12, mulf (broadcastInDim S262144x12 ![0, 1] bcast_S262144x1_S262144x12_0_1 (extractStridedSlice S262144x1 ![0, 11] x0 slices_S262144x16_S262144x1_0_11)) (extractStridedSlice S262144x12 ![0, 0] x0 slices_S262144x16_S262144x12_0_0)⟩,
     ⟨S262144x13, mulf (broadcastInDim S262144x13 ![0, 1] bcast_S262144x1_S262144x13_0_1 (extractStridedSlice S262144x1 ![0, 12] x0 slices_S262144x16_S262144x1_0_12)) (extractStridedSlice S262144x13 ![0, 0] x0 slices_S262144x16_S262144x13_0_0)⟩,
     ⟨S262144x14, mulf (broadcastInDim S262144x14 ![0, 1] bcast_S262144x1_S262144x14_0_1 (extractStridedSlice S262144x1 ![0, 13] x0 slices_S262144x16_S262144x1_0_13)) (extractStridedSlice S262144x14 ![0, 0] x0 slices_S262144x16_S262144x14_0_0)⟩,
     ⟨S262144x15, mulf (broadcastInDim S262144x15 ![0, 1] bcast_S262144x1_S262144x15_0_1 (extractStridedSlice S262144x1 ![0, 14] x0 slices_S262144x16_S262144x1_0_14)) (extractStridedSlice S262144x15 ![0, 0] x0 slices_S262144x16_S262144x15_0_0)⟩,
     ⟨S262144x16, mulf (broadcastInDim S262144x16 ![0, 1] bcast_S262144x1_S262144x16_0_1 (extractStridedSlice S262144x1 ![0, 15] x0 slices_S262144x16_S262144x1_0_15)) x0⟩]
    concatenates_S262144x1_S262144x2_S262144x3_S262144x4_S262144x5_S262144x6_S262144x7_S262144x8_S262144x9_S262144x10_S262144x11_S262144x12_S262144x13_S262144x14_S262144x15_S262144x16_S262144x136_d1

/-- The 816-column block: columns of `x0` times leading columns of a 136-column block `q`. -/
def cubicOf (x0 : FVec F S262144x16 .f32) (q : FVec F S262144x136 .f32) : FVec F S262144x816 .f32 :=
  concatenate S262144x816 1
    [⟨S262144x1, mulf (extractStridedSlice S262144x1 ![0, 0] x0 slices_S262144x16_S262144x1_0_0) (extractStridedSlice S262144x1 ![0, 0] q slices_S262144x136_S262144x1_0_0)⟩,
     ⟨S262144x3, mulf (broadcastInDim S262144x3 ![0, 1] bcast_S262144x1_S262144x3_0_1 (extractStridedSlice S262144x1 ![0, 1] x0 slices_S262144x16_S262144x1_0_1)) (extractStridedSlice S262144x3 ![0, 0] q slices_S262144x136_S262144x3_0_0)⟩,
     ⟨S262144x6, mulf (broadcastInDim S262144x6 ![0, 1] bcast_S262144x1_S262144x6_0_1 (extractStridedSlice S262144x1 ![0, 2] x0 slices_S262144x16_S262144x1_0_2)) (extractStridedSlice S262144x6 ![0, 0] q slices_S262144x136_S262144x6_0_0)⟩,
     ⟨S262144x10, mulf (broadcastInDim S262144x10 ![0, 1] bcast_S262144x1_S262144x10_0_1 (extractStridedSlice S262144x1 ![0, 3] x0 slices_S262144x16_S262144x1_0_3)) (extractStridedSlice S262144x10 ![0, 0] q slices_S262144x136_S262144x10_0_0)⟩,
     ⟨S262144x15, mulf (broadcastInDim S262144x15 ![0, 1] bcast_S262144x1_S262144x15_0_1 (extractStridedSlice S262144x1 ![0, 4] x0 slices_S262144x16_S262144x1_0_4)) (extractStridedSlice S262144x15 ![0, 0] q slices_S262144x136_S262144x15_0_0)⟩,
     ⟨S262144x21, mulf (broadcastInDim S262144x21 ![0, 1] bcast_S262144x1_S262144x21_0_1 (extractStridedSlice S262144x1 ![0, 5] x0 slices_S262144x16_S262144x1_0_5)) (extractStridedSlice S262144x21 ![0, 0] q slices_S262144x136_S262144x21_0_0)⟩,
     ⟨S262144x28, mulf (broadcastInDim S262144x28 ![0, 1] bcast_S262144x1_S262144x28_0_1 (extractStridedSlice S262144x1 ![0, 6] x0 slices_S262144x16_S262144x1_0_6)) (extractStridedSlice S262144x28 ![0, 0] q slices_S262144x136_S262144x28_0_0)⟩,
     ⟨S262144x36, mulf (broadcastInDim S262144x36 ![0, 1] bcast_S262144x1_S262144x36_0_1 (extractStridedSlice S262144x1 ![0, 7] x0 slices_S262144x16_S262144x1_0_7)) (extractStridedSlice S262144x36 ![0, 0] q slices_S262144x136_S262144x36_0_0)⟩,
     ⟨S262144x45, mulf (broadcastInDim S262144x45 ![0, 1] bcast_S262144x1_S262144x45_0_1 (extractStridedSlice S262144x1 ![0, 8] x0 slices_S262144x16_S262144x1_0_8)) (extractStridedSlice S262144x45 ![0, 0] q slices_S262144x136_S262144x45_0_0)⟩,
     ⟨S262144x55, mulf (broadcastInDim S262144x55 ![0, 1] bcast_S262144x1_S262144x55_0_1 (extractStridedSlice S262144x1 ![0, 9] x0 slices_S262144x16_S262144x1_0_9)) (extractStridedSlice S262144x55 ![0, 0] q slices_S262144x136_S262144x55_0_0)⟩,
     ⟨S262144x66, mulf (broadcastInDim S262144x66 ![0, 1] bcast_S262144x1_S262144x66_0_1 (extractStridedSlice S262144x1 ![0, 10] x0 slices_S262144x16_S262144x1_0_10)) (extractStridedSlice S262144x66 ![0, 0] q slices_S262144x136_S262144x66_0_0)⟩,
     ⟨S262144x78, mulf (broadcastInDim S262144x78 ![0, 1] bcast_S262144x1_S262144x78_0_1 (extractStridedSlice S262144x1 ![0, 11] x0 slices_S262144x16_S262144x1_0_11)) (extractStridedSlice S262144x78 ![0, 0] q slices_S262144x136_S262144x78_0_0)⟩,
     ⟨S262144x91, mulf (broadcastInDim S262144x91 ![0, 1] bcast_S262144x1_S262144x91_0_1 (extractStridedSlice S262144x1 ![0, 12] x0 slices_S262144x16_S262144x1_0_12)) (extractStridedSlice S262144x91 ![0, 0] q slices_S262144x136_S262144x91_0_0)⟩,
     ⟨S262144x105, mulf (broadcastInDim S262144x105 ![0, 1] bcast_S262144x1_S262144x105_0_1 (extractStridedSlice S262144x1 ![0, 13] x0 slices_S262144x16_S262144x1_0_13)) (extractStridedSlice S262144x105 ![0, 0] q slices_S262144x136_S262144x105_0_0)⟩,
     ⟨S262144x120, mulf (broadcastInDim S262144x120 ![0, 1] bcast_S262144x1_S262144x120_0_1 (extractStridedSlice S262144x1 ![0, 14] x0 slices_S262144x16_S262144x1_0_14)) (extractStridedSlice S262144x120 ![0, 0] q slices_S262144x136_S262144x120_0_0)⟩,
     ⟨S262144x136, mulf (broadcastInDim S262144x136 ![0, 1] bcast_S262144x1_S262144x136_0_1 (extractStridedSlice S262144x1 ![0, 15] x0 slices_S262144x16_S262144x1_0_15)) q⟩]
    concatenates_S262144x1_S262144x3_S262144x6_S262144x10_S262144x15_S262144x21_S262144x28_S262144x36_S262144x45_S262144x55_S262144x66_S262144x78_S262144x91_S262144x105_S262144x120_S262144x136_S262144x816_d1

/-- The 816-column block of products of triples of columns. -/
def cubicR (x0 : FVec F S262144x16 .f32) : FVec F S262144x816 .f32 := cubicOf x0 (quadR x0)

/-- The column of ones. -/
def onesR : FVec F S262144x1 .f32 :=
  broadcastInDim S262144x1 ![] bcast_S_S262144x1 (constant S_ .f32 0x3F800000#32)

/-- Four blocks laid side by side: 1 + 16 + 136 + 816 = 969 columns. -/
def polyOf (o : FVec F S262144x1 .f32) (x0 : FVec F S262144x16 .f32) (q : FVec F S262144x136 .f32) (c : FVec F S262144x816 .f32) :
    FVec F S262144x969 .f32 :=
  concatenate S262144x969 1 [⟨S262144x1, o⟩, ⟨S262144x16, x0⟩, ⟨S262144x136, q⟩, ⟨S262144x816, c⟩] concatenates_S262144x1_S262144x16_S262144x136_S262144x816_S262144x969_d1

/-- The 969 polynomial features of every row. -/
def polyR (x0 : FVec F S262144x16 .f32) : FVec F S262144x969 .f32 := polyOf onesR x0 (quadR x0) (cubicR x0)

/-- The reference's result: the input plus its features contracted against the weights. -/
def resultR (x0 : FVec F S262144x16 .f32) (W : FVec F S969x16 .f32) : FVec F S262144x16 .f32 :=
  addf x0 (Host.dotGeneral dot_S262144x969_S969x16_S262144x16_1_0_0_1_n_n none (polyR x0) W)

end Cert.RefStages

end
-- ==== Proof.RefRun.lean ====
/-
  The reference's run, read back.

  The reference is a straight line of 131 host operations, printed in three parts run one after the other (each part
  is the line of its own operations, and lines run one after the other are their concatenation run as one); after it every buffer holds the fold of the operations'
  results over the launch contents. The fold is read in three stretches — up to the 136-column block, from there to
  the 816-column block, and the last three operations (laying the four blocks side by side, the contraction against
  the weights, the final sum) — each stretch from contents left arbitrary, so that the 136-column block, which
  seventeen later operations read, is computed once. A concatenation of sixteen operands reads each operand at its
  own buffer (`nary16_result`, the sixteen-operand form of the library's four-operand lemma). Composed, the result
  buffer holds `RefStages.resultR` of the two arguments, and the arguments are unchanged.
-/
import proofs.«160123_j33603824124566_2_alg».proof.Proof.Gen.ReferenceIdeal
import proofs.«160123_j33603824124566_2_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.RefStages

section Library

variable {τ : Topo} {sig : RefSig} {Val : EltTy → Type}

/-- The buffers after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

variable {y x0 x1 x2 x3 x4 x5 x6 x7 x8 x9 x10 x11 x12 x13 x14 x15 : Ref sig .tc}

/-- An operation of sixteen operands leaves at its result buffer its function of the operands' contents, each read
    at its own buffer. -/
theorem nary16_result
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl

theorem nary16_result'
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

end Library

variable {F : FTy → Type} [FloatOps F]

/-- The operations of the first printed part of @main (60). -/
abbrev ops0 : List (HloOp τ sig (Elt F)) :=
  [ nullary main_cst (constant S_ .f32 0x3F800000#32),
    unary main_cst main_v0 (broadcastInDim S262144x1 ![] bcast_S_S262144x1 : (⟨S_, .f32⟩ : BufTy).Contents (Elt F) → (⟨S262144x1, .f32⟩ : BufTy).Contents (Elt F)),
    unary main_arg0 main_v1 ((extractStridedSlice S262144x1 ![0, 0] · slices_S262144x16_S262144x1_0_0) : (⟨S262144x16, .f32⟩ : BufTy).Contents (Elt F) → (⟨S262144x1, .f32⟩ : BufTy).Contents (Elt F)),
    unary main_arg0 main_v2 ((extractStridedSlice S262144x1 ![0, 0] · slices_S262144x16_S262144x1_0_0) : (⟨S262144x16, .f32⟩ : BufTy).Contents (Elt F) → (⟨S262144x1, .f32⟩ : BufTy).Contents (Elt F)),
    binary main_v1 main_v2 main_v3 (mulf : (⟨S262144x1, .f32⟩ : BufTy).Contents (Elt F) → (⟨S262144x1, .f32⟩ : BufTy).Contents (Elt F) → (⟨S262144x1, .f32⟩ : BufTy).Contents (Elt F)),
    unary main_arg0 main_v4 ((extractStridedSlice S262144x1 ![0, 1] · slices_S262144x16_S262144x1_0_1) : (⟨S262144x16, .f32⟩ : BufTy).Contents (Elt F) → (⟨S262144x1, .f32⟩ : BufTy).Contents (Elt F)),
    unary main_arg0 main_v5 ((extractStridedSlice S262144x2 ![0, 0] · slices_S262144x16_S262144x2_0_0) : (⟨S262144x16, .f32⟩ : BufTy).Contents (Elt F) → (⟨S262144x2, .f32⟩ : BufTy).Contents (Elt F)),
    unary main_v4 main_v6 (broadcastInDim S262144x2 ![0, 1] bcast_S262144x1_S262144x2_0_1 : (⟨S262144x1, .f32⟩ : BufTy).Contents (Elt F) → (⟨S262144x2, .f32⟩ : BufTy).Contents (Elt F)),
    binary main_v6 main_v5 main_v7 (mulf : (⟨S262144x2, .f32⟩ : BufTy).Contents (Elt F) → (⟨S262144x2, .f32⟩ : BufTy).Contents (Elt F) → (⟨S262144x2, .f32⟩ : BufTy).Contents (Elt F)),
    unary main_arg0 main_v8 ((extractStridedSlice S262144x1 ![0, 2] · slices_S262144x16_S262144x1_0_2) : (⟨S262144x16, .f32⟩ : BufTy).Contents (Elt F) → (⟨S262144x1, .f32⟩ : BufTy).Contents (Elt F)),
    unary main_arg0 main_v9 ((extractStridedSlice S262144x3 ![0, 0] · slices_S262144x16_S262144x3_0_0) : (⟨S262144x16, .f32⟩ : BufTy).Contents (Elt F) → (⟨S262144x3, .f32⟩ : BufTy).Contents (Elt F)),
    unary main_v8 main_v10 (broadcastInDim S262144x3 ![0, 1] bcast_S262144x1_S262144x3_0_1 : (⟨S262144x1, .f32⟩ : BufTy).Contents (Elt F) → (⟨S262144x3, .f32⟩ : BufTy).Contents (Elt F)),
    binary main_v10 main_v9 main_v11 (mulf : (⟨S262144x3, .f32⟩ : BufTy).Contents (Elt F) → (⟨S262144x3, .f32⟩ : BufTy).Contents (Elt F) → (⟨S262144x3, .f32⟩ : BufTy).Contents (Elt F)),
    unary main_arg0 main_v12 ((extractStridedSlice S262144x1 ![0, 3] · slices_S262144x16_S262144x1_0_3) : (⟨S262144x16, .f32⟩ : BufTy).Contents (Elt F) → (⟨S262144x1, .f32⟩ : BufTy).Contents (Elt F)),
    unary main_arg0 main_v13 ((extractStridedSlice S262144x4 ![0, 0] · slices_S262144x16_S262144x4_0_0) : (⟨S262144x16, .f32⟩ : BufTy).Contents (Elt F) → (⟨S262144x4, .f32⟩ : BufTy).Contents (Elt F)),
    unary main_v12 main_v14 (broadcastInDim S262144x4 ![0, 1] bcast_S262144x1_S262144x4_0_1 : (⟨S262144x1, .f32⟩ : BufTy).Contents (Elt F) → (⟨S262144x4, .f32⟩ : BufTy).Contents (Elt F)),
    binary main_v14 main_v13 main_v15 (mulf : (⟨S262144x4, .f32⟩ : BufTy).Contents (Elt F) → (⟨S262144x4, .f32⟩ : BufTy).Contents (Elt F) → (⟨S262144x4, .f32⟩ : BufTy).Contents (Elt F)),
    unary main_arg0 main_v16 ((extractStridedSlice S262144x1 ![0, 4] · slices_S262144x16_S262144x1_0_4) : (⟨S262144x16, .f32⟩ : BufTy).Contents (Elt F) → (⟨S262144x1, .f32⟩ : BufTy).Contents (Elt F)),
    unary main_arg0 main_v17 ((extractStridedSlice S262144x5 ![0, 0] · slices_S262144x16_S262144x5_0_0) : (⟨S262144x16, .f32⟩ : BufTy).Contents (Elt F) → (⟨S262144x5, .f32⟩ : BufTy).Contents (Elt F)),
    unary main_v16 main_v18 (broadcastInDim S262144x5 ![0, 1] bcast_S262144x1_S262144x5_0_1 : (⟨S262144x1, .f32⟩ : BufTy).Contents (Elt F) → (⟨S262144x5, .f32⟩ : BufTy).Contents (Elt F)),
    binary main_v18 main_v17 main_v19 (mulf : (⟨S262144x5, .f32⟩ : BufTy).Contents (Elt F) → (⟨S262144x5, .f32⟩ : BufTy).Contents (Elt F) → (⟨S262144x5, .f32⟩ : BufTy).Contents (Elt F)),
    unary main_arg0 main_v20 ((extractStridedSlice S262144x1 ![0, 5] · slices_S262144x16_S262144x1_0_5) : (⟨S262144x16, .f32⟩ : BufTy).Contents (Elt F) → (⟨S262144x1, .f32⟩ : BufTy).Contents (Elt F)),
    unary main_arg0 main_v21 ((extractStridedSlice S262144x6 ![0, 0] · slices_S262144x16_S262144x6_0_0) : (⟨S262144x16, .f32⟩ : BufTy).Contents (Elt F) → (⟨S262144x6, .f32⟩ : BufTy).Contents (Elt F)),
    unary main_v20 main_v22 (broadcastInDim S262144x6 ![0, 1] bcast_S262144x1_S262144x6_0_1 : (⟨S262144x1, .f32⟩ : BufTy).Contents (Elt F) → (⟨S262144x6, .f32⟩ : BufTy).Contents (Elt F)),
    binary main_v22 main_v21 main_v23 (mulf : (⟨S262144x6, .f32⟩ : BufTy).Contents (Elt F) → (⟨S262144x6, .f32⟩ : BufTy).Contents (Elt F) → (⟨S262144x6, .f32⟩ : BufTy).Contents (Elt F)),
    unary main_arg0 main_v24 ((extractStridedSlice S262144x1 ![0, 6] · slices_S262144x16_S262144x1_0_6) : (⟨S262144x16, .f32⟩ : BufTy).Contents (Elt F) → (⟨S262144x1, .f32⟩ : BufTy).Contents (Elt F)),
    unary main_arg0 main_v25 ((extractStridedSlice S262144x7 ![0, 0] · slices_S262144x16_S262144x7_0_0) : (⟨S262144x16, .f32⟩ : BufTy).Contents (Elt F) → (⟨S262144x7, .f32⟩ : BufTy).Contents (Elt F)),
    unary main_v24 main_v26 (broadcastInDim S262144x7 ![0, 1] bcast_S262144x1_S262144x7_0_1 : (⟨S262144x1, .f32⟩ : BufTy).Contents (Elt F) → (⟨S262144x7, .f32⟩ : BufTy).Contents (Elt F)),
    binary main_v26 main_v25 main_v27 (mulf : (⟨S262144x7, .f32⟩ : BufTy).Contents (Elt F) → (⟨S262144x7, .f32⟩ : BufTy).Contents (Elt F) → (⟨S262144x7, .f32⟩ : BufTy).Contents (Elt F)),
    unary main_arg0 main_v28 ((extractStridedSlice S262144x1 ![0, 7] · slices_S262144x16_S262144x1_0_7) : (⟨S262144x16, .f32⟩ : BufTy).Contents (Elt F) → (⟨S262144x1, .f32⟩ : BufTy).Contents (Elt F)),
    unary main_arg0 main_v29 ((extractStridedSlice S262144x8 ![0, 0] · slices_S262144x16_S262144x8_0_0) : (⟨S262144x16, .f32⟩ : BufTy).Contents (Elt F) → (⟨S262144x8, .f32⟩ : BufTy).Contents (Elt F)),
    unary main_v28 main_v30 (broadcastInDim S262144x8 ![0, 1] bcast_S262144x1_S262144x8_0_1 : (⟨S262144x1, .f32⟩ : BufTy).Contents (Elt F) → (⟨S262144x8, .f32⟩ : BufTy).Contents (Elt F)),
    binary main_v30 main_v29 main_v31 (mulf : (⟨S262144x8, .f32⟩ : BufTy).Contents (Elt F) → (⟨S262144x8, .f32⟩ : BufTy).Contents (Elt F) → (⟨S262144x8, .f32⟩ : BufTy).Contents (Elt F)),
    unary main_arg0 main_v32 ((extractStridedSlice S262144x1 ![0, 8] · slices_S262144x16_S262144x1_0_8) : (⟨S262144x16, .f32⟩ : BufTy).Contents (Elt F) → (⟨S262144x1, .f32⟩ : BufTy).Contents (Elt F)),
    unary main_arg0 main_v33 ((extractStridedSlice S262144x9 ![0, 0] · slices_S262144x16_S262144x9_0_0) : (⟨S262144x16, .f32⟩ : BufTy).Contents (Elt F) → (⟨S262144x9, .f32⟩ : BufTy).Contents (Elt F)),
    unary main_v32 main_v34 (broadcastInDim S262144x9 ![0, 1] bcast_S262144x1_S262144x9_0_1 : (⟨S262144x1, .f32⟩ : BufTy).Contents (Elt F) → (⟨S262144x9, .f32⟩ : BufTy).Contents (Elt F)),
    binary main_v34 main_v33 main_v35 (mulf : (⟨S262144x9, .f32⟩ : BufTy).Contents (Elt F) → (⟨S262144x9, .f32⟩ : BufTy).Contents (Elt F) → (⟨S262144x9, .f32⟩ : BufTy).Contents (Elt F)),
    unary main_arg0 main_v36 ((extractStridedSlice S262144x1 ![0, 9] · slices_S262144x16_S262144x1_0_9) : (⟨S262144x16, .f32⟩ : BufTy).Contents (Elt F) → (⟨S262144x1, .f32⟩ : BufTy).Contents (Elt F)),
    unary main_arg0 main_v37 ((extractStridedSlice S262144x10 ![0, 0] · slices_S262144x16_S262144x10_0_0) : (⟨S262144x16, .f32⟩ : BufTy).Contents (Elt F) → (⟨S262144x10, .f32⟩ : BufTy).Contents (Elt F)),
    unary main_v36 main_v38 (broadcastInDim S262144x10 ![0, 1] bcast_S262144x1_S262144x10_0_1 : (⟨S262144x1, .f32⟩ : BufTy).Contents (Elt F) → (⟨S262144x10, .f32⟩ : BufTy).Contents (Elt F)),
    binary main_v38 main_v37 main_v39 (mulf : (⟨S262144x10, .f32⟩ : BufTy).Contents (Elt F) → (⟨S262144x10, .f32⟩ : BufTy).Contents (Elt F) → (⟨S262144x10, .f32⟩ : BufTy).Contents (Elt F)),
    unary main_arg0 main_v40 ((extractStridedSlice S262144x1 ![0, 10] · slices_S262144x16_S262144x1_0_10) : (⟨S262144x16, .f32⟩ : BufTy).Contents (Elt F) → (⟨S262144x1, .f32⟩ : BufTy).Contents (Elt F)),
    unary main_arg0 main_v41 ((extractStridedSlice S262144x11 ![0, 0] · slices_S262144x16_S262144x11_0_0) : (⟨S262144x16, .f32⟩ : BufTy).Contents (Elt F) → (⟨S262144x11, .f32⟩ : BufTy).Contents (Elt F)),
    unary main_v40 main_v42 (broadcastInDim S262144x11 ![0, 1] bcast_S262144x1_S262144x11_0_1 : (⟨S262144x1, .f32⟩ : BufTy).Contents (Elt F) → (⟨S262144x11, .f32⟩ : BufTy).Contents (Elt F)),
    binary main_v42 main_v41 main_v43 (mulf : (⟨S262144x11, .f32⟩ : BufTy).Contents (Elt F) → (⟨S262144x11, .f32⟩ : BufTy).Contents (Elt F) → (⟨S262144x11, .f32⟩ : BufTy).Contents (Elt F)),
    unary main_arg0 main_v44 ((extractStridedSlice S262144x1 ![0, 11] · slices_S262144x16_S262144x1_0_11) : (⟨S262144x16, .f32⟩ : BufTy).Contents (Elt F) → (⟨S262144x1, .f32⟩ : BufTy).Contents (Elt F)),
    unary main_arg0 main_v45 ((extractStridedSlice S262144x12 ![0, 0] · slices_S262144x16_S262144x12_0_0) : (⟨S262144x16, .f32⟩ : BufTy).Contents (Elt F) → (⟨S262144x12, .f32⟩ : BufTy).Contents (Elt F)),
    unary main_v44 main_v46 (broadcastInDim S262144x12 ![0, 1] bcast_S262144x1_S262144x12_0_1 : (⟨S262144x1, .f32⟩ : BufTy).Contents (Elt F) → (⟨S262144x12, .f32⟩ : BufTy).Contents (Elt F)),
    binary main_v46 main_v45 main_v47 (mulf : (⟨S262144x12, .f32⟩ : BufTy).Contents (Elt F) → (⟨S262144x12, .f32⟩ : BufTy).Contents (Elt F) → (⟨S262144x12, .f32⟩ : BufTy).Contents (Elt F)),
    unary main_arg0 main_v48 ((extractStridedSlice S262144x1 ![0, 12] · slices_S262144x16_S262144x1_0_12) : (⟨S262144x16, .f32⟩ : BufTy).Contents (Elt F) → (⟨S262144x1, .f32⟩ : BufTy).Contents (Elt F)),
    unary main_arg0 main_v49 ((extractStridedSlice S262144x13 ![0, 0] · slices_S262144x16_S262144x13_0_0) : (⟨S262144x16, .f32⟩ : BufTy).Contents (Elt F) → (⟨S262144x13, .f32⟩ : BufTy).Contents (Elt F)),
    unary main_v48 main_v50 (broadcastInDim S262144x13 ![0, 1] bcast_S262144x1_S262144x13_0_1 : (⟨S262144x1, .f32⟩ : BufTy).Contents (Elt F) → (⟨S262144x13, .f32⟩ : BufTy).Contents (Elt F)),
    binary main_v50 main_v49 main_v51 (mulf : (⟨S262144x13, .f32⟩ : BufTy).Contents (Elt F) → (⟨S262144x13, .f32⟩ : BufTy).Contents (Elt F) → (⟨S262144x13, .f32⟩ : BufTy).Contents (Elt F)),
    unary main_arg0 main_v52 ((extractStridedSlice S262144x1 ![0, 13] · slices_S262144x16_S262144x1_0_13) : (⟨S262144x16, .f32⟩ : BufTy).Contents (Elt F) → (⟨S262144x1, .f32⟩ : BufTy).Contents (Elt F)),
    unary main_arg0 main_v53 ((extractStridedSlice S262144x14 ![0, 0] · slices_S262144x16_S262144x14_0_0) : (⟨S262144x16, .f32⟩ : BufTy).Contents (Elt F) → (⟨S262144x14, .f32⟩ : BufTy).Contents (Elt F)),
    unary main_v52 main_v54 (broadcastInDim S262144x14 ![0, 1] bcast_S262144x1_S262144x14_0_1 : (⟨S262144x1, .f32⟩ : BufTy).Contents (Elt F) → (⟨S262144x14, .f32⟩ : BufTy).Contents (Elt F)),
    binary main_v54 main_v53 main_v55 (mulf : (⟨S262144x14, .f32⟩ : BufTy).Contents (Elt F) → (⟨S262144x14, .f32⟩ : BufTy).Contents (Elt F) → (⟨S262144x14, .f32⟩ : BufTy).Contents (Elt F)),
    unary main_arg0 main_v56 ((extractStridedSlice S262144x1 ![0, 14] · slices_S262144x16_S262144x1_0_14) : (⟨S262144x16, .f32⟩ : BufTy).Contents (Elt F) → (⟨S262144x1, .f32⟩ : BufTy).Contents (Elt F)),
    unary main_arg0 main_v57 ((extractStridedSlice S262144x15 ![0, 0] · slices_S262144x16_S262144x15_0_0) : (⟨S262144x16, .f32⟩ : BufTy).Contents (Elt F) → (⟨S262144x15, .f32⟩ : BufTy).Contents (Elt F)),
    unary main_v56 main_v58 (broadcastInDim S262144x15 ![0, 1] bcast_S262144x1_S262144x15_0_1 : (⟨S262144x1, .f32⟩ : BufTy).Contents (Elt F) → (⟨S262144x15, .f32⟩ : BufTy).Contents (Elt F)) ]

/-- The operations of the second printed part (60). -/
abbrev ops1 : List (HloOp τ sig (Elt F)) :=
  [ binary main_v58 main_v57 main_v59 (mulf : (⟨S262144x15, .f32⟩ : BufTy).Contents (Elt F) → (⟨S262144x15, .f32⟩ : BufTy).Contents (Elt F) → (⟨S262144x15, .f32⟩ : BufTy).Contents (Elt F)),
    unary main_arg0 main_v60 ((extractStridedSlice S262144x1 ![0, 15] · slices_S262144x16_S262144x1_0_15) : (⟨S262144x16, .f32⟩ : BufTy).Contents (Elt F) → (⟨S262144x1, .f32⟩ : BufTy).Contents (Elt F)),
    unary main_v60 main_v61 (broadcastInDim S262144x16 ![0, 1] bcast_S262144x1_S262144x16_0_1 : (⟨S262144x1, .f32⟩ : BufTy).Contents (Elt F) → (⟨S262144x16, .f32⟩ : BufTy).Contents (Elt F)),
    binary main_v61 main_arg0 main_v62 (mulf : (⟨S262144x16, .f32⟩ : BufTy).Contents (Elt F) → (⟨S262144x16, .f32⟩ : BufTy).Contents (Elt F) → (⟨S262144x16, .f32⟩ : BufTy).Contents (Elt F)),
    nary ![main_v3, main_v7, main_v11, main_v15, main_v19, main_v23, main_v27, main_v31, main_v35, main_v39, main_v43, main_v47, main_v51, main_v55, main_v59, main_v62] main_v63 (fun u => concatenate S262144x136 1 [⟨S262144x1, u 0⟩, ⟨S262144x2, u 1⟩, ⟨S262144x3, u 2⟩, ⟨S262144x4, u 3⟩, ⟨S262144x5, u 4⟩, ⟨S262144x6, u 5⟩, ⟨S262144x7, u 6⟩, ⟨S262144x8, u 7⟩, ⟨S262144x9, u 8⟩, ⟨S262144x10, u 9⟩, ⟨S262144x11, u 10⟩, ⟨S262144x12, u 11⟩, ⟨S262144x13, u 12⟩, ⟨S262144x14, u 13⟩, ⟨S262144x15, u 14⟩, ⟨S262144x16, u 15⟩] concatenates_S262144x1_S262144x2_S262144x3_S262144x4_S262144x5_S262144x6_S262144x7_S262144x8_S262144x9_S262144x10_S262144x11_S262144x12_S262144x13_S262144x14_S262144x15_S262144x16_S262144x136_d1),
    unary main_arg0 main_v64 ((extractStridedSlice S262144x1 ![0, 0] · slices_S262144x16_S262144x1_0_0) : (⟨S262144x16, .f32⟩ : BufTy).Contents (Elt F) → (⟨S262144x1, .f32⟩ : BufTy).Contents (Elt F)),
    unary main_v63 main_v65 ((extractStridedSlice S262144x1 ![0, 0] · slices_S262144x136_S262144x1_0_0) : (⟨S262144x136, .f32⟩ : BufTy).Contents (Elt F) → (⟨S262144x1, .f32⟩ : BufTy).Contents (Elt F)),
    binary main_v64 main_v65 main_v66 (mulf : (⟨S262144x1, .f32⟩ : BufTy).Contents (Elt F) → (⟨S262144x1, .f32⟩ : BufTy).Contents (Elt F) → (⟨S262144x1, .f32⟩ : BufTy).Contents (Elt F)),
    unary main_arg0 main_v67 ((extractStridedSlice S262144x1 ![0, 1] · slices_S262144x16_S262144x1_0_1) : (⟨S262144x16, .f32⟩ : BufTy).Contents (Elt F) → (⟨S262144x1, .f32⟩ : BufTy).Contents (Elt F)),
    unary main_v63 main_v68 ((extractStridedSlice S262144x3 ![0, 0] · slices_S262144x136_S262144x3_0_0) : (⟨S262144x136, .f32⟩ : BufTy).Contents (Elt F) → (⟨S262144x3, .f32⟩ : BufTy).Contents (Elt F)),
    unary main_v67 main_v69 (broadcastInDim S262144x3 ![0, 1] bcast_S262144x1_S262144x3_0_1 : (⟨S262144x1, .f32⟩ : BufTy).Contents (Elt F) → (⟨S262144x3, .f32⟩ : BufTy).Contents (Elt F)),
    binary main_v69 main_v68 main_v70 (mulf : (⟨S262144x3, .f32⟩ : BufTy).Contents (Elt F) → (⟨S262144x3, .f32⟩ : BufTy).Contents (Elt F) → (⟨S262144x3, .f32⟩ : BufTy).Contents (Elt F)),
    unary main_arg0 main_v71 ((extractStridedSlice S262144x1 ![0, 2] · slices_S262144x16_S262144x1_0_2) : (⟨S262144x16, .f32⟩ : BufTy).Contents (Elt F) → (⟨S262144x1, .f32⟩ : BufTy).Contents (Elt F)),
    unary main_v63 main_v72 ((extractStridedSlice S262144x6 ![0, 0] · slices_S262144x136_S262144x6_0_0) : (⟨S262144x136, .f32⟩ : BufTy).Contents (Elt F) → (⟨S262144x6, .f32⟩ : BufTy).Contents (Elt F)),
    unary main_v71 main_v73 (broadcastInDim S262144x6 ![0, 1] bcast_S262144x1_S262144x6_0_1 : (⟨S262144x1, .f32⟩ : BufTy).Contents (Elt F) → (⟨S262144x6, .f32⟩ : BufTy).Contents (Elt F)),
    binary main_v73 main_v72 main_v74 (mulf : (⟨S262144x6, .f32⟩ : BufTy).Contents (Elt F) → (⟨S262144x6, .f32⟩ : BufTy).Contents (Elt F) → (⟨S262144x6, .f32⟩ : BufTy).Contents (Elt F)),
    unary main_arg0 main_v75 ((extractStridedSlice S262144x1 ![0, 3] · slices_S262144x16_S262144x1_0_3) : (⟨S262144x16, .f32⟩ : BufTy).Contents (Elt F) → (⟨S262144x1, .f32⟩ : BufTy).Contents (Elt F)),
    unary main_v63 main_v76 ((extractStridedSlice S262144x10 ![0, 0] · slices_S262144x136_S262144x10_0_0) : (⟨S262144x136, .f32⟩ : BufTy).Contents (Elt F) → (⟨S262144x10, .f32⟩ : BufTy).Contents (Elt F)),
    unary main_v75 main_v77 (broadcastInDim S262144x10 ![0, 1] bcast_S262144x1_S262144x10_0_1 : (⟨S262144x1, .f32⟩ : BufTy).Contents (Elt F) → (⟨S262144x10, .f32⟩ : BufTy).Contents (Elt F)),
    binary main_v77 main_v76 main_v78 (mulf : (⟨S262144x10, .f32⟩ : BufTy).Contents (Elt F) → (⟨S262144x10, .f32⟩ : BufTy).Contents (Elt F) → (⟨S262144x10, .f32⟩ : BufTy).Contents (Elt F)),
    unary main_arg0 main_v79 ((extractStridedSlice S262144x1 ![0, 4] · slices_S262144x16_S262144x1_0_4) : (⟨S262144x16, .f32⟩ : BufTy).Contents (Elt F) → (⟨S262144x1, .f32⟩ : BufTy).Contents (Elt F)),
    unary main_v63 main_v80 ((extractStridedSlice S262144x15 ![0, 0] · slices_S262144x136_S262144x15_0_0) : (⟨S262144x136, .f32⟩ : BufTy).Contents (Elt F) → (⟨S262144x15, .f32⟩ : BufTy).Contents (Elt F)),
    unary main_v79 main_v81 (broadcastInDim S262144x15 ![0, 1] bcast_S262144x1_S262144x15_0_1 : (⟨S262144x1, .f32⟩ : BufTy).Contents (Elt F) → (⟨S262144x15, .f32⟩ : BufTy).Contents (Elt F)),
    binary main_v81 main_v80 main_v82 (mulf : (⟨S262144x15, .f32⟩ : BufTy).Contents (Elt F) → (⟨S262144x15, .f32⟩ : BufTy).Contents (Elt F) → (⟨S262144x15, .f32⟩ : BufTy).Contents (Elt F)),
    unary main_arg0 main_v83 ((extractStridedSlice S262144x1 ![0, 5] · slices_S262144x16_S262144x1_0_5) : (⟨S262144x16, .f32⟩ : BufTy).Contents (Elt F) → (⟨S262144x1, .f32⟩ : BufTy).Contents (Elt F)),
    unary main_v63 main_v84 ((extractStridedSlice S262144x21 ![0, 0] · slices_S262144x136_S262144x21_0_0) : (⟨S262144x136, .f32⟩ : BufTy).Contents (Elt F) → (⟨S262144x21, .f32⟩ : BufTy).Contents (Elt F)),
    unary main_v83 main_v85 (broadcastInDim S262144x21 ![0, 1] bcast_S262144x1_S262144x21_0_1 : (⟨S262144x1, .f32⟩ : BufTy).Contents (Elt F) → (⟨S262144x21, .f32⟩ : BufTy).Contents (Elt F)),
    binary main_v85 main_v84 main_v86 (mulf : (⟨S262144x21, .f32⟩ : BufTy).Contents (Elt F) → (⟨S262144x21, .f32⟩ : BufTy).Contents (Elt F) → (⟨S262144x21, .f32⟩ : BufTy).Contents (Elt F)),
    unary main_arg0 main_v87 ((extractStridedSlice S262144x1 ![0, 6] · slices_S262144x16_S262144x1_0_6) : (⟨S262144x16, .f32⟩ : BufTy).Contents (Elt F) → (⟨S262144x1, .f32⟩ : BufTy).Contents (Elt F)),
    unary main_v63 main_v88 ((extractStridedSlice S262144x28 ![0, 0] · slices_S262144x136_S262144x28_0_0) : (⟨S262144x136, .f32⟩ : BufTy).Contents (Elt F) → (⟨S262144x28, .f32⟩ : BufTy).Contents (Elt F)),
    unary main_v87 main_v89 (broadcastInDim S262144x28 ![0, 1] bcast_S262144x1_S262144x28_0_1 : (⟨S262144x1, .f32⟩ : BufTy).Contents (Elt F) → (⟨S262144x28, .f32⟩ : BufTy).Contents (Elt F)),
    binary main_v89 main_v88 main_v90 (mulf : (⟨S262144x28, .f32⟩ : BufTy).Contents (Elt F) → (⟨S262144x28, .f32⟩ : BufTy).Contents (Elt F) → (⟨S262144x28, .f32⟩ : BufTy).Contents (Elt F)),
    unary main_arg0 main_v91 ((extractStridedSlice S262144x1 ![0, 7] · slices_S262144x16_S262144x1_0_7) : (⟨S262144x16, .f32⟩ : BufTy).Contents (Elt F) → (⟨S262144x1, .f32⟩ : BufTy).Contents (Elt F)),
    unary main_v63 main_v92 ((extractStridedSlice S262144x36 ![0, 0] · slices_S262144x136_S262144x36_0_0) : (⟨S262144x136, .f32⟩ : BufTy).Contents (Elt F) → (⟨S262144x36, .f32⟩ : BufTy).Contents (Elt F)),
    unary main_v91 main_v93 (broadcastInDim S262144x36 ![0, 1] bcast_S262144x1_S262144x36_0_1 : (⟨S262144x1, .f32⟩ : BufTy).Contents (Elt F) → (⟨S262144x36, .f32⟩ : BufTy).Contents (Elt F)),
    binary main_v93 main_v92 main_v94 (mulf : (⟨S262144x36, .f32⟩ : BufTy).Contents (Elt F) → (⟨S262144x36, .f32⟩ : BufTy).Contents (Elt F) → (⟨S262144x36, .f32⟩ : BufTy).Contents (Elt F)),
    unary main_arg0 main_v95 ((extractStridedSlice S262144x1 ![0, 8] · slices_S262144x16_S262144x1_0_8) : (⟨S262144x16, .f32⟩ : BufTy).Contents (Elt F) → (⟨S262144x1, .f32⟩ : BufTy).Contents (Elt F)),
    unary main_v63 main_v96 ((extractStridedSlice S262144x45 ![0, 0] · slices_S262144x136_S262144x45_0_0) : (⟨S262144x136, .f32⟩ : BufTy).Contents (Elt F) → (⟨S262144x45, .f32⟩ : BufTy).Contents (Elt F)),
    unary main_v95 main_v97 (broadcastInDim S262144x45 ![0, 1] bcast_S262144x1_S262144x45_0_1 : (⟨S262144x1, .f32⟩ : BufTy).Contents (Elt F) → (⟨S262144x45, .f32⟩ : BufTy).Contents (Elt F)),
    binary main_v97 main_v96 main_v98 (mulf : (⟨S262144x45, .f32⟩ : BufTy).Contents (Elt F) → (⟨S262144x45, .f32⟩ : BufTy).Contents (Elt F) → (⟨S262144x45, .f32⟩ : BufTy).Contents (Elt F)),
    unary main_arg0 main_v99 ((extractStridedSlice S262144x1 ![0, 9] · slices_S262144x16_S262144x1_0_9) : (⟨S262144x16, .f32⟩ : BufTy).Contents (Elt F) → (⟨S262144x1, .f32⟩ : BufTy).Contents (Elt F)),
    unary main_v63 main_v100 ((extractStridedSlice S262144x55 ![0, 0] · slices_S262144x136_S262144x55_0_0) : (⟨S262144x136, .f32⟩ : BufTy).Contents (Elt F) → (⟨S262144x55, .f32⟩ : BufTy).Contents (Elt F)),
    unary main_v99 main_v101 (broadcastInDim S262144x55 ![0, 1] bcast_S262144x1_S262144x55_0_1 : (⟨S262144x1, .f32⟩ : BufTy).Contents (Elt F) → (⟨S262144x55, .f32⟩ : BufTy).Contents (Elt F)),
    binary main_v101 main_v100 main_v102 (mulf : (⟨S262144x55, .f32⟩ : BufTy).Contents (Elt F) → (⟨S262144x55, .f32⟩ : BufTy).Contents (Elt F) → (⟨S262144x55, .f32⟩ : BufTy).Contents (Elt F)),
    unary main_arg0 main_v103 ((extractStridedSlice S262144x1 ![0, 10] · slices_S262144x16_S262144x1_0_10) : (⟨S262144x16, .f32⟩ : BufTy).Contents (Elt F) → (⟨S262144x1, .f32⟩ : BufTy).Contents (Elt F)),
    unary main_v63 main_v104 ((extractStridedSlice S262144x66 ![0, 0] · slices_S262144x136_S262144x66_0_0) : (⟨S262144x136, .f32⟩ : BufTy).Contents (Elt F) → (⟨S262144x66, .f32⟩ : BufTy).Contents (Elt F)),
    unary main_v103 main_v105 (broadcastInDim S262144x66 ![0, 1] bcast_S262144x1_S262144x66_0_1 : (⟨S262144x1, .f32⟩ : BufTy).Contents (Elt F) → (⟨S262144x66, .f32⟩ : BufTy).Contents (Elt F)),
    binary main_v105 main_v104 main_v106 (mulf : (⟨S262144x66, .f32⟩ : BufTy).Contents (Elt F) → (⟨S262144x66, .f32⟩ : BufTy).Contents (Elt F) → (⟨S262144x66, .f32⟩ : BufTy).Contents (Elt F)),
    unary main_arg0 main_v107 ((extractStridedSlice S262144x1 ![0, 11] · slices_S262144x16_S262144x1_0_11) : (⟨S262144x16, .f32⟩ : BufTy).Contents (Elt F) → (⟨S262144x1, .f32⟩ : BufTy).Contents (Elt F)),
    unary main_v63 main_v108 ((extractStridedSlice S262144x78 ![0, 0] · slices_S262144x136_S262144x78_0_0) : (⟨S262144x136, .f32⟩ : BufTy).Contents (Elt F) → (⟨S262144x78, .f32⟩ : BufTy).Contents (Elt F)),
    unary main_v107 main_v109 (broadcastInDim S262144x78 ![0, 1] bcast_S262144x1_S262144x78_0_1 : (⟨S262144x1, .f32⟩ : BufTy).Contents (Elt F) → (⟨S262144x78, .f32⟩ : BufTy).Contents (Elt F)),
    binary main_v109 main_v108 main_v110 (mulf : (⟨S262144x78, .f32⟩ : BufTy).Contents (Elt F) → (⟨S262144x78, .f32⟩ : BufTy).Contents (Elt F) → (⟨S262144x78, .f32⟩ : BufTy).Contents (Elt F)),
    unary main_arg0 main_v111 ((extractStridedSlice S262144x1 ![0, 12] · slices_S262144x16_S262144x1_0_12) : (⟨S262144x16, .f32⟩ : BufTy).Contents (Elt F) → (⟨S262144x1, .f32⟩ : BufTy).Contents (Elt F)),
    unary main_v63 main_v112 ((extractStridedSlice S262144x91 ![0, 0] · slices_S262144x136_S262144x91_0_0) : (⟨S262144x136, .f32⟩ : BufTy).Contents (Elt F) → (⟨S262144x91, .f32⟩ : BufTy).Contents (Elt F)),
    unary main_v111 main_v113 (broadcastInDim S262144x91 ![0, 1] bcast_S262144x1_S262144x91_0_1 : (⟨S262144x1, .f32⟩ : BufTy).Contents (Elt F) → (⟨S262144x91, .f32⟩ : BufTy).Contents (Elt F)),
    binary main_v113 main_v112 main_v114 (mulf : (⟨S262144x91, .f32⟩ : BufTy).Contents (Elt F) → (⟨S262144x91, .f32⟩ : BufTy).Contents (Elt F) → (⟨S262144x91, .f32⟩ : BufTy).Contents (Elt F)),
    unary main_arg0 main_v115 ((extractStridedSlice S262144x1 ![0, 13] · slices_S262144x16_S262144x1_0_13) : (⟨S262144x16, .f32⟩ : BufTy).Contents (Elt F) → (⟨S262144x1, .f32⟩ : BufTy).Contents (Elt F)),
    unary main_v63 main_v116 ((extractStridedSlice S262144x105 ![0, 0] · slices_S262144x136_S262144x105_0_0) : (⟨S262144x136, .f32⟩ : BufTy).Contents (Elt F) → (⟨S262144x105, .f32⟩ : BufTy).Contents (Elt F)),
    unary main_v115 main_v117 (broadcastInDim S262144x105 ![0, 1] bcast_S262144x1_S262144x105_0_1 : (⟨S262144x1, .f32⟩ : BufTy).Contents (Elt F) → (⟨S262144x105, .f32⟩ : BufTy).Contents (Elt F)),
    binary main_v117 main_v116 main_v118 (mulf : (⟨S262144x105, .f32⟩ : BufTy).Contents (Elt F) → (⟨S262144x105, .f32⟩ : BufTy).Contents (Elt F) → (⟨S262144x105, .f32⟩ : BufTy).Contents (Elt F)) ]

/-- The operations of the third printed part (11). -/
abbrev ops2 : List (HloOp τ sig (Elt F)) :=
  [ unary main_arg0 main_v119 ((extractStridedSlice S262144x1 ![0, 14] · slices_S262144x16_S262144x1_0_14) : (⟨S262144x16, .f32⟩ : BufTy).Contents (Elt F) → (⟨S262144x1, .f32⟩ : BufTy).Contents (Elt F)),
    unary main_v63 main_v120 ((extractStridedSlice S262144x120 ![0, 0] · slices_S262144x136_S262144x120_0_0) : (⟨S262144x136, .f32⟩ : BufTy).Contents (Elt F) → (⟨S262144x120, .f32⟩ : BufTy).Contents (Elt F)),
    unary main_v119 main_v121 (broadcastInDim S262144x120 ![0, 1] bcast_S262144x1_S262144x120_0_1 : (⟨S262144x1, .f32⟩ : BufTy).Contents (Elt F) → (⟨S262144x120, .f32⟩ : BufTy).Contents (Elt F)),
    binary main_v121 main_v120 main_v122 (mulf : (⟨S262144x120, .f32⟩ : BufTy).Contents (Elt F) → (⟨S262144x120, .f32⟩ : BufTy).Contents (Elt F) → (⟨S262144x120, .f32⟩ : BufTy).Contents (Elt F)),
    unary main_arg0 main_v123 ((extractStridedSlice S262144x1 ![0, 15] · slices_S262144x16_S262144x1_0_15) : (⟨S262144x16, .f32⟩ : BufTy).Contents (Elt F) → (⟨S262144x1, .f32⟩ : BufTy).Contents (Elt F)),
    unary main_v123 main_v124 (broadcastInDim S262144x136 ![0, 1] bcast_S262144x1_S262144x136_0_1 : (⟨S262144x1, .f32⟩ : BufTy).Contents (Elt F) → (⟨S262144x136, .f32⟩ : BufTy).Contents (Elt F)),
    binary main_v124 main_v63 main_v125 (mulf : (⟨S262144x136, .f32⟩ : BufTy).Contents (Elt F) → (⟨S262144x136, .f32⟩ : BufTy).Contents (Elt F) → (⟨S262144x136, .f32⟩ : BufTy).Contents (Elt F)),
    nary ![main_v66, main_v70, main_v74, main_v78, main_v82, main_v86, main_v90, main_v94, main_v98, main_v102, main_v106, main_v110, main_v114, main_v118, main_v122, main_v125] main_v126 (fun u => concatenate S262144x816 1 [⟨S262144x1, u 0⟩, ⟨S262144x3, u 1⟩, ⟨S262144x6, u 2⟩, ⟨S262144x10, u 3⟩, ⟨S262144x15, u 4⟩, ⟨S262144x21, u 5⟩, ⟨S262144x28, u 6⟩, ⟨S262144x36, u 7⟩, ⟨S262144x45, u 8⟩, ⟨S262144x55, u 9⟩, ⟨S262144x66, u 10⟩, ⟨S262144x78, u 11⟩, ⟨S262144x91, u 12⟩, ⟨S262144x105, u 13⟩, ⟨S262144x120, u 14⟩, ⟨S262144x136, u 15⟩] concatenates_S262144x1_S262144x3_S262144x6_S262144x10_S262144x15_S262144x21_S262144x28_S262144x36_S262144x45_S262144x55_S262144x66_S262144x78_S262144x91_S262144x105_S262144x120_S262144x136_S262144x816_d1),
    nary ![main_v0, main_arg0, main_v63, main_v126] main_v127 (fun u => concatenate S262144x969 1 [⟨S262144x1, u 0⟩, ⟨S262144x16, u 1⟩, ⟨S262144x136, u 2⟩, ⟨S262144x816, u 3⟩] concatenates_S262144x1_S262144x16_S262144x136_S262144x816_S262144x969_d1),
    binary main_v127 main_arg1 main_v128 ((fun l r => Host.dotGeneral dot_S262144x969_S969x16_S262144x16_1_0_0_1_n_n none l r) : (⟨S262144x969, .f32⟩ : BufTy).Contents (Elt F) → (⟨S969x16, .f32⟩ : BufTy).Contents (Elt F) → (⟨S262144x16, .f32⟩ : BufTy).Contents (Elt F)),
    binary main_arg0 main_v128 main_v129 (addf : (⟨S262144x16, .f32⟩ : BufTy).Contents (Elt F) → (⟨S262144x16, .f32⟩ : BufTy).Contents (Elt F) → (⟨S262144x16, .f32⟩ : BufTy).Contents (Elt F)) ]

/-- @main's 131 operations, in order. -/
abbrev ops : List (HloOp τ sig (Elt F)) := ops0 ++ (ops1 ++ ops2)

/-- The same line cut elsewhere — the first 65: up to the 136-column block. -/
abbrev opsA : List (HloOp τ sig (Elt F)) :=
  [ nullary main_cst (constant S_ .f32 0x3F800000#32),
    unary main_cst main_v0 (broadcastInDim S262144x1 ![] bcast_S_S262144x1 : (⟨S_, .f32⟩ : BufTy).Contents (Elt F) → (⟨S262144x1, .f32⟩ : BufTy).Contents (Elt F)),
    unary main_arg0 main_v1 ((extractStridedSlice S262144x1 ![0, 0] · slices_S262144x16_S262144x1_0_0) : (⟨S262144x16, .f32⟩ : BufTy).Contents (Elt F) → (⟨S262144x1, .f32⟩ : BufTy).Contents (Elt F)),
    unary main_arg0 main_v2 ((extractStridedSlice S262144x1 ![0, 0] · slices_S262144x16_S262144x1_0_0) : (⟨S262144x16, .f32⟩ : BufTy).Contents (Elt F) → (⟨S262144x1, .f32⟩ : BufTy).Contents (Elt F)),
    binary main_v1 main_v2 main_v3 (mulf : (⟨S262144x1, .f32⟩ : BufTy).Contents (Elt F) → (⟨S262144x1, .f32⟩ : BufTy).Contents (Elt F) → (⟨S262144x1, .f32⟩ : BufTy).Contents (Elt F)),
    unary main_arg0 main_v4 ((extractStridedSlice S262144x1 ![0, 1] · slices_S262144x16_S262144x1_0_1) : (⟨S262144x16, .f32⟩ : BufTy).Contents (Elt F) → (⟨S262144x1, .f32⟩ : BufTy).Contents (Elt F)),
    unary main_arg0 main_v5 ((extractStridedSlice S262144x2 ![0, 0] · slices_S262144x16_S262144x2_0_0) : (⟨S262144x16, .f32⟩ : BufTy).Contents (Elt F) → (⟨S262144x2, .f32⟩ : BufTy).Contents (Elt F)),
    unary main_v4 main_v6 (broadcastInDim S262144x2 ![0, 1] bcast_S262144x1_S262144x2_0_1 : (⟨S262144x1, .f32⟩ : BufTy).Contents (Elt F) → (⟨S262144x2, .f32⟩ : BufTy).Contents (Elt F)),
    binary main_v6 main_v5 main_v7 (mulf : (⟨S262144x2, .f32⟩ : BufTy).Contents (Elt F) → (⟨S262144x2, .f32⟩ : BufTy).Contents (Elt F) → (⟨S262144x2, .f32⟩ : BufTy).Contents (Elt F)),
    unary main_arg0 main_v8 ((extractStridedSlice S262144x1 ![0, 2] · slices_S262144x16_S262144x1_0_2) : (⟨S262144x16, .f32⟩ : BufTy).Contents (Elt F) → (⟨S262144x1, .f32⟩ : BufTy).Contents (Elt F)),
    unary main_arg0 main_v9 ((extractStridedSlice S262144x3 ![0, 0] · slices_S262144x16_S262144x3_0_0) : (⟨S262144x16, .f32⟩ : BufTy).Contents (Elt F) → (⟨S262144x3, .f32⟩ : BufTy).Contents (Elt F)),
    unary main_v8 main_v10 (broadcastInDim S262144x3 ![0, 1] bcast_S262144x1_S262144x3_0_1 : (⟨S262144x1, .f32⟩ : BufTy).Contents (Elt F) → (⟨S262144x3, .f32⟩ : BufTy).Contents (Elt F)),
    binary main_v10 main_v9 main_v11 (mulf : (⟨S262144x3, .f32⟩ : BufTy).Contents (Elt F) → (⟨S262144x3, .f32⟩ : BufTy).Contents (Elt F) → (⟨S262144x3, .f32⟩ : BufTy).Contents (Elt F)),
    unary main_arg0 main_v12 ((extractStridedSlice S262144x1 ![0, 3] · slices_S262144x16_S262144x1_0_3) : (⟨S262144x16, .f32⟩ : BufTy).Contents (Elt F) → (⟨S262144x1, .f32⟩ : BufTy).Contents (Elt F)),
    unary main_arg0 main_v13 ((extractStridedSlice S262144x4 ![0, 0] · slices_S262144x16_S262144x4_0_0) : (⟨S262144x16, .f32⟩ : BufTy).Contents (Elt F) → (⟨S262144x4, .f32⟩ : BufTy).Contents (Elt F)),
    unary main_v12 main_v14 (broadcastInDim S262144x4 ![0, 1] bcast_S262144x1_S262144x4_0_1 : (⟨S262144x1, .f32⟩ : BufTy).Contents (Elt F) → (⟨S262144x4, .f32⟩ : BufTy).Contents (Elt F)),
    binary main_v14 main_v13 main_v15 (mulf : (⟨S262144x4, .f32⟩ : BufTy).Contents (Elt F) → (⟨S262144x4, .f32⟩ : BufTy).Contents (Elt F) → (⟨S262144x4, .f32⟩ : BufTy).Contents (Elt F)),
    unary main_arg0 main_v16 ((extractStridedSlice S262144x1 ![0, 4] · slices_S262144x16_S262144x1_0_4) : (⟨S262144x16, .f32⟩ : BufTy).Contents (Elt F) → (⟨S262144x1, .f32⟩ : BufTy).Contents (Elt F)),
    unary main_arg0 main_v17 ((extractStridedSlice S262144x5 ![0, 0] · slices_S262144x16_S262144x5_0_0) : (⟨S262144x16, .f32⟩ : BufTy).Contents (Elt F) → (⟨S262144x5, .f32⟩ : BufTy).Contents (Elt F)),
    unary main_v16 main_v18 (broadcastInDim S262144x5 ![0, 1] bcast_S262144x1_S262144x5_0_1 : (⟨S262144x1, .f32⟩ : BufTy).Contents (Elt F) → (⟨S262144x5, .f32⟩ : BufTy).Contents (Elt F)),
    binary main_v18 main_v17 main_v19 (mulf : (⟨S262144x5, .f32⟩ : BufTy).Contents (Elt F) → (⟨S262144x5, .f32⟩ : BufTy).Contents (Elt F) → (⟨S262144x5, .f32⟩ : BufTy).Contents (Elt F)),
    unary main_arg0 main_v20 ((extractStridedSlice S262144x1 ![0, 5] · slices_S262144x16_S262144x1_0_5) : (⟨S262144x16, .f32⟩ : BufTy).Contents (Elt F) → (⟨S262144x1, .f32⟩ : BufTy).Contents (Elt F)),
    unary main_arg0 main_v21 ((extractStridedSlice S262144x6 ![0, 0] · slices_S262144x16_S262144x6_0_0) : (⟨S262144x16, .f32⟩ : BufTy).Contents (Elt F) → (⟨S262144x6, .f32⟩ : BufTy).Contents (Elt F)),
    unary main_v20 main_v22 (broadcastInDim S262144x6 ![0, 1] bcast_S262144x1_S262144x6_0_1 : (⟨S262144x1, .f32⟩ : BufTy).Contents (Elt F) → (⟨S262144x6, .f32⟩ : BufTy).Contents (Elt F)),
    binary main_v22 main_v21 main_v23 (mulf : (⟨S262144x6, .f32⟩ : BufTy).Contents (Elt F) → (⟨S262144x6, .f32⟩ : BufTy).Contents (Elt F) → (⟨S262144x6, .f32⟩ : BufTy).Contents (Elt F)),
    unary main_arg0 main_v24 ((extractStridedSlice S262144x1 ![0, 6] · slices_S262144x16_S262144x1_0_6) : (⟨S262144x16, .f32⟩ : BufTy).Contents (Elt F) → (⟨S262144x1, .f32⟩ : BufTy).Contents (Elt F)),
    unary main_arg0 main_v25 ((extractStridedSlice S262144x7 ![0, 0] · slices_S262144x16_S262144x7_0_0) : (⟨S262144x16, .f32⟩ : BufTy).Contents (Elt F) → (⟨S262144x7, .f32⟩ : BufTy).Contents (Elt F)),
    unary main_v24 main_v26 (broadcastInDim S262144x7 ![0, 1] bcast_S262144x1_S262144x7_0_1 : (⟨S262144x1, .f32⟩ : BufTy).Contents (Elt F) → (⟨S262144x7, .f32⟩ : BufTy).Contents (Elt F)),
    binary main_v26 main_v25 main_v27 (mulf : (⟨S262144x7, .f32⟩ : BufTy).Contents (Elt F) → (⟨S262144x7, .f32⟩ : BufTy).Contents (Elt F) → (⟨S262144x7, .f32⟩ : BufTy).Contents (Elt F)),
    unary main_arg0 main_v28 ((extractStridedSlice S262144x1 ![0, 7] · slices_S262144x16_S262144x1_0_7) : (⟨S262144x16, .f32⟩ : BufTy).Contents (Elt F) → (⟨S262144x1, .f32⟩ : BufTy).Contents (Elt F)),
    unary main_arg0 main_v29 ((extractStridedSlice S262144x8 ![0, 0] · slices_S262144x16_S262144x8_0_0) : (⟨S262144x16, .f32⟩ : BufTy).Contents (Elt F) → (⟨S262144x8, .f32⟩ : BufTy).Contents (Elt F)),
    unary main_v28 main_v30 (broadcastInDim S262144x8 ![0, 1] bcast_S262144x1_S262144x8_0_1 : (⟨S262144x1, .f32⟩ : BufTy).Contents (Elt F) → (⟨S262144x8, .f32⟩ : BufTy).Contents (Elt F)),
    binary main_v30 main_v29 main_v31 (mulf : (⟨S262144x8, .f32⟩ : BufTy).Contents (Elt F) → (⟨S262144x8, .f32⟩ : BufTy).Contents (Elt F) → (⟨S262144x8, .f32⟩ : BufTy).Contents (Elt F)),
    unary main_arg0 main_v32 ((extractStridedSlice S262144x1 ![0, 8] · slices_S262144x16_S262144x1_0_8) : (⟨S262144x16, .f32⟩ : BufTy).Contents (Elt F) → (⟨S262144x1, .f32⟩ : BufTy).Contents (Elt F)),
    unary main_arg0 main_v33 ((extractStridedSlice S262144x9 ![0, 0] · slices_S262144x16_S262144x9_0_0) : (⟨S262144x16, .f32⟩ : BufTy).Contents (Elt F) → (⟨S262144x9, .f32⟩ : BufTy).Contents (Elt F)),
    unary main_v32 main_v34 (broadcastInDim S262144x9 ![0, 1] bcast_S262144x1_S262144x9_0_1 : (⟨S262144x1, .f32⟩ : BufTy).Contents (Elt F) → (⟨S262144x9, .f32⟩ : BufTy).Contents (Elt F)),
    binary main_v34 main_v33 main_v35 (mulf : (⟨S262144x9, .f32⟩ : BufTy).Contents (Elt F) → (⟨S262144x9, .f32⟩ : BufTy).Contents (Elt F) → (⟨S262144x9, .f32⟩ : BufTy).Contents (Elt F)),
    unary main_arg0 main_v36 ((extractStridedSlice S262144x1 ![0, 9] · slices_S262144x16_S262144x1_0_9) : (⟨S262144x16, .f32⟩ : BufTy).Contents (Elt F) → (⟨S262144x1, .f32⟩ : BufTy).Contents (Elt F)),
    unary main_arg0 main_v37 ((extractStridedSlice S262144x10 ![0, 0] · slices_S262144x16_S262144x10_0_0) : (⟨S262144x16, .f32⟩ : BufTy).Contents (Elt F) → (⟨S262144x10, .f32⟩ : BufTy).Contents (Elt F)),
    unary main_v36 main_v38 (broadcastInDim S262144x10 ![0, 1] bcast_S262144x1_S262144x10_0_1 : (⟨S262144x1, .f32⟩ : BufTy).Contents (Elt F) → (⟨S262144x10, .f32⟩ : BufTy).Contents (Elt F)),
    binary main_v38 main_v37 main_v39 (mulf : (⟨S262144x10, .f32⟩ : BufTy).Contents (Elt F) → (⟨S262144x10, .f32⟩ : BufTy).Contents (Elt F) → (⟨S262144x10, .f32⟩ : BufTy).Contents (Elt F)),
    unary main_arg0 main_v40 ((extractStridedSlice S262144x1 ![0, 10] · slices_S262144x16_S262144x1_0_10) : (⟨S262144x16, .f32⟩ : BufTy).Contents (Elt F) → (⟨S262144x1, .f32⟩ : BufTy).Contents (Elt F)),
    unary main_arg0 main_v41 ((extractStridedSlice S262144x11 ![0, 0] · slices_S262144x16_S262144x11_0_0) : (⟨S262144x16, .f32⟩ : BufTy).Contents (Elt F) → (⟨S262144x11, .f32⟩ : BufTy).Contents (Elt F)),
    unary main_v40 main_v42 (broadcastInDim S262144x11 ![0, 1] bcast_S262144x1_S262144x11_0_1 : (⟨S262144x1, .f32⟩ : BufTy).Contents (Elt F) → (⟨S262144x11, .f32⟩ : BufTy).Contents (Elt F)),
    binary main_v42 main_v41 main_v43 (mulf : (⟨S262144x11, .f32⟩ : BufTy).Contents (Elt F) → (⟨S262144x11, .f32⟩ : BufTy).Contents (Elt F) → (⟨S262144x11, .f32⟩ : BufTy).Contents (Elt F)),
    unary main_arg0 main_v44 ((extractStridedSlice S262144x1 ![0, 11] · slices_S262144x16_S262144x1_0_11) : (⟨S262144x16, .f32⟩ : BufTy).Contents (Elt F) → (⟨S262144x1, .f32⟩ : BufTy).Contents (Elt F)),
    unary main_arg0 main_v45 ((extractStridedSlice S262144x12 ![0, 0] · slices_S262144x16_S262144x12_0_0) : (⟨S262144x16, .f32⟩ : BufTy).Contents (Elt F) → (⟨S262144x12, .f32⟩ : BufTy).Contents (Elt F)),
    unary main_v44 main_v46 (broadcastInDim S262144x12 ![0, 1] bcast_S262144x1_S262144x12_0_1 : (⟨S262144x1, .f32⟩ : BufTy).Contents (Elt F) → (⟨S262144x12, .f32⟩ : BufTy).Contents (Elt F)),
    binary main_v46 main_v45 main_v47 (mulf : (⟨S262144x12, .f32⟩ : BufTy).Contents (Elt F) → (⟨S262144x12, .f32⟩ : BufTy).Contents (Elt F) → (⟨S262144x12, .f32⟩ : BufTy).Contents (Elt F)),
    unary main_arg0 main_v48 ((extractStridedSlice S262144x1 ![0, 12] · slices_S262144x16_S262144x1_0_12) : (⟨S262144x16, .f32⟩ : BufTy).Contents (Elt F) → (⟨S262144x1, .f32⟩ : BufTy).Contents (Elt F)),
    unary main_arg0 main_v49 ((extractStridedSlice S262144x13 ![0, 0] · slices_S262144x16_S262144x13_0_0) : (⟨S262144x16, .f32⟩ : BufTy).Contents (Elt F) → (⟨S262144x13, .f32⟩ : BufTy).Contents (Elt F)),
    unary main_v48 main_v50 (broadcastInDim S262144x13 ![0, 1] bcast_S262144x1_S262144x13_0_1 : (⟨S262144x1, .f32⟩ : BufTy).Contents (Elt F) → (⟨S262144x13, .f32⟩ : BufTy).Contents (Elt F)),
    binary main_v50 main_v49 main_v51 (mulf : (⟨S262144x13, .f32⟩ : BufTy).Contents (Elt F) → (⟨S262144x13, .f32⟩ : BufTy).Contents (Elt F) → (⟨S262144x13, .f32⟩ : BufTy).Contents (Elt F)),
    unary main_arg0 main_v52 ((extractStridedSlice S262144x1 ![0, 13] · slices_S262144x16_S262144x1_0_13) : (⟨S262144x16, .f32⟩ : BufTy).Contents (Elt F) → (⟨S262144x1, .f32⟩ : BufTy).Contents (Elt F)),
    unary main_arg0 main_v53 ((extractStridedSlice S262144x14 ![0, 0] · slices_S262144x16_S262144x14_0_0) : (⟨S262144x16, .f32⟩ : BufTy).Contents (Elt F) → (⟨S262144x14, .f32⟩ : BufTy).Contents (Elt F)),
    unary main_v52 main_v54 (broadcastInDim S262144x14 ![0, 1] bcast_S262144x1_S262144x14_0_1 : (⟨S262144x1, .f32⟩ : BufTy).Contents (Elt F) → (⟨S262144x14, .f32⟩ : BufTy).Contents (Elt F)),
    binary main_v54 main_v53 main_v55 (mulf : (⟨S262144x14, .f32⟩ : BufTy).Contents (Elt F) → (⟨S262144x14, .f32⟩ : BufTy).Contents (Elt F) → (⟨S262144x14, .f32⟩ : BufTy).Contents (Elt F)),
    unary main_arg0 main_v56 ((extractStridedSlice S262144x1 ![0, 14] · slices_S262144x16_S262144x1_0_14) : (⟨S262144x16, .f32⟩ : BufTy).Contents (Elt F) → (⟨S262144x1, .f32⟩ : BufTy).Contents (Elt F)),
    unary main_arg0 main_v57 ((extractStridedSlice S262144x15 ![0, 0] · slices_S262144x16_S262144x15_0_0) : (⟨S262144x16, .f32⟩ : BufTy).Contents (Elt F) → (⟨S262144x15, .f32⟩ : BufTy).Contents (Elt F)),
    unary main_v56 main_v58 (broadcastInDim S262144x15 ![0, 1] bcast_S262144x1_S262144x15_0_1 : (⟨S262144x1, .f32⟩ : BufTy).Contents (Elt F) → (⟨S262144x15, .f32⟩ : BufTy).Contents (Elt F)),
    binary main_v58 main_v57 main_v59 (mulf : (⟨S262144x15, .f32⟩ : BufTy).Contents (Elt F) → (⟨S262144x15, .f32⟩ : BufTy).Contents (Elt F) → (⟨S262144x15, .f32⟩ : BufTy).Contents (Elt F)),
    unary main_arg0 main_v60 ((extractStridedSlice S262144x1 ![0, 15] · slices_S262144x16_S262144x1_0_15) : (⟨S262144x16, .f32⟩ : BufTy).Contents (Elt F) → (⟨S262144x1, .f32⟩ : BufTy).Contents (Elt F)),
    unary main_v60 main_v61 (broadcastInDim S262144x16 ![0, 1] bcast_S262144x1_S262144x16_0_1 : (⟨S262144x1, .f32⟩ : BufTy).Contents (Elt F) → (⟨S262144x16, .f32⟩ : BufTy).Contents (Elt F)),
    binary main_v61 main_arg0 main_v62 (mulf : (⟨S262144x16, .f32⟩ : BufTy).Contents (Elt F) → (⟨S262144x16, .f32⟩ : BufTy).Contents (Elt F) → (⟨S262144x16, .f32⟩ : BufTy).Contents (Elt F)),
    nary ![main_v3, main_v7, main_v11, main_v15, main_v19, main_v23, main_v27, main_v31, main_v35, main_v39, main_v43, main_v47, main_v51, main_v55, main_v59, main_v62] main_v63 (fun u => concatenate S262144x136 1 [⟨S262144x1, u 0⟩, ⟨S262144x2, u 1⟩, ⟨S262144x3, u 2⟩, ⟨S262144x4, u 3⟩, ⟨S262144x5, u 4⟩, ⟨S262144x6, u 5⟩, ⟨S262144x7, u 6⟩, ⟨S262144x8, u 7⟩, ⟨S262144x9, u 8⟩, ⟨S262144x10, u 9⟩, ⟨S262144x11, u 10⟩, ⟨S262144x12, u 11⟩, ⟨S262144x13, u 12⟩, ⟨S262144x14, u 13⟩, ⟨S262144x15, u 14⟩, ⟨S262144x16, u 15⟩] concatenates_S262144x1_S262144x2_S262144x3_S262144x4_S262144x5_S262144x6_S262144x7_S262144x8_S262144x9_S262144x10_S262144x11_S262144x12_S262144x13_S262144x14_S262144x15_S262144x16_S262144x136_d1) ]

/-- The next 63: up to the 816-column block. -/
abbrev opsB : List (HloOp τ sig (Elt F)) :=
  [ unary main_arg0 main_v64 ((extractStridedSlice S262144x1 ![0, 0] · slices_S262144x16_S262144x1_0_0) : (⟨S262144x16, .f32⟩ : BufTy).Contents (Elt F) → (⟨S262144x1, .f32⟩ : BufTy).Contents (Elt F)),
    unary main_v63 main_v65 ((extractStridedSlice S262144x1 ![0, 0] · slices_S262144x136_S262144x1_0_0) : (⟨S262144x136, .f32⟩ : BufTy).Contents (Elt F) → (⟨S262144x1, .f32⟩ : BufTy).Contents (Elt F)),
    binary main_v64 main_v65 main_v66 (mulf : (⟨S262144x1, .f32⟩ : BufTy).Contents (Elt F) → (⟨S262144x1, .f32⟩ : BufTy).Contents (Elt F) → (⟨S262144x1, .f32⟩ : BufTy).Contents (Elt F)),
    unary main_arg0 main_v67 ((extractStridedSlice S262144x1 ![0, 1] · slices_S262144x16_S262144x1_0_1) : (⟨S262144x16, .f32⟩ : BufTy).Contents (Elt F) → (⟨S262144x1, .f32⟩ : BufTy).Contents (Elt F)),
    unary main_v63 main_v68 ((extractStridedSlice S262144x3 ![0, 0] · slices_S262144x136_S262144x3_0_0) : (⟨S262144x136, .f32⟩ : BufTy).Contents (Elt F) → (⟨S262144x3, .f32⟩ : BufTy).Contents (Elt F)),
    unary main_v67 main_v69 (broadcastInDim S262144x3 ![0, 1] bcast_S262144x1_S262144x3_0_1 : (⟨S262144x1, .f32⟩ : BufTy).Contents (Elt F) → (⟨S262144x3, .f32⟩ : BufTy).Contents (Elt F)),
    binary main_v69 main_v68 main_v70 (mulf : (⟨S262144x3, .f32⟩ : BufTy).Contents (Elt F) → (⟨S262144x3, .f32⟩ : BufTy).Contents (Elt F) → (⟨S262144x3, .f32⟩ : BufTy).Contents (Elt F)),
    unary main_arg0 main_v71 ((extractStridedSlice S262144x1 ![0, 2] · slices_S262144x16_S262144x1_0_2) : (⟨S262144x16, .f32⟩ : BufTy).Contents (Elt F) → (⟨S262144x1, .f32⟩ : BufTy).Contents (Elt F)),
    unary main_v63 main_v72 ((extractStridedSlice S262144x6 ![0, 0] · slices_S262144x136_S262144x6_0_0) : (⟨S262144x136, .f32⟩ : BufTy).Contents (Elt F) → (⟨S262144x6, .f32⟩ : BufTy).Contents (Elt F)),
    unary main_v71 main_v73 (broadcastInDim S262144x6 ![0, 1] bcast_S262144x1_S262144x6_0_1 : (⟨S262144x1, .f32⟩ : BufTy).Contents (Elt F) → (⟨S262144x6, .f32⟩ : BufTy).Contents (Elt F)),
    binary main_v73 main_v72 main_v74 (mulf : (⟨S262144x6, .f32⟩ : BufTy).Contents (Elt F) → (⟨S262144x6, .f32⟩ : BufTy).Contents (Elt F) → (⟨S262144x6, .f32⟩ : BufTy).Contents (Elt F)),
    unary main_arg0 main_v75 ((extractStridedSlice S262144x1 ![0, 3] · slices_S262144x16_S262144x1_0_3) : (⟨S262144x16, .f32⟩ : BufTy).Contents (Elt F) → (⟨S262144x1, .f32⟩ : BufTy).Contents (Elt F)),
    unary main_v63 main_v76 ((extractStridedSlice S262144x10 ![0, 0] · slices_S262144x136_S262144x10_0_0) : (⟨S262144x136, .f32⟩ : BufTy).Contents (Elt F) → (⟨S262144x10, .f32⟩ : BufTy).Contents (Elt F)),
    unary main_v75 main_v77 (broadcastInDim S262144x10 ![0, 1] bcast_S262144x1_S262144x10_0_1 : (⟨S262144x1, .f32⟩ : BufTy).Contents (Elt F) → (⟨S262144x10, .f32⟩ : BufTy).Contents (Elt F)),
    binary main_v77 main_v76 main_v78 (mulf : (⟨S262144x10, .f32⟩ : BufTy).Contents (Elt F) → (⟨S262144x10, .f32⟩ : BufTy).Contents (Elt F) → (⟨S262144x10, .f32⟩ : BufTy).Contents (Elt F)),
    unary main_arg0 main_v79 ((extractStridedSlice S262144x1 ![0, 4] · slices_S262144x16_S262144x1_0_4) : (⟨S262144x16, .f32⟩ : BufTy).Contents (Elt F) → (⟨S262144x1, .f32⟩ : BufTy).Contents (Elt F)),
    unary main_v63 main_v80 ((extractStridedSlice S262144x15 ![0, 0] · slices_S262144x136_S262144x15_0_0) : (⟨S262144x136, .f32⟩ : BufTy).Contents (Elt F) → (⟨S262144x15, .f32⟩ : BufTy).Contents (Elt F)),
    unary main_v79 main_v81 (broadcastInDim S262144x15 ![0, 1] bcast_S262144x1_S262144x15_0_1 : (⟨S262144x1, .f32⟩ : BufTy).Contents (Elt F) → (⟨S262144x15, .f32⟩ : BufTy).Contents (Elt F)),
    binary main_v81 main_v80 main_v82 (mulf : (⟨S262144x15, .f32⟩ : BufTy).Contents (Elt F) → (⟨S262144x15, .f32⟩ : BufTy).Contents (Elt F) → (⟨S262144x15, .f32⟩ : BufTy).Contents (Elt F)),
    unary main_arg0 main_v83 ((extractStridedSlice S262144x1 ![0, 5] · slices_S262144x16_S262144x1_0_5) : (⟨S262144x16, .f32⟩ : BufTy).Contents (Elt F) → (⟨S262144x1, .f32⟩ : BufTy).Contents (Elt F)),
    unary main_v63 main_v84 ((extractStridedSlice S262144x21 ![0, 0] · slices_S262144x136_S262144x21_0_0) : (⟨S262144x136, .f32⟩ : BufTy).Contents (Elt F) → (⟨S262144x21, .f32⟩ : BufTy).Contents (Elt F)),
    unary main_v83 main_v85 (broadcastInDim S262144x21 ![0, 1] bcast_S262144x1_S262144x21_0_1 : (⟨S262144x1, .f32⟩ : BufTy).Contents (Elt F) → (⟨S262144x21, .f32⟩ : BufTy).Contents (Elt F)),
    binary main_v85 main_v84 main_v86 (mulf : (⟨S262144x21, .f32⟩ : BufTy).Contents (Elt F) → (⟨S262144x21, .f32⟩ : BufTy).Contents (Elt F) → (⟨S262144x21, .f32⟩ : BufTy).Contents (Elt F)),
    unary main_arg0 main_v87 ((extractStridedSlice S262144x1 ![0, 6] · slices_S262144x16_S262144x1_0_6) : (⟨S262144x16, .f32⟩ : BufTy).Contents (Elt F) → (⟨S262144x1, .f32⟩ : BufTy).Contents (Elt F)),
    unary main_v63 main_v88 ((extractStridedSlice S262144x28 ![0, 0] · slices_S262144x136_S262144x28_0_0) : (⟨S262144x136, .f32⟩ : BufTy).Contents (Elt F) → (⟨S262144x28, .f32⟩ : BufTy).Contents (Elt F)),
    unary main_v87 main_v89 (broadcastInDim S262144x28 ![0, 1] bcast_S262144x1_S262144x28_0_1 : (⟨S262144x1, .f32⟩ : BufTy).Contents (Elt F) → (⟨S262144x28, .f32⟩ : BufTy).Contents (Elt F)),
    binary main_v89 main_v88 main_v90 (mulf : (⟨S262144x28, .f32⟩ : BufTy).Contents (Elt F) → (⟨S262144x28, .f32⟩ : BufTy).Contents (Elt F) → (⟨S262144x28, .f32⟩ : BufTy).Contents (Elt F)),
    unary main_arg0 main_v91 ((extractStridedSlice S262144x1 ![0, 7] · slices_S262144x16_S262144x1_0_7) : (⟨S262144x16, .f32⟩ : BufTy).Contents (Elt F) → (⟨S262144x1, .f32⟩ : BufTy).Contents (Elt F)),
    unary main_v63 main_v92 ((extractStridedSlice S262144x36 ![0, 0] · slices_S262144x136_S262144x36_0_0) : (⟨S262144x136, .f32⟩ : BufTy).Contents (Elt F) → (⟨S262144x36, .f32⟩ : BufTy).Contents (Elt F)),
    unary main_v91 main_v93 (broadcastInDim S262144x36 ![0, 1] bcast_S262144x1_S262144x36_0_1 : (⟨S262144x1, .f32⟩ : BufTy).Contents (Elt F) → (⟨S262144x36, .f32⟩ : BufTy).Contents (Elt F)),
    binary main_v93 main_v92 main_v94 (mulf : (⟨S262144x36, .f32⟩ : BufTy).Contents (Elt F) → (⟨S262144x36, .f32⟩ : BufTy).Contents (Elt F) → (⟨S262144x36, .f32⟩ : BufTy).Contents (Elt F)),
    unary main_arg0 main_v95 ((extractStridedSlice S262144x1 ![0, 8] · slices_S262144x16_S262144x1_0_8) : (⟨S262144x16, .f32⟩ : BufTy).Contents (Elt F) → (⟨S262144x1, .f32⟩ : BufTy).Contents (Elt F)),
    unary main_v63 main_v96 ((extractStridedSlice S262144x45 ![0, 0] · slices_S262144x136_S262144x45_0_0) : (⟨S262144x136, .f32⟩ : BufTy).Contents (Elt F) → (⟨S262144x45, .f32⟩ : BufTy).Contents (Elt F)),
    unary main_v95 main_v97 (broadcastInDim S262144x45 ![0, 1] bcast_S262144x1_S262144x45_0_1 : (⟨S262144x1, .f32⟩ : BufTy).Contents (Elt F) → (⟨S262144x45, .f32⟩ : BufTy).Contents (Elt F)),
    binary main_v97 main_v96 main_v98 (mulf : (⟨S262144x45, .f32⟩ : BufTy).Contents (Elt F) → (⟨S262144x45, .f32⟩ : BufTy).Contents (Elt F) → (⟨S262144x45, .f32⟩ : BufTy).Contents (Elt F)),
    unary main_arg0 main_v99 ((extractStridedSlice S262144x1 ![0, 9] · slices_S262144x16_S262144x1_0_9) : (⟨S262144x16, .f32⟩ : BufTy).Contents (Elt F) → (⟨S262144x1, .f32⟩ : BufTy).Contents (Elt F)),
    unary main_v63 main_v100 ((extractStridedSlice S262144x55 ![0, 0] · slices_S262144x136_S262144x55_0_0) : (⟨S262144x136, .f32⟩ : BufTy).Contents (Elt F) → (⟨S262144x55, .f32⟩ : BufTy).Contents (Elt F)),
    unary main_v99 main_v101 (broadcastInDim S262144x55 ![0, 1] bcast_S262144x1_S262144x55_0_1 : (⟨S262144x1, .f32⟩ : BufTy).Contents (Elt F) → (⟨S262144x55, .f32⟩ : BufTy).Contents (Elt F)),
    binary main_v101 main_v100 main_v102 (mulf : (⟨S262144x55, .f32⟩ : BufTy).Contents (Elt F) → (⟨S262144x55, .f32⟩ : BufTy).Contents (Elt F) → (⟨S262144x55, .f32⟩ : BufTy).Contents (Elt F)),
    unary main_arg0 main_v103 ((extractStridedSlice S262144x1 ![0, 10] · slices_S262144x16_S262144x1_0_10) : (⟨S262144x16, .f32⟩ : BufTy).Contents (Elt F) → (⟨S262144x1, .f32⟩ : BufTy).Contents (Elt F)),
    unary main_v63 main_v104 ((extractStridedSlice S262144x66 ![0, 0] · slices_S262144x136_S262144x66_0_0) : (⟨S262144x136, .f32⟩ : BufTy).Contents (Elt F) → (⟨S262144x66, .f32⟩ : BufTy).Contents (Elt F)),
    unary main_v103 main_v105 (broadcastInDim S262144x66 ![0, 1] bcast_S262144x1_S262144x66_0_1 : (⟨S262144x1, .f32⟩ : BufTy).Contents (Elt F) → (⟨S262144x66, .f32⟩ : BufTy).Contents (Elt F)),
    binary main_v105 main_v104 main_v106 (mulf : (⟨S262144x66, .f32⟩ : BufTy).Contents (Elt F) → (⟨S262144x66, .f32⟩ : BufTy).Contents (Elt F) → (⟨S262144x66, .f32⟩ : BufTy).Contents (Elt F)),
    unary main_arg0 main_v107 ((extractStridedSlice S262144x1 ![0, 11] · slices_S262144x16_S262144x1_0_11) : (⟨S262144x16, .f32⟩ : BufTy).Contents (Elt F) → (⟨S262144x1, .f32⟩ : BufTy).Contents (Elt F)),
    unary main_v63 main_v108 ((extractStridedSlice S262144x78 ![0, 0] · slices_S262144x136_S262144x78_0_0) : (⟨S262144x136, .f32⟩ : BufTy).Contents (Elt F) → (⟨S262144x78, .f32⟩ : BufTy).Contents (Elt F)),
    unary main_v107 main_v109 (broadcastInDim S262144x78 ![0, 1] bcast_S262144x1_S262144x78_0_1 : (⟨S262144x1, .f32⟩ : BufTy).Contents (Elt F) → (⟨S262144x78, .f32⟩ : BufTy).Contents (Elt F)),
    binary main_v109 main_v108 main_v110 (mulf : (⟨S262144x78, .f32⟩ : BufTy).Contents (Elt F) → (⟨S262144x78, .f32⟩ : BufTy).Contents (Elt F) → (⟨S262144x78, .f32⟩ : BufTy).Contents (Elt F)),
    unary main_arg0 main_v111 ((extractStridedSlice S262144x1 ![0, 12] · slices_S262144x16_S262144x1_0_12) : (⟨S262144x16, .f32⟩ : BufTy).Contents (Elt F) → (⟨S262144x1, .f32⟩ : BufTy).Contents (Elt F)),
    unary main_v63 main_v112 ((extractStridedSlice S262144x91 ![0, 0] · slices_S262144x136_S262144x91_0_0) : (⟨S262144x136, .f32⟩ : BufTy).Contents (Elt F) → (⟨S262144x91, .f32⟩ : BufTy).Contents (Elt F)),
    unary main_v111 main_v113 (broadcastInDim S262144x91 ![0, 1] bcast_S262144x1_S262144x91_0_1 : (⟨S262144x1, .f32⟩ : BufTy).Contents (Elt F) → (⟨S262144x91, .f32⟩ : BufTy).Contents (Elt F)),
    binary main_v113 main_v112 main_v114 (mulf : (⟨S262144x91, .f32⟩ : BufTy).Contents (Elt F) → (⟨S262144x91, .f32⟩ : BufTy).Contents (Elt F) → (⟨S262144x91, .f32⟩ : BufTy).Contents (Elt F)),
    unary main_arg0 main_v115 ((extractStridedSlice S262144x1 ![0, 13] · slices_S262144x16_S262144x1_0_13) : (⟨S262144x16, .f32⟩ : BufTy).Contents (Elt F) → (⟨S262144x1, .f32⟩ : BufTy).Contents (Elt F)),
    unary main_v63 main_v116 ((extractStridedSlice S262144x105 ![0, 0] · slices_S262144x136_S262144x105_0_0) : (⟨S262144x136, .f32⟩ : BufTy).Contents (Elt F) → (⟨S262144x105, .f32⟩ : BufTy).Contents (Elt F)),
    unary main_v115 main_v117 (broadcastInDim S262144x105 ![0, 1] bcast_S262144x1_S262144x105_0_1 : (⟨S262144x1, .f32⟩ : BufTy).Contents (Elt F) → (⟨S262144x105, .f32⟩ : BufTy).Contents (Elt F)),
    binary main_v117 main_v116 main_v118 (mulf : (⟨S262144x105, .f32⟩ : BufTy).Contents (Elt F) → (⟨S262144x105, .f32⟩ : BufTy).Contents (Elt F) → (⟨S262144x105, .f32⟩ : BufTy).Contents (Elt F)),
    unary main_arg0 main_v119 ((extractStridedSlice S262144x1 ![0, 14] · slices_S262144x16_S262144x1_0_14) : (⟨S262144x16, .f32⟩ : BufTy).Contents (Elt F) → (⟨S262144x1, .f32⟩ : BufTy).Contents (Elt F)),
    unary main_v63 main_v120 ((extractStridedSlice S262144x120 ![0, 0] · slices_S262144x136_S262144x120_0_0) : (⟨S262144x136, .f32⟩ : BufTy).Contents (Elt F) → (⟨S262144x120, .f32⟩ : BufTy).Contents (Elt F)),
    unary main_v119 main_v121 (broadcastInDim S262144x120 ![0, 1] bcast_S262144x1_S262144x120_0_1 : (⟨S262144x1, .f32⟩ : BufTy).Contents (Elt F) → (⟨S262144x120, .f32⟩ : BufTy).Contents (Elt F)),
    binary main_v121 main_v120 main_v122 (mulf : (⟨S262144x120, .f32⟩ : BufTy).Contents (Elt F) → (⟨S262144x120, .f32⟩ : BufTy).Contents (Elt F) → (⟨S262144x120, .f32⟩ : BufTy).Contents (Elt F)),
    unary main_arg0 main_v123 ((extractStridedSlice S262144x1 ![0, 15] · slices_S262144x16_S262144x1_0_15) : (⟨S262144x16, .f32⟩ : BufTy).Contents (Elt F) → (⟨S262144x1, .f32⟩ : BufTy).Contents (Elt F)),
    unary main_v123 main_v124 (broadcastInDim S262144x136 ![0, 1] bcast_S262144x1_S262144x136_0_1 : (⟨S262144x1, .f32⟩ : BufTy).Contents (Elt F) → (⟨S262144x136, .f32⟩ : BufTy).Contents (Elt F)),
    binary main_v124 main_v63 main_v125 (mulf : (⟨S262144x136, .f32⟩ : BufTy).Contents (Elt F) → (⟨S262144x136, .f32⟩ : BufTy).Contents (Elt F) → (⟨S262144x136, .f32⟩ : BufTy).Contents (Elt F)),
    nary ![main_v66, main_v70, main_v74, main_v78, main_v82, main_v86, main_v90, main_v94, main_v98, main_v102, main_v106, main_v110, main_v114, main_v118, main_v122, main_v125] main_v126 (fun u => concatenate S262144x816 1 [⟨S262144x1, u 0⟩, ⟨S262144x3, u 1⟩, ⟨S262144x6, u 2⟩, ⟨S262144x10, u 3⟩, ⟨S262144x15, u 4⟩, ⟨S262144x21, u 5⟩, ⟨S262144x28, u 6⟩, ⟨S262144x36, u 7⟩, ⟨S262144x45, u 8⟩, ⟨S262144x55, u 9⟩, ⟨S262144x66, u 10⟩, ⟨S262144x78, u 11⟩, ⟨S262144x91, u 12⟩, ⟨S262144x105, u 13⟩, ⟨S262144x120, u 14⟩, ⟨S262144x136, u 15⟩] concatenates_S262144x1_S262144x3_S262144x6_S262144x10_S262144x15_S262144x21_S262144x28_S262144x36_S262144x45_S262144x55_S262144x66_S262144x78_S262144x91_S262144x105_S262144x120_S262144x136_S262144x816_d1) ]

/-- The last three. -/
abbrev opsC : List (HloOp τ sig (Elt F)) :=
  [ nary ![main_v0, main_arg0, main_v63, main_v126] main_v127 (fun u => concatenate S262144x969 1 [⟨S262144x1, u 0⟩, ⟨S262144x16, u 1⟩, ⟨S262144x136, u 2⟩, ⟨S262144x816, u 3⟩] concatenates_S262144x1_S262144x16_S262144x136_S262144x816_S262144x969_d1),
    binary main_v127 main_arg1 main_v128 ((fun l r => Host.dotGeneral dot_S262144x969_S969x16_S262144x16_1_0_0_1_n_n none l r) : (⟨S262144x969, .f32⟩ : BufTy).Contents (Elt F) → (⟨S969x16, .f32⟩ : BufTy).Contents (Elt F) → (⟨S262144x16, .f32⟩ : BufTy).Contents (Elt F)),
    binary main_arg0 main_v128 main_v129 (addf : (⟨S262144x16, .f32⟩ : BufTy).Contents (Elt F) → (⟨S262144x16, .f32⟩ : BufTy).Contents (Elt F) → (⟨S262144x16, .f32⟩ : BufTy).Contents (Elt F)) ]

/-! Each printed part is the line of its own operations; @main runs the three parts one after the other. -/

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl

theorem main_eq (c : Dev nD) : main (F := F) c = seq ops := by
  show main (F := F) c = seq (ops0 ++ (ops1 ++ ops2))
  rw [seq_append, seq_append]
  show (main_part0 (F := F) c >>= fun _ => main_part1 (F := F) c >>= fun _ => main_part2 (F := F) c) = _
  rw [part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem sub0 : (ops0 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub ..⟩
set_option maxRecDepth 8192 in
theorem sub1 : (ops1 : List (HloOp τ sig (Elt F))).Forall fun op => op.bufs ⊆ tcRefs τ sig :=
  ⟨binary_bufs_sub .., unary_bufs_sub .., unary_bufs_sub .., binary_bufs_sub .., nary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩
set_option maxRecDepth 8192 in
theorem sub2 : (ops2 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., nary_bufs_sub .., nary_bufs_sub .., binary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp sub0 op h
    · rcases List.mem_append.mp h with h | h
      · exact List.forall_iff_forall_mem.mp sub1 op h
      · exact List.forall_iff_forall_mem.mp sub2 op h

set_option maxRecDepth 8192 in
theorem fresh0 : (ops0 : List (HloOp τ sig (Elt F))).Forall fun op => op.fresh = ∅ := by
  simp only [List.Forall]; repeat' constructor
set_option maxRecDepth 8192 in
theorem fresh1 : (ops1 : List (HloOp τ sig (Elt F))).Forall fun op => op.fresh = ∅ := by
  simp only [List.Forall]; repeat' constructor
set_option maxRecDepth 8192 in
theorem fresh2 : (ops2 : List (HloOp τ sig (Elt F))).Forall fun op => op.fresh = ∅ := by
  simp only [List.Forall]; repeat' constructor

theorem ops_fresh : ∀ op ∈ (ops : List (HloOp τ sig (Elt F))), op.fresh = ∅ := fun op h => by
  rcases List.mem_append.mp h with h | h
  · exact List.forall_iff_forall_mem.mp fresh0 op h
  · rcases List.mem_append.mp h with h | h
    · exact List.forall_iff_forall_mem.mp fresh1 op h
    · exact List.forall_iff_forall_mem.mp fresh2 op h

set_option maxRecDepth 8192 in
theorem ops_split : (ops : List (HloOp τ sig (Elt F))) = opsA ++ (opsB ++ opsC) := rfl

section Stretches

variable (V : Valuation τ sig (Elt F))

/-! The first stretch. -/

set_option maxRecDepth 8192 in
set_option maxHeartbeats 4000000 in
theorem A_quad : after opsA V (Proc.devRef .tc main_v63) = quadR (V (Proc.devRef .tc main_arg0)) := by
  simp (disch := decide) only [after_cons, after_nil, nullary_result', unary_result', binary_result', nary16_result', nary4_result',
    nullary_result_ne', unary_result_ne', binary_result_ne', nary_result_ne']
  rfl
set_option maxRecDepth 8192 in
set_option maxHeartbeats 4000000 in
theorem A_ones : after opsA V (Proc.devRef .tc main_v0) = onesR := by
  simp (disch := decide) only [after_cons, after_nil, nullary_result', unary_result', binary_result', nary16_result', nary4_result',
    nullary_result_ne', unary_result_ne', binary_result_ne', nary_result_ne']
  rfl
set_option maxRecDepth 8192 in
set_option maxHeartbeats 4000000 in
theorem A_arg0 : after opsA V (Proc.devRef .tc main_arg0) = V (Proc.devRef .tc main_arg0) := by
  simp (disch := decide) only [after_cons, after_nil, nullary_result', unary_result', binary_result', nary16_result', nary4_result',
    nullary_result_ne', unary_result_ne', binary_result_ne', nary_result_ne']
set_option maxRecDepth 8192 in
set_option maxHeartbeats 4000000 in
theorem A_arg1 : after opsA V (Proc.devRef .tc main_arg1) = V (Proc.devRef .tc main_arg1) := by
  simp (disch := decide) only [after_cons, after_nil, nullary_result', unary_result', binary_result', nary16_result', nary4_result',
    nullary_result_ne', unary_result_ne', binary_result_ne', nary_result_ne']

/-! The second stretch. -/

set_option maxRecDepth 8192 in
set_option maxHeartbeats 4000000 in
theorem B_cubic : after opsB V (Proc.devRef .tc main_v126) = cubicOf (V (Proc.devRef .tc main_arg0)) (V (Proc.devRef .tc main_v63)) := by
  simp (disch := decide) only [after_cons, after_nil, nullary_result', unary_result', binary_result', nary16_result', nary4_result',
    nullary_result_ne', unary_result_ne', binary_result_ne', nary_result_ne']
  rfl
set_option maxRecDepth 8192 in
set_option maxHeartbeats 4000000 in
theorem B_quad : after opsB V (Proc.devRef .tc main_v63) = V (Proc.devRef .tc main_v63) := by
  simp (disch := decide) only [after_cons, after_nil, nullary_result', unary_result', binary_result', nary16_result', nary4_result',
    nullary_result_ne', unary_result_ne', binary_result_ne', nary_result_ne']
set_option maxRecDepth 8192 in
set_option maxHeartbeats 4000000 in
theorem B_ones : after opsB V (Proc.devRef .tc main_v0) = V (Proc.devRef .tc main_v0) := by
  simp (disch := decide) only [after_cons, after_nil, nullary_result', unary_result', binary_result', nary16_result', nary4_result',
    nullary_result_ne', unary_result_ne', binary_result_ne', nary_result_ne']
set_option maxRecDepth 8192 in
set_option maxHeartbeats 4000000 in
theorem B_arg0 : after opsB V (Proc.devRef .tc main_arg0) = V (Proc.devRef .tc main_arg0) := by
  simp (disch := decide) only [after_cons, after_nil, nullary_result', unary_result', binary_result', nary16_result', nary4_result',
    nullary_result_ne', unary_result_ne', binary_result_ne', nary_result_ne']
set_option maxRecDepth 8192 in
set_option maxHeartbeats 4000000 in
theorem B_arg1 : after opsB V (Proc.devRef .tc main_arg1) = V (Proc.devRef .tc main_arg1) := by
  simp (disch := decide) only [after_cons, after_nil, nullary_result', unary_result', binary_result', nary16_result', nary4_result',
    nullary_result_ne', unary_result_ne', binary_result_ne', nary_result_ne']

/-! The last three operations. -/

theorem C_res : after opsC V (Proc.devRef .tc main_v129)
    = addf (V (Proc.devRef .tc main_arg0)) (Host.dotGeneral dot_S262144x969_S969x16_S262144x16_1_0_0_1_n_n none
        (polyOf (V (Proc.devRef .tc main_v0)) (V (Proc.devRef .tc main_arg0)) (V (Proc.devRef .tc main_v63)) (V (Proc.devRef .tc main_v126))) (V (Proc.devRef .tc main_arg1))) := by
  simp (disch := decide) only [after_cons, after_nil, nullary_result', unary_result', binary_result', nary16_result', nary4_result',
    nullary_result_ne', unary_result_ne', binary_result_ne', nary_result_ne']
  rfl
theorem C_arg0 : after opsC V (Proc.devRef .tc main_arg0) = V (Proc.devRef .tc main_arg0) := by
  simp (disch := decide) only [after_cons, after_nil, nullary_result', unary_result', binary_result', nary16_result', nary4_result',
    nullary_result_ne', unary_result_ne', binary_result_ne', nary_result_ne']
theorem C_arg1 : after opsC V (Proc.devRef .tc main_arg1) = V (Proc.devRef .tc main_arg1) := by
  simp (disch := decide) only [after_cons, after_nil, nullary_result', unary_result', binary_result', nary16_result', nary4_result',
    nullary_result_ne', unary_result_ne', binary_result_ne', nary_result_ne']

/-- The result buffer after the whole line. -/
theorem value : after ops V (Proc.devRef .tc main_v129) = resultR (V (Proc.devRef .tc main_arg0)) (V (Proc.devRef .tc main_arg1)) := by
  rw [ops_split, after_append, after_append]
  rw [C_res, B_cubic, B_quad, B_ones, B_arg0, B_arg1, A_quad, A_ones, A_arg0, A_arg1]
  rfl

theorem kept0 : after ops V (Proc.devRef .tc main_arg0) = V (Proc.devRef .tc main_arg0) := by
  rw [ops_split, after_append, after_append, C_arg0, B_arg0, A_arg0]

theorem kept1 : after ops V (Proc.devRef .tc main_arg1) = V (Proc.devRef .tc main_arg1) := by
  rw [ops_split, after_append, after_append, C_arg1, B_arg1, A_arg1]

end Stretches

/-- On every device, from any memory with zero counters: every weakly fair execution of @main terminates with the
    result at `resultR` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129)
        = resultR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v129).trans (value (launchContents m c)),
      (h c main_arg0).trans (kept0 (launchContents m c)),
      (h c main_arg1).trans (kept1 (launchContents m c))⟩)
    (run_seq scopedRefs_eq scopedSems_eq defs main (fun _ => ops) main_eq (fun _ => ops_sub) m ρ (fun _ => ops_fresh))

end Cert.RefRun

end
-- ==== Proof.LibRowwise.lean ====
/-
  Arrays handled row by row.

  A two-dimensional array `a` with `R` rows *is the rows `f p` of `b`* (`RowsOf f a b`) when
  `a (p, c) = b (f p, c)` for every row `p` and column `c`; a block of consecutive rows of a taller array is the
  example to have in mind (`f p = first + p`). Every operation that treats each row on its own carries the relation
  from its operands to its result:

  * a unit-stride slice of columns `[o, o + w)` (`RowsOf.slice`);
  * the broadcast of a one-column array along the columns, the shorter array's in the vector form
    (`broadcastTo`) and the taller one's in the host's form (`broadcastInDim … ![0, 1]`) (`RowsOf.bcast`);
  * a pointwise product (`RowsOf.mulf`);
  * a concatenation of pieces along the columns, through `concatCols_ix2`: at column `k` inside the span
    `[pre, pre + w)` of piece `n`, the concatenation is that piece at column `k - pre` of the same row.

  Each operation is first read at an index `(p, c)` given by its two coordinates (`slice_ix2`, `bcastTo_ix2`,
  `bcastInDim_ix2`), in any element type.
-/
import Idealize.ShloMosaic.Lib.Pipeline.Value
import Idealize.ShloMosaic.Lib.ValueIdx

noncomputable section

namespace Cert.Lib.Rowwise

open Idealize.ShloMosaic Idealize.ShloMosaic.ValueIdx

variable {α : Type}

/-- The shape of an array of `R` rows and `w` columns. -/
abbrev Sh2 (R w : Nat) : Shape := ⟨2, ![R, w]⟩

/-- `a` is the rows `f p` of `b`: entry `(p, c)` of `a` is entry `(f p, c)` of `b`. -/
def RowsOf {R R' w : Nat} (f : Fin R → Fin R') (a : (Sh2 R w).Idx → α) (b : (Sh2 R' w).Idx → α) : Prop :=
  ∀ (p : Fin R) (c : Fin w), a (ix2 p c) = b (ix2 (f p) c)

/-- Columns `[o, o + w)` of `a`, read at `(p, c)`: `a` at `(p, o + c)`. -/
theorem slice_ix2 {R W w : Nat} (o : Nat) (a : (Sh2 R W).Idx → α) (h : (Sh2 R W).Slices ![0, o] (Sh2 R w))
    (p : Fin R) (c : Fin w) (hc : o + c.val < W) :
    extractStridedSlice (Sh2 R w) ![0, o] a h (ix2 p c) = a (ix2 p ⟨o + c.val, hc⟩) :=
  extractStridedSlice_apply ![0, o] a h (ix2 p c) (ix2 p ⟨o + c.val, hc⟩) (fun d => match d with
    | ⟨0, _⟩ => by show p.val = 0 + p.val; omega
    | ⟨1, _⟩ => rfl)

/-- A one-column array spread over `w` columns (the vector form), read at `(p, c)`: its entry in row `p`. -/
theorem bcastTo_ix2 {R w : Nat} (a : (Sh2 R 1).Idx → α) (h : (Sh2 R 1).Broadcasts (Sh2 R w)) (p : Fin R) (c : Fin w) :
    broadcastTo (Sh2 R w) a h (ix2 p c) = a (ix2 p 0) :=
  broadcastTo_apply a h (ix2 p c) (ix2 p 0) (fun d => match d with
    | ⟨0, _⟩ => by
        show p.val = if R = 1 then 0 else p.val
        split
        · have := p.isLt; omega
        · rfl
    | ⟨1, _⟩ => rfl)

/-- A one-column array spread over `w` columns (the host's form, both axes kept), read at `(p, c)`: its entry in
    row `p`. -/
theorem bcastInDim_ix2 {R w : Nat} (a : (Sh2 R 1).Idx → α) (h : (Sh2 R 1).BroadcastsInDim (Sh2 R w) ![0, 1])
    (p : Fin R) (c : Fin w) :
    broadcastInDim (Sh2 R w) ![0, 1] h a (ix2 p c) = a (ix2 p 0) :=
  broadcastInDim_apply ![0, 1] h a (ix2 p c) (ix2 p 0) (fun d => match d with
    | ⟨0, _⟩ => by
        show p.val = if R = 1 then 0 else p.val
        split
        · have := p.isLt; omega
        · rfl
    | ⟨1, _⟩ => rfl)

/-- A slice of columns acts row by row. -/
theorem RowsOf.slice {R R' W w : Nat} {f : Fin R → Fin R'} {a : (Sh2 R W).Idx → α} {b : (Sh2 R' W).Idx → α}
    (hab : RowsOf f a b) (o : Nat) (hoW : o + w ≤ W)
    (h : (Sh2 R W).Slices ![0, o] (Sh2 R w)) (h' : (Sh2 R' W).Slices ![0, o] (Sh2 R' w)) :
    RowsOf f (extractStridedSlice (Sh2 R w) ![0, o] a h) (extractStridedSlice (Sh2 R' w) ![0, o] b h') := by
  intro p c
  have hc : o + c.val < W := by have := c.isLt; omega
  rw [slice_ix2 o a h p c hc, slice_ix2 o b h' (f p) c hc]
  exact hab p _

/-- Spreading a column over the columns acts row by row (the vector form on the one side, the host's on the other). -/
theorem RowsOf.bcast {R R' w : Nat} {f : Fin R → Fin R'} {a : (Sh2 R 1).Idx → α} {b : (Sh2 R' 1).Idx → α}
    (hab : RowsOf f a b) (h : (Sh2 R 1).Broadcasts (Sh2 R w)) (h' : (Sh2 R' 1).BroadcastsInDim (Sh2 R' w) ![0, 1]) :
    RowsOf f (broadcastTo (Sh2 R w) a h) (broadcastInDim (Sh2 R' w) ![0, 1] h' b) := by
  intro p c
  rw [bcastTo_ix2, bcastInDim_ix2]
  exact hab p 0

/-- A pointwise product acts row by row. -/
theorem RowsOf.mulf {F : FTy → Type} [FloatOps F] {φ : FTy} {R R' w : Nat} {f : Fin R → Fin R'}
    {a a' : FVec F (Sh2 R w) φ} {b b' : FVec F (Sh2 R' w) φ}
    (h : RowsOf f a b) (h' : RowsOf f a' b') : RowsOf f (Idealize.ShloMosaic.mulf a a') (Idealize.ShloMosaic.mulf b b') := by
  intro p c
  show FloatOps.mulf (a _) (a' _) = FloatOps.mulf (b _) (b' _)
  rw [h p c, h' p c]

/-- The widths of the first `n` pieces of a concatenation along the columns add up as the first `n` entries of
    the list of widths. -/
theorem widths_take_sum {R C : Nat} : ∀ (xs : List ((s : Shape) × (s.Idx → α))) (ws : List Nat),
    xs.map (·.1) = ws.map (fun w => Sh2 R w) → ∀ n : Nat,
    (((xs.take n).map (·.1)).map fun s =>
      if h : s.rank = (Sh2 R C).rank then s.size ((1 : Fin (Sh2 R C).rank).cast h.symm) else 0).sum = (ws.take n).sum
  | _, _, _, 0 => by simp
  | [], [], _, _ + 1 => by simp
  | [], _ :: _, h, _ => by simp at h
  | _ :: _, [], h, _ => by simp at h
  | x :: xs, w :: ws, h, n + 1 => by
    simp only [List.map_cons, List.cons.injEq] at h
    simp only [List.take_succ_cons, List.map_cons, List.sum_cons]
    rw [widths_take_sum xs ws h.2 n, h.1]
    show (if h : (2 : ℕ) = 2 then (![R, w] : Fin 2 → ℕ) ((1 : Fin 2).cast h.symm) else 0) + _ = _
    rw [dif_pos rfl]
    rfl

/-- A concatenation along the columns of pieces of widths `ws`, read at `(p, k)` with `k` inside the span
    `[pre, pre + w)` of piece `n` (`pre` the sum of the widths before it): that piece at `(p, k - pre)`. -/
theorem concatCols_ix2 {R C : Nat} (xs : List ((s : Shape) × (s.Idx → α)))
    (h : Shape.Concatenates (xs.map (·.1)) (Sh2 R C) 1)
    (ws : List Nat) (hws : xs.map (·.1) = ws.map (fun w => Sh2 R w))
    (n : Nat) (hn : n < xs.length) (w : Nat) (x : (Sh2 R w).Idx → α) (hx : xs[n] = ⟨Sh2 R w, x⟩)
    (pre : Nat) (hpre : (ws.take n).sum = pre)
    (p : Fin R) (k : Fin C) (hlo : pre ≤ k.val) (hhi : k.val < pre + w) :
    concatenate (Sh2 R C) 1 xs h (ix2 p k) = x (ix2 p ⟨k.val - pre, by omega⟩) :=
  concatenate_apply_piece 1 xs h (ix2 p k) n hn (Sh2 R w) x hx rfl pre
    ((widths_take_sum (C := C) xs ws hws n).trans hpre) (ix2 p ⟨k.val - pre, by omega⟩)
    (fun b hb => match b, hb with
      | ⟨0, _⟩, _ => rfl
      | ⟨1, _⟩, hb => absurd rfl hb)
    (by show pre + (k.val - pre) = k.val; omega)

end Cert.Lib.Rowwise

end
-- ==== Proof.PolyRows.lean ====
/-
  The blocks of products, row by row.

  From a tile `x` of 16 columns both programs build, by the same steps, a block of 136 columns — for `n = 0 … 15` in
  turn the `n + 1` products `x(·, n) · x(·, c)`, `c ≤ n`, laid side by side — and from it a block of 816 columns —
  for `n = 0 … 15` the `(n + 1)(n + 2)/2` products of `x(·, n)` with the first columns of the 136-column block.
  The kernel does it on a tile of 4096 rows, the reference on all 262144 rows at once. Each step (a slice of columns,
  a column spread over the columns, a pointwise product, a concatenation along the columns) treats every row on its
  own, so a tile that is the rows `f p` of the whole array gives blocks that are the rows `f p` of the whole array's
  blocks: `rows_quad` and `rows_cubic`. Nothing here needs a formula for the individual columns.
-/
import proofs.«160123_j33603824124566_2_alg».proof.Proof.Gen.KernelIdeal.Skeleton
import proofs.«160123_j33603824124566_2_alg».proof.Proof.RefStages
import proofs.«160123_j33603824124566_2_alg».proof.Proof.LibRowwise

noncomputable section

namespace Cert.PolyRows

open Idealize.ShloMosaic Idealize.ShloMosaic.ValueIdx Cert.Lib.Rowwise Cert.RefStages
open Cert.KernelIdeal Cert.KernelIdeal.Gen

set_option maxHeartbeats 1600000 in
/-- Sixteen pieces of widths 1, 2, …, 16 laid side by side: if each piece of the shorter array is the rows `f p` of its counterpart, so is the whole. The column `k` falls in exactly one piece's span; both concatenations are read there. -/
theorem rows_cat_quad {α : Type} (f : Fin 4096 → Fin 262144)
    (hc : Shape.Concatenates [Sh2 4096 1, Sh2 4096 2, Sh2 4096 3, Sh2 4096 4, Sh2 4096 5, Sh2 4096 6, Sh2 4096 7, Sh2 4096 8, Sh2 4096 9, Sh2 4096 10, Sh2 4096 11, Sh2 4096 12, Sh2 4096 13, Sh2 4096 14, Sh2 4096 15, Sh2 4096 16] (Sh2 4096 136) 1)
    (hc' : Shape.Concatenates [Sh2 262144 1, Sh2 262144 2, Sh2 262144 3, Sh2 262144 4, Sh2 262144 5, Sh2 262144 6, Sh2 262144 7, Sh2 262144 8, Sh2 262144 9, Sh2 262144 10, Sh2 262144 11, Sh2 262144 12, Sh2 262144 13, Sh2 262144 14, Sh2 262144 15, Sh2 262144 16] (Sh2 262144 136) 1)
    (a0 : (Sh2 4096 1).Idx → α) (a1 : (Sh2 4096 2).Idx → α) (a2 : (Sh2 4096 3).Idx → α) (a3 : (Sh2 4096 4).Idx → α) (a4 : (Sh2 4096 5).Idx → α) (a5 : (Sh2 4096 6).Idx → α) (a6 : (Sh2 4096 7).Idx → α) (a7 : (Sh2 4096 8).Idx → α) (a8 : (Sh2 4096 9).Idx → α) (a9 : (Sh2 4096 10).Idx → α) (a10 : (Sh2 4096 11).Idx → α) (a11 : (Sh2 4096 12).Idx → α) (a12 : (Sh2 4096 13).Idx → α) (a13 : (Sh2 4096 14).Idx → α) (a14 : (Sh2 4096 15).Idx → α) (a15 : (Sh2 4096 16).Idx → α)
    (b0 : (Sh2 262144 1).Idx → α) (b1 : (Sh2 262144 2).Idx → α) (b2 : (Sh2 262144 3).Idx → α) (b3 : (Sh2 262144 4).Idx → α) (b4 : (Sh2 262144 5).Idx → α) (b5 : (Sh2 262144 6).Idx → α) (b6 : (Sh2 262144 7).Idx → α) (b7 : (Sh2 262144 8).Idx → α) (b8 : (Sh2 262144 9).Idx → α) (b9 : (Sh2 262144 10).Idx → α) (b10 : (Sh2 262144 11).Idx → α) (b11 : (Sh2 262144 12).Idx → α) (b12 : (Sh2 262144 13).Idx → α) (b13 : (Sh2 262144 14).Idx → α) (b14 : (Sh2 262144 15).Idx → α) (b15 : (Sh2 262144 16).Idx → α)
    (h0 : RowsOf f a0 b0) (h1 : RowsOf f a1 b1) (h2 : RowsOf f a2 b2) (h3 : RowsOf f a3 b3) (h4 : RowsOf f a4 b4) (h5 : RowsOf f a5 b5) (h6 : RowsOf f a6 b6) (h7 : RowsOf f a7 b7) (h8 : RowsOf f a8 b8) (h9 : RowsOf f a9 b9) (h10 : RowsOf f a10 b10) (h11 : RowsOf f a11 b11) (h12 : RowsOf f a12 b12) (h13 : RowsOf f a13 b13) (h14 : RowsOf f a14 b14) (h15 : RowsOf f a15 b15) :
    RowsOf f (concatenate (Sh2 4096 136) 1 [⟨Sh2 4096 1, a0⟩, ⟨Sh2 4096 2, a1⟩, ⟨Sh2 4096 3, a2⟩, ⟨Sh2 4096 4, a3⟩, ⟨Sh2 4096 5, a4⟩, ⟨Sh2 4096 6, a5⟩, ⟨Sh2 4096 7, a6⟩, ⟨Sh2 4096 8, a7⟩, ⟨Sh2 4096 9, a8⟩, ⟨Sh2 4096 10, a9⟩, ⟨Sh2 4096 11, a10⟩, ⟨Sh2 4096 12, a11⟩, ⟨Sh2 4096 13, a12⟩, ⟨Sh2 4096 14, a13⟩, ⟨Sh2 4096 15, a14⟩, ⟨Sh2 4096 16, a15⟩] hc)
      (concatenate (Sh2 262144 136) 1 [⟨Sh2 262144 1, b0⟩, ⟨Sh2 262144 2, b1⟩, ⟨Sh2 262144 3, b2⟩, ⟨Sh2 262144 4, b3⟩, ⟨Sh2 262144 5, b4⟩, ⟨Sh2 262144 6, b5⟩, ⟨Sh2 262144 7, b6⟩, ⟨Sh2 262144 8, b7⟩, ⟨Sh2 262144 9, b8⟩, ⟨Sh2 262144 10, b9⟩, ⟨Sh2 262144 11, b10⟩, ⟨Sh2 262144 12, b11⟩, ⟨Sh2 262144 13, b12⟩, ⟨Sh2 262144 14, b13⟩, ⟨Sh2 262144 15, b14⟩, ⟨Sh2 262144 16, b15⟩] hc') := by
  intro p k
  have hk := k.isLt
  by_cases c0 : k.val < 1
  · refine (concatCols_ix2 _ _ [1, 2, 3, 4, 5, 6, 7, 8, 9, 10, 11, 12, 13, 14, 15, 16] ?_ 0 ?_ 1 a0 ?_ 0 ?_ p k ?_ ?_).trans
      ((h0 p _).trans (concatCols_ix2 _ _ [1, 2, 3, 4, 5, 6, 7, 8, 9, 10, 11, 12, 13, 14, 15, 16] ?_ 0 ?_ 1 b0 ?_ 0 ?_ (f p) k ?_ ?_).symm)
    · rfl
    · exact (by decide : (0 : ℕ) < 16)
    · rfl
    · rfl
    · omega
    · omega
    · rfl
    · exact (by decide : (0 : ℕ) < 16)
    · rfl
    · rfl
    · omega
    · omega
  by_cases c1 : k.val < 3
  · refine (concatCols_ix2 _ _ [1, 2, 3, 4, 5, 6, 7, 8, 9, 10, 11, 12, 13, 14, 15, 16] ?_ 1 ?_ 2 a1 ?_ 1 ?_ p k ?_ ?_).trans
      ((h1 p _).trans (concatCols_ix2 _ _ [1, 2, 3, 4, 5, 6, 7, 8, 9, 10, 11, 12, 13, 14, 15, 16] ?_ 1 ?_ 2 b1 ?_ 1 ?_ (f p) k ?_ ?_).symm)
    · rfl
    · exact (by decide : (1 : ℕ) < 16)
    · rfl
    · rfl
    · omega
    · omega
    · rfl
    · exact (by decide : (1 : ℕ) < 16)
    · rfl
    · rfl
    · omega
    · omega
  by_cases c2 : k.val < 6
  · refine (concatCols_ix2 _ _ [1, 2, 3, 4, 5, 6, 7, 8, 9, 10, 11, 12, 13, 14, 15, 16] ?_ 2 ?_ 3 a2 ?_ 3 ?_ p k ?_ ?_).trans
      ((h2 p _).trans (concatCols_ix2 _ _ [1, 2, 3, 4, 5, 6, 7, 8, 9, 10, 11, 12, 13, 14, 15, 16] ?_ 2 ?_ 3 b2 ?_ 3 ?_ (f p) k ?_ ?_).symm)
    · rfl
    · exact (by decide : (2 : ℕ) < 16)
    · rfl
    · rfl
    · omega
    · omega
    · rfl
    · exact (by decide : (2 : ℕ) < 16)
    · rfl
    · rfl
    · omega
    · omega
  by_cases c3 : k.val < 10
  · refine (concatCols_ix2 _ _ [1, 2, 3, 4, 5, 6, 7, 8, 9, 10, 11, 12, 13, 14, 15, 16] ?_ 3 ?_ 4 a3 ?_ 6 ?_ p k ?_ ?_).trans
      ((h3 p _).trans (concatCols_ix2 _ _ [1, 2, 3, 4, 5, 6, 7, 8, 9, 10, 11, 12, 13, 14, 15, 16] ?_ 3 ?_ 4 b3 ?_ 6 ?_ (f p) k ?_ ?_).symm)
    · rfl
    · exact (by decide : (3 : ℕ) < 16)
    · rfl
    · rfl
    · omega
    · omega
    · rfl
    · exact (by decide : (3 : ℕ) < 16)
    · rfl
    · rfl
    · omega
    · omega
  by_cases c4 : k.val < 15
  · refine (concatCols_ix2 _ _ [1, 2, 3, 4, 5, 6, 7, 8, 9, 10, 11, 12, 13, 14, 15, 16] ?_ 4 ?_ 5 a4 ?_ 10 ?_ p k ?_ ?_).trans
      ((h4 p _).trans (concatCols_ix2 _ _ [1, 2, 3, 4, 5, 6, 7, 8, 9, 10, 11, 12, 13, 14, 15, 16] ?_ 4 ?_ 5 b4 ?_ 10 ?_ (f p) k ?_ ?_).symm)
    · rfl
    · exact (by decide : (4 : ℕ) < 16)
    · rfl
    · rfl
    · omega
    · omega
    · rfl
    · exact (by decide : (4 : ℕ) < 16)
    · rfl
    · rfl
    · omega
    · omega
  by_cases c5 : k.val < 21
  · refine (concatCols_ix2 _ _ [1, 2, 3, 4, 5, 6, 7, 8, 9, 10, 11, 12, 13, 14, 15, 16] ?_ 5 ?_ 6 a5 ?_ 15 ?_ p k ?_ ?_).trans
      ((h5 p _).trans (concatCols_ix2 _ _ [1, 2, 3, 4, 5, 6, 7, 8, 9, 10, 11, 12, 13, 14, 15, 16] ?_ 5 ?_ 6 b5 ?_ 15 ?_ (f p) k ?_ ?_).symm)
    · rfl
    · exact (by decide : (5 : ℕ) < 16)
    · rfl
    · rfl
    · omega
    · omega
    · rfl
    · exact (by decide : (5 : ℕ) < 16)
    · rfl
    · rfl
    · omega
    · omega
  by_cases c6 : k.val < 28
  · refine (concatCols_ix2 _ _ [1, 2, 3, 4, 5, 6, 7, 8, 9, 10, 11, 12, 13, 14, 15, 16] ?_ 6 ?_ 7 a6 ?_ 21 ?_ p k ?_ ?_).trans
      ((h6 p _).trans (concatCols_ix2 _ _ [1, 2, 3, 4, 5, 6, 7, 8, 9, 10, 11, 12, 13, 14, 15, 16] ?_ 6 ?_ 7 b6 ?_ 21 ?_ (f p) k ?_ ?_).symm)
    · rfl
    · exact (by decide : (6 : ℕ) < 16)
    · rfl
    · rfl
    · omega
    · omega
    · rfl
    · exact (by decide : (6 : ℕ) < 16)
    · rfl
    · rfl
    · omega
    · omega
  by_cases c7 : k.val < 36
  · refine (concatCols_ix2 _ _ [1, 2, 3, 4, 5, 6, 7, 8, 9, 10, 11, 12, 13, 14, 15, 16] ?_ 7 ?_ 8 a7 ?_ 28 ?_ p k ?_ ?_).trans
      ((h7 p _).trans (concatCols_ix2 _ _ [1, 2, 3, 4, 5, 6, 7, 8, 9, 10, 11, 12, 13, 14, 15, 16] ?_ 7 ?_ 8 b7 ?_ 28 ?_ (f p) k ?_ ?_).symm)
    · rfl
    · exact (by decide : (7 : ℕ) < 16)
    · rfl
    · rfl
    · omega
    · omega
    · rfl
    · exact (by decide : (7 : ℕ) < 16)
    · rfl
    · rfl
    · omega
    · omega
  by_cases c8 : k.val < 45
  · refine (concatCols_ix2 _ _ [1, 2, 3, 4, 5, 6, 7, 8, 9, 10, 11, 12, 13, 14, 15, 16] ?_ 8 ?_ 9 a8 ?_ 36 ?_ p k ?_ ?_).trans
      ((h8 p _).trans (concatCols_ix2 _ _ [1, 2, 3, 4, 5, 6, 7, 8, 9, 10, 11, 12, 13, 14, 15, 16] ?_ 8 ?_ 9 b8 ?_ 36 ?_ (f p) k ?_ ?_).symm)
    · rfl
    · exact (by decide : (8 : ℕ) < 16)
    · rfl
    · rfl
    · omega
    · omega
    · rfl
    · exact (by decide : (8 : ℕ) < 16)
    · rfl
    · rfl
    · omega
    · omega
  by_cases c9 : k.val < 55
  · refine (concatCols_ix2 _ _ [1, 2, 3, 4, 5, 6, 7, 8, 9, 10, 11, 12, 13, 14, 15, 16] ?_ 9 ?_ 10 a9 ?_ 45 ?_ p k ?_ ?_).trans
      ((h9 p _).trans (concatCols_ix2 _ _ [1, 2, 3, 4, 5, 6, 7, 8, 9, 10, 11, 12, 13, 14, 15, 16] ?_ 9 ?_ 10 b9 ?_ 45 ?_ (f p) k ?_ ?_).symm)
    · rfl
    · exact (by decide : (9 : ℕ) < 16)
    · rfl
    · rfl
    · omega
    · omega
    · rfl
    · exact (by decide : (9 : ℕ) < 16)
    · rfl
    · rfl
    · omega
    · omega
  by_cases c10 : k.val < 66
  · refine (concatCols_ix2 _ _ [1, 2, 3, 4, 5, 6, 7, 8, 9, 10, 11, 12, 13, 14, 15, 16] ?_ 10 ?_ 11 a10 ?_ 55 ?_ p k ?_ ?_).trans
      ((h10 p _).trans (concatCols_ix2 _ _ [1, 2, 3, 4, 5, 6, 7, 8, 9, 10, 11, 12, 13, 14, 15, 16] ?_ 10 ?_ 11 b10 ?_ 55 ?_ (f p) k ?_ ?_).symm)
    · rfl
    · exact (by decide : (10 : ℕ) < 16)
    · rfl
    · rfl
    · omega
    · omega
    · rfl
    · exact (by decide : (10 : ℕ) < 16)
    · rfl
    · rfl
    · omega
    · omega
  by_cases c11 : k.val < 78
  · refine (concatCols_ix2 _ _ [1, 2, 3, 4, 5, 6, 7, 8, 9, 10, 11, 12, 13, 14, 15, 16] ?_ 11 ?_ 12 a11 ?_ 66 ?_ p k ?_ ?_).trans
      ((h11 p _).trans (concatCols_ix2 _ _ [1, 2, 3, 4, 5, 6, 7, 8, 9, 10, 11, 12, 13, 14, 15, 16] ?_ 11 ?_ 12 b11 ?_ 66 ?_ (f p) k ?_ ?_).symm)
    · rfl
    · exact (by decide : (11 : ℕ) < 16)
    · rfl
    · rfl
    · omega
    · omega
    · rfl
    · exact (by decide : (11 : ℕ) < 16)
    · rfl
    · rfl
    · omega
    · omega
  by_cases c12 : k.val < 91
  · refine (concatCols_ix2 _ _ [1, 2, 3, 4, 5, 6, 7, 8, 9, 10, 11, 12, 13, 14, 15, 16] ?_ 12 ?_ 13 a12 ?_ 78 ?_ p k ?_ ?_).trans
      ((h12 p _).trans (concatCols_ix2 _ _ [1, 2, 3, 4, 5, 6, 7, 8, 9, 10, 11, 12, 13, 14, 15, 16] ?_ 12 ?_ 13 b12 ?_ 78 ?_ (f p) k ?_ ?_).symm)
    · rfl
    · exact (by decide : (12 : ℕ) < 16)
    · rfl
    · rfl
    · omega
    · omega
    · rfl
    · exact (by decide : (12 : ℕ) < 16)
    · rfl
    · rfl
    · omega
    · omega
  by_cases c13 : k.val < 105
  · refine (concatCols_ix2 _ _ [1, 2, 3, 4, 5, 6, 7, 8, 9, 10, 11, 12, 13, 14, 15, 16] ?_ 13 ?_ 14 a13 ?_ 91 ?_ p k ?_ ?_).trans
      ((h13 p _).trans (concatCols_ix2 _ _ [1, 2, 3, 4, 5, 6, 7, 8, 9, 10, 11, 12, 13, 14, 15, 16] ?_ 13 ?_ 14 b13 ?_ 91 ?_ (f p) k ?_ ?_).symm)
    · rfl
    · exact (by decide : (13 : ℕ) < 16)
    · rfl
    · rfl
    · omega
    · omega
    · rfl
    · exact (by decide : (13 : ℕ) < 16)
    · rfl
    · rfl
    · omega
    · omega
  by_cases c14 : k.val < 120
  · refine (concatCols_ix2 _ _ [1, 2, 3, 4, 5, 6, 7, 8, 9, 10, 11, 12, 13, 14, 15, 16] ?_ 14 ?_ 15 a14 ?_ 105 ?_ p k ?_ ?_).trans
      ((h14 p _).trans (concatCols_ix2 _ _ [1, 2, 3, 4, 5, 6, 7, 8, 9, 10, 11, 12, 13, 14, 15, 16] ?_ 14 ?_ 15 b14 ?_ 105 ?_ (f p) k ?_ ?_).symm)
    · rfl
    · exact (by decide : (14 : ℕ) < 16)
    · rfl
    · rfl
    · omega
    · omega
    · rfl
    · exact (by decide : (14 : ℕ) < 16)
    · rfl
    · rfl
    · omega
    · omega
  · refine (concatCols_ix2 _ _ [1, 2, 3, 4, 5, 6, 7, 8, 9, 10, 11, 12, 13, 14, 15, 16] ?_ 15 ?_ 16 a15 ?_ 120 ?_ p k ?_ ?_).trans
      ((h15 p _).trans (concatCols_ix2 _ _ [1, 2, 3, 4, 5, 6, 7, 8, 9, 10, 11, 12, 13, 14, 15, 16] ?_ 15 ?_ 16 b15 ?_ 120 ?_ (f p) k ?_ ?_).symm)
    · rfl
    · exact (by decide : (15 : ℕ) < 16)
    · rfl
    · rfl
    · omega
    · omega
    · rfl
    · exact (by decide : (15 : ℕ) < 16)
    · rfl
    · rfl
    · omega
    · omega

set_option maxHeartbeats 1600000 in
/-- The same for sixteen pieces of widths 1, 3, 6, …, 136. -/
theorem rows_cat_cubic {α : Type} (f : Fin 4096 → Fin 262144)
    (hc : Shape.Concatenates [Sh2 4096 1, Sh2 4096 3, Sh2 4096 6, Sh2 4096 10, Sh2 4096 15, Sh2 4096 21, Sh2 4096 28, Sh2 4096 36, Sh2 4096 45, Sh2 4096 55, Sh2 4096 66, Sh2 4096 78, Sh2 4096 91, Sh2 4096 105, Sh2 4096 120, Sh2 4096 136] (Sh2 4096 816) 1)
    (hc' : Shape.Concatenates [Sh2 262144 1, Sh2 262144 3, Sh2 262144 6, Sh2 262144 10, Sh2 262144 15, Sh2 262144 21, Sh2 262144 28, Sh2 262144 36, Sh2 262144 45, Sh2 262144 55, Sh2 262144 66, Sh2 262144 78, Sh2 262144 91, Sh2 262144 105, Sh2 262144 120, Sh2 262144 136] (Sh2 262144 816) 1)
    (a0 : (Sh2 4096 1).Idx → α) (a1 : (Sh2 4096 3).Idx → α) (a2 : (Sh2 4096 6).Idx → α) (a3 : (Sh2 4096 10).Idx → α) (a4 : (Sh2 4096 15).Idx → α) (a5 : (Sh2 4096 21).Idx → α) (a6 : (Sh2 4096 28).Idx → α) (a7 : (Sh2 4096 36).Idx → α) (a8 : (Sh2 4096 45).Idx → α) (a9 : (Sh2 4096 55).Idx → α) (a10 : (Sh2 4096 66).Idx → α) (a11 : (Sh2 4096 78).Idx → α) (a12 : (Sh2 4096 91).Idx → α) (a13 : (Sh2 4096 105).Idx → α) (a14 : (Sh2 4096 120).Idx → α) (a15 : (Sh2 4096 136).Idx → α)
    (b0 : (Sh2 262144 1).Idx → α) (b1 : (Sh2 262144 3).Idx → α) (b2 : (Sh2 262144 6).Idx → α) (b3 : (Sh2 262144 10).Idx → α) (b4 : (Sh2 262144 15).Idx → α) (b5 : (Sh2 262144 21).Idx → α) (b6 : (Sh2 262144 28).Idx → α) (b7 : (Sh2 262144 36).Idx → α) (b8 : (Sh2 262144 45).Idx → α) (b9 : (Sh2 262144 55).Idx → α) (b10 : (Sh2 262144 66).Idx → α) (b11 : (Sh2 262144 78).Idx → α) (b12 : (Sh2 262144 91).Idx → α) (b13 : (Sh2 262144 105).Idx → α) (b14 : (Sh2 262144 120).Idx → α) (b15 : (Sh2 262144 136).Idx → α)
    (h0 : RowsOf f a0 b0) (h1 : RowsOf f a1 b1) (h2 : RowsOf f a2 b2) (h3 : RowsOf f a3 b3) (h4 : RowsOf f a4 b4) (h5 : RowsOf f a5 b5) (h6 : RowsOf f a6 b6) (h7 : RowsOf f a7 b7) (h8 : RowsOf f a8 b8) (h9 : RowsOf f a9 b9) (h10 : RowsOf f a10 b10) (h11 : RowsOf f a11 b11) (h12 : RowsOf f a12 b12) (h13 : RowsOf f a13 b13) (h14 : RowsOf f a14 b14) (h15 : RowsOf f a15 b15) :
    RowsOf f (concatenate (Sh2 4096 816) 1 [⟨Sh2 4096 1, a0⟩, ⟨Sh2 4096 3, a1⟩, ⟨Sh2 4096 6, a2⟩, ⟨Sh2 4096 10, a3⟩, ⟨Sh2 4096 15, a4⟩, ⟨Sh2 4096 21, a5⟩, ⟨Sh2 4096 28, a6⟩, ⟨Sh2 4096 36, a7⟩, ⟨Sh2 4096 45, a8⟩, ⟨Sh2 4096 55, a9⟩, ⟨Sh2 4096 66, a10⟩, ⟨Sh2 4096 78, a11⟩, ⟨Sh2 4096 91, a12⟩, ⟨Sh2 4096 105, a13⟩, ⟨Sh2 4096 120, a14⟩, ⟨Sh2 4096 136, a15⟩] hc)
      (concatenate (Sh2 262144 816) 1 [⟨Sh2 262144 1, b0⟩, ⟨Sh2 262144 3, b1⟩, ⟨Sh2 262144 6, b2⟩, ⟨Sh2 262144 10, b3⟩, ⟨Sh2 262144 15, b4⟩, ⟨Sh2 262144 21, b5⟩, ⟨Sh2 262144 28, b6⟩, ⟨Sh2 262144 36, b7⟩, ⟨Sh2 262144 45, b8⟩, ⟨Sh2 262144 55, b9⟩, ⟨Sh2 262144 66, b10⟩, ⟨Sh2 262144 78, b11⟩, ⟨Sh2 262144 91, b12⟩, ⟨Sh2 262144 105, b13⟩, ⟨Sh2 262144 120, b14⟩, ⟨Sh2 262144 136, b15⟩] hc') := by
  intro p k
  have hk := k.isLt
  by_cases c0 : k.val < 1
  · refine (concatCols_ix2 _ _ [1, 3, 6, 10, 15, 21, 28, 36, 45, 55, 66, 78, 91, 105, 120, 136] ?_ 0 ?_ 1 a0 ?_ 0 ?_ p k ?_ ?_).trans
      ((h0 p _).trans (concatCols_ix2 _ _ [1, 3, 6, 10, 15, 21, 28, 36, 45, 55, 66, 78, 91, 105, 120, 136] ?_ 0 ?_ 1 b0 ?_ 0 ?_ (f p) k ?_ ?_).symm)
    · rfl
    · exact (by decide : (0 : ℕ) < 16)
    · rfl
    · rfl
    · omega
    · omega
    · rfl
    · exact (by decide : (0 : ℕ) < 16)
    · rfl
    · rfl
    · omega
    · omega
  by_cases c1 : k.val < 4
  · refine (concatCols_ix2 _ _ [1, 3, 6, 10, 15, 21, 28, 36, 45, 55, 66, 78, 91, 105, 120, 136] ?_ 1 ?_ 3 a1 ?_ 1 ?_ p k ?_ ?_).trans
      ((h1 p _).trans (concatCols_ix2 _ _ [1, 3, 6, 10, 15, 21, 28, 36, 45, 55, 66, 78, 91, 105, 120, 136] ?_ 1 ?_ 3 b1 ?_ 1 ?_ (f p) k ?_ ?_).symm)
    · rfl
    · exact (by decide : (1 : ℕ) < 16)
    · rfl
    · rfl
    · omega
    · omega
    · rfl
    · exact (by decide : (1 : ℕ) < 16)
    · rfl
    · rfl
    · omega
    · omega
  by_cases c2 : k.val < 10
  · refine (concatCols_ix2 _ _ [1, 3, 6, 10, 15, 21, 28, 36, 45, 55, 66, 78, 91, 105, 120, 136] ?_ 2 ?_ 6 a2 ?_ 4 ?_ p k ?_ ?_).trans
      ((h2 p _).trans (concatCols_ix2 _ _ [1, 3, 6, 10, 15, 21, 28, 36, 45, 55, 66, 78, 91, 105, 120, 136] ?_ 2 ?_ 6 b2 ?_ 4 ?_ (f p) k ?_ ?_).symm)
    · rfl
    · exact (by decide : (2 : ℕ) < 16)
    · rfl
    · rfl
    · omega
    · omega
    · rfl
    · exact (by decide : (2 : ℕ) < 16)
    · rfl
    · rfl
    · omega
    · omega
  by_cases c3 : k.val < 20
  · refine (concatCols_ix2 _ _ [1, 3, 6, 10, 15, 21, 28, 36, 45, 55, 66, 78, 91, 105, 120, 136] ?_ 3 ?_ 10 a3 ?_ 10 ?_ p k ?_ ?_).trans
      ((h3 p _).trans (concatCols_ix2 _ _ [1, 3, 6, 10, 15, 21, 28, 36, 45, 55, 66, 78, 91, 105, 120, 136] ?_ 3 ?_ 10 b3 ?_ 10 ?_ (f p) k ?_ ?_).symm)
    · rfl
    · exact (by decide : (3 : ℕ) < 16)
    · rfl
    · rfl
    · omega
    · omega
    · rfl
    · exact (by decide : (3 : ℕ) < 16)
    · rfl
    · rfl
    · omega
    · omega
  by_cases c4 : k.val < 35
  · refine (concatCols_ix2 _ _ [1, 3, 6, 10, 15, 21, 28, 36, 45, 55, 66, 78, 91, 105, 120, 136] ?_ 4 ?_ 15 a4 ?_ 20 ?_ p k ?_ ?_).trans
      ((h4 p _).trans (concatCols_ix2 _ _ [1, 3, 6, 10, 15, 21, 28, 36, 45, 55, 66, 78, 91, 105, 120, 136] ?_ 4 ?_ 15 b4 ?_ 20 ?_ (f p) k ?_ ?_).symm)
    · rfl
    · exact (by decide : (4 : ℕ) < 16)
    · rfl
    · rfl
    · omega
    · omega
    · rfl
    · exact (by decide : (4 : ℕ) < 16)
    · rfl
    · rfl
    · omega
    · omega
  by_cases c5 : k.val < 56
  · refine (concatCols_ix2 _ _ [1, 3, 6, 10, 15, 21, 28, 36, 45, 55, 66, 78, 91, 105, 120, 136] ?_ 5 ?_ 21 a5 ?_ 35 ?_ p k ?_ ?_).trans
      ((h5 p _).trans (concatCols_ix2 _ _ [1, 3, 6, 10, 15, 21, 28, 36, 45, 55, 66, 78, 91, 105, 120, 136] ?_ 5 ?_ 21 b5 ?_ 35 ?_ (f p) k ?_ ?_).symm)
    · rfl
    · exact (by decide : (5 : ℕ) < 16)
    · rfl
    · rfl
    · omega
    · omega
    · rfl
    · exact (by decide : (5 : ℕ) < 16)
    · rfl
    · rfl
    · omega
    · omega
  by_cases c6 : k.val < 84
  · refine (concatCols_ix2 _ _ [1, 3, 6, 10, 15, 21, 28, 36, 45, 55, 66, 78, 91, 105, 120, 136] ?_ 6 ?_ 28 a6 ?_ 56 ?_ p k ?_ ?_).trans
      ((h6 p _).trans (concatCols_ix2 _ _ [1, 3, 6, 10, 15, 21, 28, 36, 45, 55, 66, 78, 91, 105, 120, 136] ?_ 6 ?_ 28 b6 ?_ 56 ?_ (f p) k ?_ ?_).symm)
    · rfl
    · exact (by decide : (6 : ℕ) < 16)
    · rfl
    · rfl
    · omega
    · omega
    · rfl
    · exact (by decide : (6 : ℕ) < 16)
    · rfl
    · rfl
    · omega
    · omega
  by_cases c7 : k.val < 120
  · refine (concatCols_ix2 _ _ [1, 3, 6, 10, 15, 21, 28, 36, 45, 55, 66, 78, 91, 105, 120, 136] ?_ 7 ?_ 36 a7 ?_ 84 ?_ p k ?_ ?_).trans
      ((h7 p _).trans (concatCols_ix2 _ _ [1, 3, 6, 10, 15, 21, 28, 36, 45, 55, 66, 78, 91, 105, 120, 136] ?_ 7 ?_ 36 b7 ?_ 84 ?_ (f p) k ?_ ?_).symm)
    · rfl
    · exact (by decide : (7 : ℕ) < 16)
    · rfl
    · rfl
    · omega
    · omega
    · rfl
    · exact (by decide : (7 : ℕ) < 16)
    · rfl
    · rfl
    · omega
    · omega
  by_cases c8 : k.val < 165
  · refine (concatCols_ix2 _ _ [1, 3, 6, 10, 15, 21, 28, 36, 45, 55, 66, 78, 91, 105, 120, 136] ?_ 8 ?_ 45 a8 ?_ 120 ?_ p k ?_ ?_).trans
      ((h8 p _).trans (concatCols_ix2 _ _ [1, 3, 6, 10, 15, 21, 28, 36, 45, 55, 66, 78, 91, 105, 120, 136] ?_ 8 ?_ 45 b8 ?_ 120 ?_ (f p) k ?_ ?_).symm)
    · rfl
    · exact (by decide : (8 : ℕ) < 16)
    · rfl
    · rfl
    · omega
    · omega
    · rfl
    · exact (by decide : (8 : ℕ) < 16)
    · rfl
    · rfl
    · omega
    · omega
  by_cases c9 : k.val < 220
  · refine (concatCols_ix2 _ _ [1, 3, 6, 10, 15, 21, 28, 36, 45, 55, 66, 78, 91, 105, 120, 136] ?_ 9 ?_ 55 a9 ?_ 165 ?_ p k ?_ ?_).trans
      ((h9 p _).trans (concatCols_ix2 _ _ [1, 3, 6, 10, 15, 21, 28, 36, 45, 55, 66, 78, 91, 105, 120, 136] ?_ 9 ?_ 55 b9 ?_ 165 ?_ (f p) k ?_ ?_).symm)
    · rfl
    · exact (by decide : (9 : ℕ) < 16)
    · rfl
    · rfl
    · omega
    · omega
    · rfl
    · exact (by decide : (9 : ℕ) < 16)
    · rfl
    · rfl
    · omega
    · omega
  by_cases c10 : k.val < 286
  · refine (concatCols_ix2 _ _ [1, 3, 6, 10, 15, 21, 28, 36, 45, 55, 66, 78, 91, 105, 120, 136] ?_ 10 ?_ 66 a10 ?_ 220 ?_ p k ?_ ?_).trans
      ((h10 p _).trans (concatCols_ix2 _ _ [1, 3, 6, 10, 15, 21, 28, 36, 45, 55, 66, 78, 91, 105, 120, 136] ?_ 10 ?_ 66 b10 ?_ 220 ?_ (f p) k ?_ ?_).symm)
    · rfl
    · exact (by decide : (10 : ℕ) < 16)
    · rfl
    · rfl
    · omega
    · omega
    · rfl
    · exact (by decide : (10 : ℕ) < 16)
    · rfl
    · rfl
    · omega
    · omega
  by_cases c11 : k.val < 364
  · refine (concatCols_ix2 _ _ [1, 3, 6, 10, 15, 21, 28, 36, 45, 55, 66, 78, 91, 105, 120, 136] ?_ 11 ?_ 78 a11 ?_ 286 ?_ p k ?_ ?_).trans
      ((h11 p _).trans (concatCols_ix2 _ _ [1, 3, 6, 10, 15, 21, 28, 36, 45, 55, 66, 78, 91, 105, 120, 136] ?_ 11 ?_ 78 b11 ?_ 286 ?_ (f p) k ?_ ?_).symm)
    · rfl
    · exact (by decide : (11 : ℕ) < 16)
    · rfl
    · rfl
    · omega
    · omega
    · rfl
    · exact (by decide : (11 : ℕ) < 16)
    · rfl
    · rfl
    · omega
    · omega
  by_cases c12 : k.val < 455
  · refine (concatCols_ix2 _ _ [1, 3, 6, 10, 15, 21, 28, 36, 45, 55, 66, 78, 91, 105, 120, 136] ?_ 12 ?_ 91 a12 ?_ 364 ?_ p k ?_ ?_).trans
      ((h12 p _).trans (concatCols_ix2 _ _ [1, 3, 6, 10, 15, 21, 28, 36, 45, 55, 66, 78, 91, 105, 120, 136] ?_ 12 ?_ 91 b12 ?_ 364 ?_ (f p) k ?_ ?_).symm)
    · rfl
    · exact (by decide : (12 : ℕ) < 16)
    · rfl
    · rfl
    · omega
    · omega
    · rfl
    · exact (by decide : (12 : ℕ) < 16)
    · rfl
    · rfl
    · omega
    · omega
  by_cases c13 : k.val < 560
  · refine (concatCols_ix2 _ _ [1, 3, 6, 10, 15, 21, 28, 36, 45, 55, 66, 78, 91, 105, 120, 136] ?_ 13 ?_ 105 a13 ?_ 455 ?_ p k ?_ ?_).trans
      ((h13 p _).trans (concatCols_ix2 _ _ [1, 3, 6, 10, 15, 21, 28, 36, 45, 55, 66, 78, 91, 105, 120, 136] ?_ 13 ?_ 105 b13 ?_ 455 ?_ (f p) k ?_ ?_).symm)
    · rfl
    · exact (by decide : (13 : ℕ) < 16)
    · rfl
    · rfl
    · omega
    · omega
    · rfl
    · exact (by decide : (13 : ℕ) < 16)
    · rfl
    · rfl
    · omega
    · omega
  by_cases c14 : k.val < 680
  · refine (concatCols_ix2 _ _ [1, 3, 6, 10, 15, 21, 28, 36, 45, 55, 66, 78, 91, 105, 120, 136] ?_ 14 ?_ 120 a14 ?_ 560 ?_ p k ?_ ?_).trans
      ((h14 p _).trans (concatCols_ix2 _ _ [1, 3, 6, 10, 15, 21, 28, 36, 45, 55, 66, 78, 91, 105, 120, 136] ?_ 14 ?_ 120 b14 ?_ 560 ?_ (f p) k ?_ ?_).symm)
    · rfl
    · exact (by decide : (14 : ℕ) < 16)
    · rfl
    · rfl
    · omega
    · omega
    · rfl
    · exact (by decide : (14 : ℕ) < 16)
    · rfl
    · rfl
    · omega
    · omega
  · refine (concatCols_ix2 _ _ [1, 3, 6, 10, 15, 21, 28, 36, 45, 55, 66, 78, 91, 105, 120, 136] ?_ 15 ?_ 136 a15 ?_ 680 ?_ p k ?_ ?_).trans
      ((h15 p _).trans (concatCols_ix2 _ _ [1, 3, 6, 10, 15, 21, 28, 36, 45, 55, 66, 78, 91, 105, 120, 136] ?_ 15 ?_ 136 b15 ?_ 680 ?_ (f p) k ?_ ?_).symm)
    · rfl
    · exact (by decide : (15 : ℕ) < 16)
    · rfl
    · rfl
    · omega
    · omega
    · rfl
    · exact (by decide : (15 : ℕ) < 16)
    · rfl
    · rfl
    · omega
    · omega

variable {F : FTy → Type} [FloatOps F]

/-- The kernel's 136-column block of a tile. -/
def quadK (v0 : FVec F S4096x16 .f32) : FVec F S4096x136 .f32 :=
  k0_pay21 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)

/-- The kernel's 816-column block of a tile. -/
def cubicK (v0 : FVec F S4096x16 .f32) : FVec F S4096x816 .f32 :=
  concatenate S4096x816 1
     [⟨S4096x1, k0_pay22 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x3, k0_pay23 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x6, k0_pay24 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x10, k0_pay25 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x15, k0_pay26 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x21, k0_pay27 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x28, k0_pay28 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x36, k0_pay29 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x45, k0_pay30 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x55, k0_pay31 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x66, k0_pay32 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x78, k0_pay33 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x91, k0_pay34 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0)⟩,
      ⟨S4096x105, k0_pay1 (k0_pay35 v0) (k0_pay36 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0))⟩,
      ⟨S4096x120, k0_pay2 v0 (k0_pay21 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0))⟩,
      ⟨S4096x136, k0_pay3 v0 (k0_pay21 v0 (k0_pay6 v0) (k0_pay7 v0) (k0_pay8 v0) (k0_pay9 v0) (k0_pay10 v0) (k0_pay11 v0) (k0_pay12 v0) (k0_pay13 v0) (k0_pay14 v0) (k0_pay15 v0) (k0_pay16 v0) (k0_pay17 v0) (k0_pay18 v0) (k0_pay19 v0) (k0_pay20 v0))⟩]
    concatenates_S4096x1_S4096x3_S4096x6_S4096x10_S4096x15_S4096x21_S4096x28_S4096x36_S4096x45_S4096x55_S4096x66_S4096x78_S4096x91_S4096x105_S4096x120_S4096x136_S4096x816_d1

/-- The 136-column block of a tile that is the rows `f p` of `x0` is the rows `f p` of `x0`'s 136-column block. -/
theorem rows_quad (f : Fin 4096 → Fin 262144) (v0 : FVec F S4096x16 .f32) (x0 : FVec F Cert.ReferenceIdeal.S262144x16 .f32)
    (h0 : RowsOf f v0 x0) : RowsOf f (quadK v0) (quadR x0) := by
  have p0 := (h0.slice (w := 1) 0 (by decide) (by decide) (by decide)).mulf (h0.slice (w := 1) 0 (by decide) (by decide) (by decide))
  have p1 := ((h0.slice (w := 1) 1 (by decide) (by decide) (by decide)).bcast (by decide) (by decide)).mulf (h0.slice (w := 2) 0 (by decide) (by decide) (by decide))
  have p2 := ((h0.slice (w := 1) 2 (by decide) (by decide) (by decide)).bcast (by decide) (by decide)).mulf (h0.slice (w := 3) 0 (by decide) (by decide) (by decide))
  have p3 := ((h0.slice (w := 1) 3 (by decide) (by decide) (by decide)).bcast (by decide) (by decide)).mulf (h0.slice (w := 4) 0 (by decide) (by decide) (by decide))
  have p4 := ((h0.slice (w := 1) 4 (by decide) (by decide) (by decide)).bcast (by decide) (by decide)).mulf (h0.slice (w := 5) 0 (by decide) (by decide) (by decide))
  have p5 := ((h0.slice (w := 1) 5 (by decide) (by decide) (by decide)).bcast (by decide) (by decide)).mulf (h0.slice (w := 6) 0 (by decide) (by decide) (by decide))
  have p6 := ((h0.slice (w := 1) 6 (by decide) (by decide) (by decide)).bcast (by decide) (by decide)).mulf (h0.slice (w := 7) 0 (by decide) (by decide) (by decide))
  have p7 := ((h0.slice (w := 1) 7 (by decide) (by decide) (by decide)).bcast (by decide) (by decide)).mulf (h0.slice (w := 8) 0 (by decide) (by decide) (by decide))
  have p8 := ((h0.slice (w := 1) 8 (by decide) (by decide) (by decide)).bcast (by decide) (by decide)).mulf (h0.slice (w := 9) 0 (by decide) (by decide) (by decide))
  have p9 := ((h0.slice (w := 1) 9 (by decide) (by decide) (by decide)).bcast (by decide) (by decide)).mulf (h0.slice (w := 10) 0 (by decide) (by decide) (by decide))
  have p10 := ((h0.slice (w := 1) 10 (by decide) (by decide) (by decide)).bcast (by decide) (by decide)).mulf (h0.slice (w := 11) 0 (by decide) (by decide) (by decide))
  have p11 := ((h0.slice (w := 1) 11 (by decide) (by decide) (by decide)).bcast (by decide) (by decide)).mulf (h0.slice (w := 12) 0 (by decide) (by decide) (by decide))
  have p12 := ((h0.slice (w := 1) 12 (by decide) (by decide) (by decide)).bcast (by decide) (by decide)).mulf (h0.slice (w := 13) 0 (by decide) (by decide) (by decide))
  have p13 := ((h0.slice (w := 1) 13 (by decide) (by decide) (by decide)).bcast (by decide) (by decide)).mulf (h0.slice (w := 14) 0 (by decide) (by decide) (by decide))
  have p14 := ((h0.slice (w := 1) 14 (by decide) (by decide) (by decide)).bcast (by decide) (by decide)).mulf (h0.slice (w := 15) 0 (by decide) (by decide) (by decide))
  have p15 := ((h0.slice (w := 1) 15 (by decide) (by decide) (by decide)).bcast (by decide) (by decide)).mulf h0
  exact rows_cat_quad f (by decide) (by decide) _ _ _ _ _ _ _ _ _ _ _ _ _ _ _ _ _ _ _ _ _ _ _ _ _ _ _ _ _ _ _ _ p0 p1 p2 p3 p4 p5 p6 p7 p8 p9 p10 p11 p12 p13 p14 p15

/-- The 816-column block likewise. -/
theorem rows_cubic (f : Fin 4096 → Fin 262144) (v0 : FVec F S4096x16 .f32) (x0 : FVec F Cert.ReferenceIdeal.S262144x16 .f32)
    (h0 : RowsOf f v0 x0) : RowsOf f (cubicK v0) (cubicR x0) := by
  have hq := rows_quad f v0 x0 h0
  have p0 := (h0.slice (w := 1) 0 (by decide) (by decide) (by decide)).mulf (hq.slice (w := 1) 0 (by decide) (by decide) (by decide))
  have p1 := ((h0.slice (w := 1) 1 (by decide) (by decide) (by decide)).bcast (by decide) (by decide)).mulf (hq.slice (w := 3) 0 (by decide) (by decide) (by decide))
  have p2 := ((h0.slice (w := 1) 2 (by decide) (by decide) (by decide)).bcast (by decide) (by decide)).mulf (hq.slice (w := 6) 0 (by decide) (by decide) (by decide))
  have p3 := ((h0.slice (w := 1) 3 (by decide) (by decide) (by decide)).bcast (by decide) (by decide)).mulf (hq.slice (w := 10) 0 (by decide) (by decide) (by decide))
  have p4 := ((h0.slice (w := 1) 4 (by decide) (by decide) (by decide)).bcast (by decide) (by decide)).mulf (hq.slice (w := 15) 0 (by decide) (by decide) (by decide))
  have p5 := ((h0.slice (w := 1) 5 (by decide) (by decide) (by decide)).bcast (by decide) (by decide)).mulf (hq.slice (w := 21) 0 (by decide) (by decide) (by decide))
  have p6 := ((h0.slice (w := 1) 6 (by decide) (by decide) (by decide)).bcast (by decide) (by decide)).mulf (hq.slice (w := 28) 0 (by decide) (by decide) (by decide))
  have p7 := ((h0.slice (w := 1) 7 (by decide) (by decide) (by decide)).bcast (by decide) (by decide)).mulf (hq.slice (w := 36) 0 (by decide) (by decide) (by decide))
  have p8 := ((h0.slice (w := 1) 8 (by decide) (by decide) (by decide)).bcast (by decide) (by decide)).mulf (hq.slice (w := 45) 0 (by decide) (by decide) (by decide))
  have p9 := ((h0.slice (w := 1) 9 (by decide) (by decide) (by decide)).bcast (by decide) (by decide)).mulf (hq.slice (w := 55) 0 (by decide) (by decide) (by decide))
  have p10 := ((h0.slice (w := 1) 10 (by decide) (by decide) (by decide)).bcast (by decide) (by decide)).mulf (hq.slice (w := 66) 0 (by decide) (by decide) (by decide))
  have p11 := ((h0.slice (w := 1) 11 (by decide) (by decide) (by decide)).bcast (by decide) (by decide)).mulf (hq.slice (w := 78) 0 (by decide) (by decide) (by decide))
  have p12 := ((h0.slice (w := 1) 12 (by decide) (by decide) (by decide)).bcast (by decide) (by decide)).mulf (hq.slice (w := 91) 0 (by decide) (by decide) (by decide))
  have p13 := ((h0.slice (w := 1) 13 (by decide) (by decide) (by decide)).bcast (by decide) (by decide)).mulf (hq.slice (w := 105) 0 (by decide) (by decide) (by decide))
  have p14 := ((h0.slice (w := 1) 14 (by decide) (by decide) (by decide)).bcast (by decide) (by decide)).mulf (hq.slice (w := 120) 0 (by decide) (by decide) (by decide))
  have p15 := ((h0.slice (w := 1) 15 (by decide) (by decide) (by decide)).bcast (by decide) (by decide)).mulf hq
  exact rows_cat_cubic f (by decide) (by decide) _ _ _ _ _ _ _ _ _ _ _ _ _ _ _ _ _ _ _ _ _ _ _ _ _ _ _ _ _ _ _ _ p0 p1 p2 p3 p4 p5 p6 p7 p8 p9 p10 p11 p12 p13 p14 p15

end Cert.PolyRows

end
-- ==== Proof.KernelEntry.lean ====
/-
  What the kernel's body leaves at an entry of its output tile.

  With `x` the tile of 4096 rows it loads, `Q` and `C` the 136- and 816-column blocks of products it builds from
  `x`, and `w₀` (one row), `w₁`, `w₂`, `w₃` the four pieces of the weights it is handed, the body stores at
  `(p, j)`

      x(p, j) + (((w₀(0, j) + ∑ₖ x(p, k) · w₁(k, j)) + ∑ₖ Q(p, k) · w₂(k, j)) + ∑ₖ C(p, k) · w₃(k, j)).

  Each of the three matrix products starts from a zero accumulator, so at an entry it is the plain sum of the
  products along the contracted axis (`matmul_zero_ix2`, with the operand coordinates of each of the three dimension
  records); a change of float format is the identity on the extended reals; the one-row bias is spread over the rows.
-/
import proofs.«160123_j33603824124566_2_alg».proof.Proof.Gen.KernelIdeal.Frame
import proofs.«160123_j33603824124566_2_alg».proof.Proof.PolyRows
import Idealize.ShloMosaic.PureOps.Ideal.Laws
import Idealize.ShloMosaic.Lib.ValueIdx
import Idealize.ShloMosaic.Lib.Pipeline.Value

noncomputable section

namespace Cert.KernelEntry

open Idealize.ShloMosaic Idealize.ShloMosaic.ValueIdx Cert.Lib.Rowwise Cert.PolyRows
open Cert.KernelIdeal Cert.KernelIdeal.Gen

/-- A matrix product into a zero accumulator, at the entry `(p, j)`: the sum over the one contracted coordinate `k`
    of `a(p, k) · b(k, j)` — given that the dimension record contracts one axis of extent `K` and reads the left
    operand at (row, `k`) and the right one at (`k`, column). -/
theorem matmul_zero_ix2 {R K N : Nat} {φ₁ φ₂ : FTy} (D : DotDims (Sh2 R K) (Sh2 K N) (Sh2 R N))
    (hr : D.contr.rank = 1) (hs : D.contr.size ⟨0, by omega⟩ = K)
    (hl0 : ∀ (i : (Sh2 R N).Idx) (q : D.contr.Idx), (D.lhsIdx i q 0).val = (i 0).val)
    (hl1 : ∀ (i : (Sh2 R N).Idx) (q : D.contr.Idx), (D.lhsIdx i q 1).val = (q ⟨0, by omega⟩).val)
    (hr0 : ∀ (i : (Sh2 R N).Idx) (q : D.contr.Idx), (D.rhsIdx i q 0).val = (q ⟨0, by omega⟩).val)
    (hr1 : ∀ (i : (Sh2 R N).Idx) (q : D.contr.Idx), (D.rhsIdx i q 1).val = (i 1).val)
    (prec : Option ContractPrecision) (a : FVec Ideal (Sh2 R K) φ₁) (b : FVec Ideal (Sh2 K N) φ₂) (p : Fin R) (j : Fin N) :
    matmul D prec a b (constant (F := Ideal) (Sh2 R N) .f32 0x00000000#32) (ix2 p j) = ∑ k : Fin K, a (ix2 p k) * b (ix2 k j) := by
  refine (Ideal.matmul_constant_zero_apply D prec a b (ix2 p j)).trans ?_
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun d => Fin.ext (by
    match d with
    | ⟨0, _⟩ => exact hl0 _ _
    | ⟨1, _⟩ => exact (hl1 _ _).trans hk)
  have er : D.rhsIdx (ix2 p j) ((contrEquiv1 D K hr hs).symm k) = ix2 k j := funext fun d => Fin.ext (by
    match d with
    | ⟨0, _⟩ => exact (hr0 _ _).trans hk
    | ⟨1, _⟩ => exact hr1 _ _)
  rw [el, er]

/-- The product of a 16-column operand with a 16-row operand into a zero accumulator, at an entry. -/
theorem dot16_entry (a : FVec Ideal S4096x16 .bf16) (b : FVec Ideal S16x16 .bf16) (p : Fin 4096) (j : Fin 16) :
    matmul dot_S4096x16_S16x16_S4096x16_1_0_0_1_n_n none a b (constant (F := Ideal) S4096x16 .f32 0x00000000#32) (ix2 p j) = ∑ k : Fin 16, a (ix2 p k) * b (ix2 k j) :=
  matmul_zero_ix2 dot_S4096x16_S16x16_S4096x16_1_0_0_1_n_n rfl rfl
    (fun i q => by
      unfold DotDims.lhsIdx
      rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
      rfl)
    (fun i q => dot_S4096x16_S16x16_S4096x16_1_0_0_1_n_n.lhsIdx_val_of_single rfl i q)
    (fun i q => dot_S4096x16_S16x16_S4096x16_1_0_0_1_n_n.rhsIdx_val_of_single rfl i q)
    (fun i q => by
      unfold DotDims.rhsIdx
      rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
      rfl)
    none a b p j

/-- The product of a 136-column operand with a 136-row operand into a zero accumulator, at an entry. -/
theorem dot136_entry (a : FVec Ideal S4096x136 .bf16) (b : FVec Ideal S136x16 .bf16) (p : Fin 4096) (j : Fin 16) :
    matmul dot_S4096x136_S136x16_S4096x16_1_0_0_1_n_n none a b (constant (F := Ideal) S4096x16 .f32 0x00000000#32) (ix2 p j) = ∑ k : Fin 136, a (ix2 p k) * b (ix2 k j) :=
  matmul_zero_ix2 dot_S4096x136_S136x16_S4096x16_1_0_0_1_n_n rfl rfl
    (fun i q => by
      unfold DotDims.lhsIdx
      rw [dif_neg (show ¬(0 : Fin S4096x136.rank) ∈ dot_S4096x136_S136x16_S4096x16_1_0_0_1_n_n.lhsBatch by decide), dif_pos (show (0 : Fin S4096x136.rank) ∈ dot_S4096x136_S136x16_S4096x16_1_0_0_1_n_n.lhsNonContracting by decide)]
      rfl)
    (fun i q => dot_S4096x136_S136x16_S4096x16_1_0_0_1_n_n.lhsIdx_val_of_single rfl i q)
    (fun i q => dot_S4096x136_S136x16_S4096x16_1_0_0_1_n_n.rhsIdx_val_of_single rfl i q)
    (fun i q => by
      unfold DotDims.rhsIdx
      rw [dif_neg (show ¬(1 : Fin S136x16.rank) ∈ dot_S4096x136_S136x16_S4096x16_1_0_0_1_n_n.rhsBatch by decide), dif_pos (show (1 : Fin S136x16.rank) ∈ dot_S4096x136_S136x16_S4096x16_1_0_0_1_n_n.rhsNonContracting by decide)]
      rfl)
    none a b p j

/-- The product of a 816-column operand with a 816-row operand into a zero accumulator, at an entry. -/
theorem dot816_entry (a : FVec Ideal S4096x816 .bf16) (b : FVec Ideal S816x16 .bf16) (p : Fin 4096) (j : Fin 16) :
    matmul dot_S4096x816_S816x16_S4096x16_1_0_0_1_n_n none a b (constant (F := Ideal) S4096x16 .f32 0x00000000#32) (ix2 p j) = ∑ k : Fin 816, a (ix2 p k) * b (ix2 k j) :=
  matmul_zero_ix2 dot_S4096x816_S816x16_S4096x16_1_0_0_1_n_n rfl rfl
    (fun i q => by
      unfold DotDims.lhsIdx
      rw [dif_neg (show ¬(0 : Fin S4096x816.rank) ∈ dot_S4096x816_S816x16_S4096x16_1_0_0_1_n_n.lhsBatch by decide), dif_pos (show (0 : Fin S4096x816.rank) ∈ dot_S4096x816_S816x16_S4096x16_1_0_0_1_n_n.lhsNonContracting by decide)]
      rfl)
    (fun i q => dot_S4096x816_S816x16_S4096x16_1_0_0_1_n_n.lhsIdx_val_of_single rfl i q)
    (fun i q => dot_S4096x816_S816x16_S4096x16_1_0_0_1_n_n.rhsIdx_val_of_single rfl i q)
    (fun i q => by
      unfold DotDims.rhsIdx
      rw [dif_neg (show ¬(1 : Fin S816x16.rank) ∈ dot_S4096x816_S816x16_S4096x16_1_0_0_1_n_n.rhsBatch by decide), dif_pos (show (1 : Fin S816x16.rank) ∈ dot_S4096x816_S816x16_S4096x16_1_0_0_1_n_n.rhsNonContracting by decide)]
      rfl)
    none a b p j

/-- A one-row array spread over 4096 rows, at `(p, j)`: its entry in column `j`. -/
theorem bias_entry {α : Type} (y : S1x16.Idx → α) (h : S1x16.Broadcasts S4096x16) (p : Fin 4096) (j : Fin 16) :
    broadcastTo S4096x16 y h (ix2 p j) = y (ix2 0 j) :=
  broadcastTo_apply y h (ix2 p j) (ix2 0 j) (fun d => match d with
    | ⟨0, _⟩ => rfl
    | ⟨1, _⟩ => rfl)

theorem hz : (![0, 0] : Fin 2 → Nat) = fun _ => 0 := funext fun a => by fin_cases a <;> rfl

variable {F : FTy → Type} [FloatOps F]

/-- The one store of the body covers the tile, so the tile after the body is the stored value: the last two steps
    of the arithmetic applied to the loaded tile, its two blocks of products and the four pieces of the weights. -/
theorem out_eq (x0 : Vec F S4096x16 .f32) (x1 : Vec F S1x16 .f32) (x2 : Vec F S16x16 .bf16) (x3 : Vec F S136x16 .bf16) (x4 : Vec F S816x16 .bf16) :
    out0_5 x0 x1 x2 x3 x4 = k0_pay5 x0 (cubicK x0) (k0_pay4 x0 (quadK x0) x1 x2 x3) x4 := by
  unfold out0_5
  rw [View.canon_unit_zero hz]
  have e0 : View.ld x0 r0_0 = x0 := View.ld_unit_zero (S := S4096x16) hz _ x0
  have e1 : View.ld x1 r0_1 = x1 := View.ld_unit_zero (S := S1x16) hz _ x1
  have e2 : View.ld x2 r0_2 = x2 := View.ld_unit_zero (S := S16x16) hz _ x2
  have e3 : View.ld x3 r0_3 = x3 := View.ld_unit_zero (S := S136x16) hz _ x3
  have e4 : View.ld x4 r0_4 = x4 := View.ld_unit_zero (S := S816x16) hz _ x4
  rw [e0, e1, e2, e3, e4]
  rfl

/-- The stored value at an entry, on the extended reals. -/
theorem pay_entry (x0 : Vec Ideal S4096x16 .f32) (x1 : Vec Ideal S1x16 .f32) (x2 : Vec Ideal S16x16 .bf16) (x3 : Vec Ideal S136x16 .bf16) (x4 : Vec Ideal S816x16 .bf16)
    (Q : FVec Ideal S4096x136 .f32) (C : FVec Ideal S4096x816 .f32) (p : Fin 4096) (j : Fin 16) :
    k0_pay5 x0 C (k0_pay4 x0 Q x1 x2 x3) x4 (ix2 p j)
      = x0 (ix2 p j) + (((x1 (ix2 0 j) + ∑ k : Fin 16, x0 (ix2 p k) * x2 (ix2 k j))
          + ∑ k : Fin 136, Q (ix2 p k) * x3 (ix2 k j)) + ∑ k : Fin 816, C (ix2 p k) * x4 (ix2 k j)) := by
  unfold k0_pay5 k0_pay4
  show x0 (ix2 p j) + (((broadcastTo S4096x16 (shapeCast S1x16 x1 _) _ (ix2 p j)
        + matmul dot_S4096x16_S16x16_S4096x16_1_0_0_1_n_n none (truncf .bf16 x0 _) (shapeCast S16x16 x2 _) (constant (F := Ideal) S4096x16 .f32 0x00000000#32) (ix2 p j))
        + matmul dot_S4096x136_S136x16_S4096x16_1_0_0_1_n_n none (truncf .bf16 Q _) (shapeCast S136x16 x3 _) (constant (F := Ideal) S4096x16 .f32 0x00000000#32) (ix2 p j))
        + matmul dot_S4096x816_S816x16_S4096x16_1_0_0_1_n_n none (truncf .bf16 C _) (shapeCast S816x16 x4 _) (constant (F := Ideal) S4096x16 .f32 0x00000000#32) (ix2 p j)) = _
  rw [dot16_entry, dot136_entry, dot816_entry, bias_entry, shapeCast_self, shapeCast_self, shapeCast_self, shapeCast_self]
  rfl

end Cert.KernelEntry

end
-- ==== Proof.LibSumRanges.lean ====
/-
  A finite sum cut into consecutive ranges.

  The sum of `F` over the `a + b + c + d` indices `0, 1, …` is the sum over the first `a` of them, plus the sum over
  the next `b` (index `a + k`), plus the next `c` (index `a + b + k`), plus the last `d` (index `a + b + c + k`),
  added in that order — in any commutative additive monoid, so also where some terms are infinite. This is what joins
  one contraction over a row of laid-together blocks to the separate contractions over the blocks.
-/
import Mathlib.Algebra.BigOperators.Fin

namespace Cert.Lib.SumRanges

open scoped BigOperators

/-- The sum over `a + b + c + d` consecutive indices is the four consecutive ranges' sums, added left to right. -/
theorem sum_fin_four {M : Type*} [AddCommMonoid M] (a b c d : ℕ) (F : Fin (a + b + c + d) → M) :
    ∑ k, F k =
      ((∑ k : Fin a, F ⟨k.val, by have := k.isLt; omega⟩
          + ∑ k : Fin b, F ⟨a + k.val, by have := k.isLt; omega⟩)
        + ∑ k : Fin c, F ⟨a + b + k.val, by have := k.isLt; omega⟩)
      + ∑ k : Fin d, F ⟨a + b + c + k.val, by have := k.isLt; omega⟩ := by
  rw [Fin.sum_univ_add, Fin.sum_univ_add, Fin.sum_univ_add]
  rfl

end Cert.Lib.SumRanges
-- ==== Proof.RefEntry.lean ====
/-
  What the reference computes at an entry of its result.

  The reference lays four blocks side by side into one array `P` of 969 columns — a column of ones, the input `x`
  (16 columns), its block `Q` of 136 columns of products and its block `C` of 816 — and returns `x + P · W`. Read
  at `(r, j)`, the one contraction over the 969 columns is cut at the blocks' boundaries 1, 17, 153, and `P` is read
  inside each block's span:

      x(r, j) + (((W(0, j) + ∑ₖ x(r, k) · W(1 + k, j)) + ∑ₖ Q(r, k) · W(17 + k, j)) + ∑ₖ C(r, k) · W(153 + k, j)).

  The first term is `1 · W(0, j)`: the float pattern of the ones is the number 1. No step needs a finite term:
  only the order and grouping of a sum changes.
-/
import proofs.«160123_j33603824124566_2_alg».proof.Proof.RefStages
import proofs.«160123_j33603824124566_2_alg».proof.Proof.LibRowwise
import proofs.«160123_j33603824124566_2_alg».proof.Proof.LibSumRanges
import Idealize.ShloMosaic.PureOps.Ideal.Laws
import Idealize.ShloMosaic.Lib.ValueIdx

noncomputable section

namespace Cert.RefEntry

open Idealize.ShloMosaic Idealize.ShloMosaic.ValueIdx Cert.Lib.Rowwise Cert.Lib.SumRanges Cert.RefStages
open Cert.ReferenceIdeal Cert.ReferenceIdeal.Gen

/-- The float pattern of `1.0` denotes the number 1. -/
theorem ofBits_one : Ideal.ofBits .f32 0x3F800000#32 = 1 := by
  simp [Ideal.ofBits, Ideal.ieee, -EReal.coe_mul]; norm_num

/-- The host's contraction of a `K`-column operand with a `K`-row operand, at the entry `(p, j)`: the sum over the
    one contracted coordinate `k` of `a(p, k) · b(k, j)` — given that the dimension record contracts one axis of
    extent `K` and reads the left operand at (row, `k`) and the right one at (`k`, column). -/
theorem dotGeneral_ix2 {R K N : Nat} {φ₁ φ₂ : FTy} (D : DotDims (Sh2 R K) (Sh2 K N) (Sh2 R N))
    (hr : D.contr.rank = 1) (hs : D.contr.size ⟨0, by omega⟩ = K)
    (hl0 : ∀ (i : (Sh2 R N).Idx) (q : D.contr.Idx), (D.lhsIdx i q 0).val = (i 0).val)
    (hl1 : ∀ (i : (Sh2 R N).Idx) (q : D.contr.Idx), (D.lhsIdx i q 1).val = (q ⟨0, by omega⟩).val)
    (hr0 : ∀ (i : (Sh2 R N).Idx) (q : D.contr.Idx), (D.rhsIdx i q 0).val = (q ⟨0, by omega⟩).val)
    (hr1 : ∀ (i : (Sh2 R N).Idx) (q : D.contr.Idx), (D.rhsIdx i q 1).val = (i 1).val)
    (prec : Option ContractPrecision) (a : FVec Ideal (Sh2 R K) φ₁) (b : FVec Ideal (Sh2 K N) φ₂) (p : Fin R) (j : Fin N) :
    Host.dotGeneral D prec a b (ix2 p j) = ∑ k : Fin K, a (ix2 p k) * b (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun d => Fin.ext (by
    match d with
    | ⟨0, _⟩ => exact hl0 _ _
    | ⟨1, _⟩ => exact (hl1 _ _).trans hk)
  have er : D.rhsIdx (ix2 p j) ((contrEquiv1 D K hr hs).symm k) = ix2 k j := funext fun d => Fin.ext (by
    match d with
    | ⟨0, _⟩ => exact (hr0 _ _).trans hk
    | ⟨1, _⟩ => exact hr1 _ _)
  rw [el, er]

/-- The reference's contraction over the 969 columns, at an entry. -/
theorem dot969_entry (a : FVec Ideal S262144x969 .f32) (b : FVec Ideal S969x16 .f32) (p : Fin 262144) (j : Fin 16) :
    Host.dotGeneral dot_S262144x969_S969x16_S262144x16_1_0_0_1_n_n none a b (ix2 p j) = ∑ k : Fin 969, a (ix2 p k) * b (ix2 k j) :=
  dotGeneral_ix2 dot_S262144x969_S969x16_S262144x16_1_0_0_1_n_n rfl rfl
    (fun i q => by
      unfold DotDims.lhsIdx
      rw [dif_neg (show ¬(0 : Fin S262144x969.rank) ∈ dot_S262144x969_S969x16_S262144x16_1_0_0_1_n_n.lhsBatch by decide), dif_pos (show (0 : Fin S262144x969.rank) ∈ dot_S262144x969_S969x16_S262144x16_1_0_0_1_n_n.lhsNonContracting by decide)]
      rfl)
    (fun i q => dot_S262144x969_S969x16_S262144x16_1_0_0_1_n_n.lhsIdx_val_of_single rfl i q)
    (fun i q => dot_S262144x969_S969x16_S262144x16_1_0_0_1_n_n.rhsIdx_val_of_single rfl i q)
    (fun i q => by
      unfold DotDims.rhsIdx
      rw [dif_neg (show ¬(1 : Fin S969x16.rank) ∈ dot_S262144x969_S969x16_S262144x16_1_0_0_1_n_n.rhsBatch by decide), dif_pos (show (1 : Fin S969x16.rank) ∈ dot_S262144x969_S969x16_S262144x16_1_0_0_1_n_n.rhsNonContracting by decide)]
      rfl)
    none a b p j

section Blocks
variable {F : FTy → Type} [FloatOps F]

/-- Column 0 of the laid-together array is the first block's one column. -/
theorem poly_first (o : FVec F S262144x1 .f32) (x0 : FVec F S262144x16 .f32) (q : FVec F S262144x136 .f32) (c : FVec F S262144x816 .f32)
    (r : Fin 262144) :
    polyOf o x0 q c (ix2 r ⟨0, by decide⟩) = o (ix2 r 0) := by
  unfold polyOf
  refine (concatCols_ix2 _ _ [1, 16, 136, 816] ?_ 0 ?_ 1 o ?_ 0 ?_ r _ ?_ ?_).trans ?_
  · rfl
  · exact (by decide : (0 : ℕ) < 4)
  · rfl
  · rfl
  · exact Nat.zero_le _
  · show 0 < 0 + 1; omega
  · rfl

/-- Columns 1 … 16 of the laid-together array are the second block's. -/
theorem poly_lin (o : FVec F S262144x1 .f32) (x0 : FVec F S262144x16 .f32) (q : FVec F S262144x136 .f32) (c : FVec F S262144x816 .f32)
    (r : Fin 262144) (k : Fin 16) :
    polyOf o x0 q c (ix2 r ⟨1 + k.val, by have := k.isLt; omega⟩) = x0 (ix2 r k) := by
  have hk := k.isLt
  unfold polyOf
  refine (concatCols_ix2 _ _ [1, 16, 136, 816] ?_ 1 ?_ 16 x0 ?_ 1 ?_ r _ ?_ ?_).trans
    (congrArg _ (congrArg (ix2 r) (Fin.ext ?_)))
  · rfl
  · exact (by decide : (1 : ℕ) < 4)
  · rfl
  · rfl
  · show 1 ≤ 1 + k.val; omega
  · show 1 + k.val < 1 + 16; omega
  · show 1 + k.val - 1 = k.val; omega

/-- Columns 17 … 152 are the third block's. -/
theorem poly_quad (o : FVec F S262144x1 .f32) (x0 : FVec F S262144x16 .f32) (q : FVec F S262144x136 .f32) (c : FVec F S262144x816 .f32)
    (r : Fin 262144) (k : Fin 136) :
    polyOf o x0 q c (ix2 r ⟨17 + k.val, by have := k.isLt; omega⟩) = q (ix2 r k) := by
  have hk := k.isLt
  unfold polyOf
  refine (concatCols_ix2 _ _ [1, 16, 136, 816] ?_ 2 ?_ 136 q ?_ 17 ?_ r _ ?_ ?_).trans
    (congrArg _ (congrArg (ix2 r) (Fin.ext ?_)))
  · rfl
  · exact (by decide : (2 : ℕ) < 4)
  · rfl
  · rfl
  · show 17 ≤ 17 + k.val; omega
  · show 17 + k.val < 17 + 136; omega
  · show 17 + k.val - 17 = k.val; omega

/-- Columns 153 … 968 are the fourth block's. -/
theorem poly_cubic (o : FVec F S262144x1 .f32) (x0 : FVec F S262144x16 .f32) (q : FVec F S262144x136 .f32) (c : FVec F S262144x816 .f32)
    (r : Fin 262144) (k : Fin 816) :
    polyOf o x0 q c (ix2 r ⟨153 + k.val, by have := k.isLt; omega⟩) = c (ix2 r k) := by
  have hk := k.isLt
  unfold polyOf
  refine (concatCols_ix2 _ _ [1, 16, 136, 816] ?_ 3 ?_ 816 c ?_ 153 ?_ r _ ?_ ?_).trans
    (congrArg _ (congrArg (ix2 r) (Fin.ext ?_)))
  · rfl
  · exact (by decide : (3 : ℕ) < 4)
  · rfl
  · rfl
  · show 153 ≤ 153 + k.val; omega
  · show 153 + k.val < 153 + 816; omega
  · show 153 + k.val - 153 = k.val; omega

end Blocks

/-- The reference's result at the entry `(r, j)`. -/
theorem ref_entry (x : FVec Ideal S262144x16 .f32) (W : FVec Ideal S969x16 .f32) (r : Fin 262144) (j : Fin 16) :
    resultR x W (ix2 r j)
      = x (ix2 r j) + (((W (ix2 0 j) + ∑ k : Fin 16, x (ix2 r k) * W (ix2 ⟨1 + k.val, by have := k.isLt; omega⟩ j))
          + ∑ k : Fin 136, quadR x (ix2 r k) * W (ix2 ⟨17 + k.val, by have := k.isLt; omega⟩ j))
          + ∑ k : Fin 816, cubicR x (ix2 r k) * W (ix2 ⟨153 + k.val, by have := k.isLt; omega⟩ j)) := by
  unfold resultR
  show x (ix2 r j) + Host.dotGeneral dot_S262144x969_S969x16_S262144x16_1_0_0_1_n_n none (polyR x) W (ix2 r j) = x (ix2 r j) + _
  rw [dot969_entry]
  congr 1
  refine (sum_fin_four 1 16 136 816 (fun k : Fin 969 => polyR x (ix2 r k) * W (ix2 k j))).trans ?_
  congr 1
  · congr 1
    · congr 1
      · rw [Fin.sum_univ_one]
        show polyOf onesR x (quadR x) (cubicR x) (ix2 r ⟨0, _⟩) * W (ix2 ⟨0, _⟩ j) = W (ix2 0 j)
        rw [poly_first]
        show Ideal.ofBits .f32 0x3F800000#32 * W (ix2 0 j) = W (ix2 0 j)
        rw [ofBits_one, one_mul]
      · refine Finset.sum_congr rfl fun k _ => ?_
        show polyOf onesR x (quadR x) (cubicR x) (ix2 r ⟨1 + k.val, _⟩) * _ = _
        rw [poly_lin]
    · refine Finset.sum_congr rfl fun k _ => ?_
      show polyOf onesR x (quadR x) (cubicR x) (ix2 r ⟨1 + 16 + k.val, _⟩) * _ = _
      exact congrArg (· * _) (poly_quad onesR x (quadR x) (cubicR x) r k)
  · refine Finset.sum_congr rfl fun k _ => ?_
    show polyOf onesR x (quadR x) (cubicR x) (ix2 r ⟨1 + 16 + 136 + k.val, _⟩) * _ = _
    exact congrArg (· * _) (poly_cubic onesR x (quadR x) (cubicR x) r k)

end Cert.RefEntry

end
-- ==== Proof.TileEntry.lean ====
/-
  One tile's result is the reference's result on the tile's rows.

  Let the tile `x₀` be the rows `f p` of the whole input `x`, and let the four pieces of the weights the kernel is
  handed be the rows 0, 1 … 16, 17 … 152 and 153 … 968 of `W`. Then what the body stores at `(p, j)` is what the
  reference computes at `(f p, j)`. Both sides are

      x + (((W(0, j) + ∑ over 16) + ∑ over 136) + ∑ over 816)

  term for term: the tile's blocks of products are the rows `f p` of the whole input's blocks, because every step that
  builds them acts row by row, and the reference's one contraction over 969 columns is these four pieces.
-/
import proofs.«160123_j33603824124566_2_alg».proof.Proof.KernelEntry
import proofs.«160123_j33603824124566_2_alg».proof.Proof.RefEntry

noncomputable section

namespace Cert.TileEntry

open Idealize.ShloMosaic Idealize.ShloMosaic.ValueIdx Cert.Lib.Rowwise Cert.PolyRows Cert.KernelEntry Cert.RefEntry
open Cert.KernelIdeal Cert.KernelIdeal.Gen

theorem tile_entry (f : Fin 4096 → Fin 262144)
    (x0 : FVec Ideal S4096x16 .f32) (x1 : FVec Ideal S1x16 .f32) (x2 : FVec Ideal S16x16 .bf16)
    (x3 : FVec Ideal S136x16 .bf16) (x4 : FVec Ideal S816x16 .bf16)
    (x : FVec Ideal Cert.ReferenceIdeal.S262144x16 .f32) (W : FVec Ideal Cert.ReferenceIdeal.S969x16 .f32)
    (hx : RowsOf f x0 x)
    (h1 : ∀ j : Fin 16, x1 (ix2 0 j) = W (ix2 0 j))
    (h2 : ∀ (k : Fin 16) (j : Fin 16), x2 (ix2 k j) = W (ix2 ⟨1 + k.val, by have := k.isLt; omega⟩ j))
    (h3 : ∀ (k : Fin 136) (j : Fin 16), x3 (ix2 k j) = W (ix2 ⟨17 + k.val, by have := k.isLt; omega⟩ j))
    (h4 : ∀ (k : Fin 816) (j : Fin 16), x4 (ix2 k j) = W (ix2 ⟨153 + k.val, by have := k.isLt; omega⟩ j))
    (p : Fin 4096) (j : Fin 16) :
    out0_5 (F := Ideal) x0 x1 x2 x3 x4 (ix2 p j) = Cert.RefStages.resultR x W (ix2 (f p) j) := by
  rw [out_eq, pay_entry, ref_entry, hx p j, h1 j]
  have e1 : ∑ k : Fin 16, x0 (ix2 p k) * x2 (ix2 k j)
      = ∑ k : Fin 16, x (ix2 (f p) k) * W (ix2 ⟨1 + k.val, by have := k.isLt; omega⟩ j) :=
    Finset.sum_congr rfl fun k _ => by rw [hx p k, h2 k j]
  have e2 : ∑ k : Fin 136, quadK x0 (ix2 p k) * x3 (ix2 k j)
      = ∑ k : Fin 136, Cert.RefStages.quadR x (ix2 (f p) k) * W (ix2 ⟨17 + k.val, by have := k.isLt; omega⟩ j) :=
    Finset.sum_congr rfl fun k _ => by rw [rows_quad f x0 x hx p k, h3 k j]
  have e3 : ∑ k : Fin 816, cubicK x0 (ix2 p k) * x4 (ix2 k j)
      = ∑ k : Fin 816, Cert.RefStages.cubicR x (ix2 (f p) k) * W (ix2 ⟨153 + k.val, by have := k.isLt; omega⟩ j) :=
    Finset.sum_congr rfl fun k _ => by rw [rows_cubic f x0 x hx p k, h4 k j]
  rw [e1, e2, e3]

end Cert.TileEntry

end
-- ==== Proof.TileValue.lean ====
/-
  From tiles to the whole result.

  Grid point `t` (of 64) stages rows `4096 t … 4096 t + 4095` of the input and writes back the same rows of the
  result; the four pieces of the weights it stages whole are rows 0, 1 … 16, 17 … 152 and 153 … 968 of `W`, cut out
  on the host before the call (a change of float format being the identity on the extended reals). So what point `t`
  writes back is block `t` of the reference's result, the 64 blocks cover the result array, and after the run the
  kernel's result array is the reference's function of the two arguments.
-/
import proofs.«160123_j33603824124566_2_alg».proof.Proof.Gen.KernelIdeal.Frame
import proofs.«160123_j33603824124566_2_alg».proof.Proof.Gen.KernelIdeal.Value
import proofs.«160123_j33603824124566_2_alg».proof.Proof.TileEntry
import Idealize.ShloMosaic.Lib.Pipeline.Value
import Idealize.ShloMosaic.Lib.StableHlo.Run

noncomputable section

namespace Cert.TileValue

open Idealize.ShloMosaic Idealize.ShloMosaic.TcCoe Idealize.SL.Sem Idealize.ShloMosaic.ValueIdx Idealize.ShloMosaic.StableHlo
open Idealize.ShloMosaic.Pipeline (Dat)
open Cert.Lib.Rowwise Cert.TileEntry
open Cert.KernelIdeal Cert.KernelIdeal.Gen

variable (m : (ℓ : Loc nD τ sig) → Buf (Elt Ideal) ℓ) (ρ : Dev nD → PrngReg)

/-- A slice of rows `[o, o + n)`, read at `(k, j)`: the array at `(o + k, j)`. -/
theorem rowslice_ix2 {α : Type} {R n C : Nat} (o : Nat) (a : (Sh2 R C).Idx → α) (h : (Sh2 R C).Slices ![o, 0] (Sh2 n C))
    (k : Fin n) (j : Fin C) (hk : o + k.val < R) :
    extractStridedSlice (Sh2 n C) ![o, 0] a h (ix2 k j) = a (ix2 ⟨o + k.val, hk⟩ j) :=
  extractStridedSlice_apply ![o, 0] a h (ix2 k j) (ix2 ⟨o + k.val, hk⟩ j) (fun d => match d with
    | ⟨0, _⟩ => rfl
    | ⟨1, _⟩ => by show j.val = 0 + j.val; omega)

/-- The printed index maps over the 64 grid points: the input's and the result's tiles move down with the point,
    the pieces of the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt64 (t : Fin cfg0.N) : t.val < 64 := by
  have h := t.isLt
  have h2 : cfg0.N = 64 := N_0
  omega

/-- Row `p` of tile `t` is row `4096 t + p` of the array. -/
def rowOf (t : Fin cfg0.N) (p : Fin 4096) : Fin 262144 :=
  ⟨t.val * 4096 + p.val, by have := lt64 t; have := p.isLt; omega⟩

/-- The input tile at point `t` is rows `4096 t + p` of the first argument. -/
theorem tile_rows (c : Dev nD) (t : Fin cfg0.N) :
    RowsOf (rowOf t) (iblk m c 0 t : FVec Ideal S4096x16 .f32) ((m ((c : Thread nD τ).loc main_arg0)) : FVec Ideal S262144x16 .f32) := by
  intro p k
  have hf := idx_facts t
  unfold iblk
  rw [View.read_apply]
  show V m c main_arg0 _ = _
  rw [V_main_arg0]
  congr 1
  funext a; apply Fin.ext
  match a with
  | ⟨0, _⟩ => show win0_0.index t (0 : Fin 2) * 4096 + 1 * p.val = t.val * 4096 + p.val; omega
  | ⟨1, _⟩ => show win0_0.index t (1 : Fin 2) * 16 + 1 * k.val = k.val; omega

/-! The four pieces of the weights as the region finds them: slices of rows of the second argument. -/

theorem V_w0 (c : Dev nD) : (V m c main_call0_v0 : FVec Ideal S1x16 .f32)
    = extractStridedSlice S1x16 ![0, 0] ((m ((c : Thread nD τ).loc main_arg1)) : FVec Ideal S969x16 .f32) slices_S969x16_S1x16_0_0 := by
  dsimp only [V, hostOps0]; after_results; rfl

theorem V_w1 (c : Dev nD) : (V m c main_call0_v2 : FVec Ideal S16x16 .bf16)
    = extractStridedSlice S16x16 ![1, 0] ((m ((c : Thread nD τ).loc main_arg1)) : FVec Ideal S969x16 .f32) slices_S969x16_S16x16_1_0 := by
  dsimp only [V, hostOps0]; after_results; rfl

theorem V_w2 (c : Dev nD) : (V m c main_call0_v4 : FVec Ideal S136x16 .bf16)
    = extractStridedSlice S136x16 ![17, 0] ((m ((c : Thread nD τ).loc main_arg1)) : FVec Ideal S969x16 .f32) slices_S969x16_S136x16_17_0 := by
  dsimp only [V, hostOps0]; after_results; rfl

theorem V_w3 (c : Dev nD) : (V m c main_call0_v6 : FVec Ideal S816x16 .bf16)
    = extractStridedSlice S816x16 ![153, 0] ((m ((c : Thread nD τ).loc main_arg1)) : FVec Ideal S969x16 .f32) slices_S969x16_S816x16_153_0 := by
  dsimp only [V, hostOps0]; after_results; rfl

/-- The one-row piece at every point is row 0 of the weights. -/
theorem w0_entry (c : Dev nD) (t : Fin cfg0.N) (j : Fin 16) :
    (iblk m c 1 t : FVec Ideal S1x16 .f32) (ix2 0 j) = ((m ((c : Thread nD τ).loc main_arg1)) : FVec Ideal S969x16 .f32) (ix2 0 j) := by
  have hf := idx_facts t
  unfold iblk
  rw [View.read_apply]
  show V m c main_call0_v0 _ = _
  have hemb : ((cfg0.win 1).blk t).view.emb (ix2 (0 : Fin 1) j) = (ix2 (0 : Fin 1) j : S1x16.Idx) := by
    funext a; apply Fin.ext
    match a with
    | ⟨0, _⟩ => show win0_1.index t (0 : Fin 2) * 1 + 1 * 0 = 0; omega
    | ⟨1, _⟩ => show win0_1.index t (1 : Fin 2) * 16 + 1 * j.val = j.val; omega
  rw [hemb, V_w0]
  exact rowslice_ix2 0 _ _ (0 : Fin 1) j (by decide)

/-- The 16-row piece is rows 1 … 16 of the weights. -/
theorem w1_entry (c : Dev nD) (t : Fin cfg0.N) (k : Fin 16) (j : Fin 16) :
    (iblk m c 2 t : FVec Ideal S16x16 .bf16) (ix2 k j) = ((m ((c : Thread nD τ).loc main_arg1)) : FVec Ideal S969x16 .f32) (ix2 ⟨1 + k.val, by have := k.isLt; omega⟩ j) := by
  have hf := idx_facts t
  have hk := k.isLt
  unfold iblk
  rw [View.read_apply]
  show V m c main_call0_v2 _ = _
  have hemb : ((cfg0.win 2).blk t).view.emb (ix2 k j) = (ix2 k j : S16x16.Idx) := by
    funext a; apply Fin.ext
    match a with
    | ⟨0, _⟩ => show win0_2.index t (0 : Fin 2) * 16 + 1 * k.val = k.val; omega
    | ⟨1, _⟩ => show win0_2.index t (1 : Fin 2) * 16 + 1 * j.val = j.val; omega
  rw [hemb, V_w1]
  exact rowslice_ix2 1 _ _ k j (by omega)

/-- The 136-row piece is rows 17 … 152 of the weights. -/
theorem w2_entry (c : Dev nD) (t : Fin cfg0.N) (k : Fin 136) (j : Fin 16) :
    (iblk m c 3 t : FVec Ideal S136x16 .bf16) (ix2 k j) = ((m ((c : Thread nD τ).loc main_arg1)) : FVec Ideal S969x16 .f32) (ix2 ⟨17 + k.val, by have := k.isLt; omega⟩ j) := by
  have hf := idx_facts t
  have hk := k.isLt
  unfold iblk
  rw [View.read_apply]
  show V m c main_call0_v4 _ = _
  have hemb : ((cfg0.win 3).blk t).view.emb (ix2 k j) = (ix2 k j : S136x16.Idx) := by
    funext a; apply Fin.ext
    match a with
    | ⟨0, _⟩ => show win0_3.index t (0 : Fin 2) * 136 + 1 * k.val = k.val; omega
    | ⟨1, _⟩ => show win0_3.index t (1 : Fin 2) * 16 + 1 * j.val = j.val; omega
  rw [hemb, V_w2]
  exact rowslice_ix2 17 _ _ k j (by omega)

/-- The 816-row piece is rows 153 … 968 of the weights. -/
theorem w3_entry (c : Dev nD) (t : Fin cfg0.N) (k : Fin 816) (j : Fin 16) :
    (iblk m c 4 t : FVec Ideal S816x16 .bf16) (ix2 k j) = ((m ((c : Thread nD τ).loc main_arg1)) : FVec Ideal S969x16 .f32) (ix2 ⟨153 + k.val, by have := k.isLt; omega⟩ j) := by
  have hf := idx_facts t
  have hk := k.isLt
  unfold iblk
  rw [View.read_apply]
  show V m c main_call0_v6 _ = _
  have hemb : ((cfg0.win 4).blk t).view.emb (ix2 k j) = (ix2 k j : S816x16.Idx) := by
    funext a; apply Fin.ext
    match a with
    | ⟨0, _⟩ => show win0_4.index t (0 : Fin 2) * 816 + 1 * k.val = k.val; omega
    | ⟨1, _⟩ => show win0_4.index t (1 : Fin 2) * 16 + 1 * j.val = j.val; omega
  rw [hemb, V_w3]
  exact rowslice_ix2 153 _ _ k j (by omega)

/-- The reference's function of the two arguments: what the result array ends holding. -/
abbrev result (c : Dev nD) : FVec Ideal S262144x16 .f32 :=
  Cert.RefStages.resultR (m ((c : Thread nD τ).loc main_arg0)) (m ((c : Thread nD τ).loc main_arg1))

/-- What point `t` writes back is block `t` of the reference's result. -/
theorem flushed_eq (c : Dev nD) (t : Fin cfg0.N) :
    (dats m 0 c).flushed 5 t = ((cfg0.win 5).blk t).view.read (Elt Ideal) (result m c) := by
  rw [Cert.KernelIdeal.Value.flushed5]
  have hf := idx_facts t
  funext y
  obtain ⟨p, j, rfl⟩ : ∃ (p : Fin 4096) (j : Fin 16), y = ix2 p j := ⟨y 0, y 1, eq_ix2 y⟩
  rw [View.read_apply]
  have hemb : ((cfg0.win 5).blk t).view.emb (ix2 p j) = (ix2 (rowOf t p) j : S262144x16.Idx) := by
    funext a; apply Fin.ext
    match a with
    | ⟨0, _⟩ => show win0_5.index t (0 : Fin 2) * 4096 + 1 * p.val = t.val * 4096 + p.val; omega
    | ⟨1, _⟩ => show win0_5.index t (1 : Fin 2) * 16 + 1 * j.val = j.val; omega
  rw [hemb]
  exact tile_entry (rowOf t) (iblk m c 0 t) (iblk m c 1 t) (iblk m c 2 t) (iblk m c 3 t) (iblk m c 4 t)
    (m ((c : Thread nD τ).loc main_arg0)) (m ((c : Thread nD τ).loc main_arg1)) (tile_rows m c t) (w0_entry m c t) (w1_entry m c t) (w2_entry m c t) (w3_entry m c t) p j

/-- An index of the result array is in point `t`'s block iff each coordinate is in the block's range on its axis. -/
theorem mem_blk (t : Fin cfg0.N) (i : S262144x16.Idx) :
    i ∈ ((cfg0.win 5).blk t).view.set ↔ ∀ a : Fin 2, win0_5.index t a * S4096x16.size a ≤ (i a).val ∧ (i a).val < win0_5.index t a * S4096x16.size a + S4096x16.size a := by
  show i ∈ ((View.whole main_v0).slice (win0_5.rect t)).set ↔ _
  rw [View.set_slice_whole, Rect.mem_set_unit]
  exact Iff.rfl

/-- Row `r` of the result lies in the block of point `r / 4096`: the 64 blocks cover the array. -/
theorem cover (i : S262144x16.Idx) : ∃ t : Fin cfg0.N, (cfg0.win 5).flush t = true ∧ i ∈ ((cfg0.win 5).blk t).view.set := by
  have hi0 : (i 0).val < 262144 := (i 0).isLt
  have hi1 : (i 1).val < 16 := (i 1).isLt
  have hN : (i 0).val / 4096 < cfg0.N := by have h2 : cfg0.N = 64 := N_0; omega
  have hf := idx_facts ⟨(i 0).val / 4096, hN⟩
  refine ⟨⟨(i 0).val / 4096, hN⟩, flush0_5 _, ?_⟩
  rw [mem_blk]
  intro a
  match a with
  | ⟨0, _⟩ =>
    show win0_5.index ⟨(i 0).val / 4096, hN⟩ (0 : Fin 2) * 4096 ≤ (i 0).val ∧ (i 0).val < win0_5.index ⟨(i 0).val / 4096, hN⟩ (0 : Fin 2) * 4096 + 4096
    have e : win0_5.index ⟨(i 0).val / 4096, hN⟩ (0 : Fin 2) = (i 0).val / 4096 := hf.2.2.2.2.2.2.2.2.2.2.1
    rw [e]; omega
  | ⟨1, _⟩ =>
    show win0_5.index ⟨(i 0).val / 4096, hN⟩ (1 : Fin 2) * 16 ≤ (i 1).val ∧ (i 1).val < win0_5.index ⟨(i 0).val / 4096, hN⟩ (1 : Fin 2) * 16 + 16
    have e : win0_5.index ⟨(i 0).val / 4096, hN⟩ (1 : Fin 2) = 0 := hf.2.2.2.2.2.2.2.2.2.2.2
    rw [e]; omega

/-- The result array after the run is the reference's function of the arguments. -/
theorem final (c : Dev nD) : (dats m 0 c).arrAt 5 cfg0.N = result m c :=
  (dats m 0 c).arrAt_eq_of_cover 5 (result m c) (fun t _ => flushed_eq m c t) cover

/-- The kernel's run, read: the result array at the reference's function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.TileValue

end
-- ==== Proof.lean ====
/-
  A degree-3 polynomial feature map with a residual: `out = x + poly(x) · W`, where `poly(x)` lays side by side a
  column of ones, `x` itself (16 columns), the 136 products `x(·, n) · x(·, c)`, `c ≤ n`, and the 816 products of
  `x(·, n)` with leading columns of the 136-column block; `W` has 969 rows.

  The reference forms the 969 columns for all 262144 rows and contracts them against `W` at once. The kernel works
  on tiles of 4096 rows (64 grid points): per tile it builds the 136- and 816-column blocks by the same steps, and
  adds row 0 of `W` and three separate matrix products — of the tile, of its 136-column block and of its 816-column
  block with rows 1 … 16, 17 … 152 and 153 … 968 of `W` — before adding the tile itself.

  On the extended reals the two agree entry by entry:
  * every step that builds the blocks treats each row on its own, so a tile's blocks are the matching rows of the
    whole input's blocks (Proof/LibRowwise.lean, Proof/PolyRows.lean);
  * each matrix product into a zero accumulator is the plain sum over its contracted axis, and the host's contraction
    over the 969 laid-together columns is the sum of the four consecutive pieces, the first being `1 · W(0, j)`
    (Proof/KernelEntry.lean, Proof/RefEntry.lean, Proof/LibSumRanges.lean, Proof/TileEntry.lean);
  * the reference's straight line of host operations is read back in three stretches (Proof/RefStages.lean,
    Proof/RefRun.lean);
  * a change of float format is the identity there; only the grouping of a sum differs between the two sides, so no
    term needs to be finite and the precondition is never opened;
  * the 64 tiles written back cover the result array (Proof/TileValue.lean).

  The two kernel frames are the generated runs and the reference's is the run read back; the idealization rewrote nothing, so `preserves` is `True`.
-/
import proofs.«160123_j33603824124566_2_alg».proof.Defs
import proofs.«160123_j33603824124566_2_alg».proof.Proof.Gen.Kernel
import proofs.«160123_j33603824124566_2_alg».proof.Proof.Gen.Kernel.Skeleton
import proofs.«160123_j33603824124566_2_alg».proof.Proof.Gen.Kernel.Launch
import proofs.«160123_j33603824124566_2_alg».proof.Proof.Gen.Kernel.Points
import proofs.«160123_j33603824124566_2_alg».proof.Proof.Gen.Kernel.Frame
import proofs.«160123_j33603824124566_2_alg».proof.Proof.Gen.KernelIdeal
import proofs.«160123_j33603824124566_2_alg».proof.Proof.Gen.KernelIdeal.Skeleton
import proofs.«160123_j33603824124566_2_alg».proof.Proof.Gen.KernelIdeal.Launch
import proofs.«160123_j33603824124566_2_alg».proof.Proof.Gen.KernelIdeal.Points
import proofs.«160123_j33603824124566_2_alg».proof.Proof.Gen.KernelIdeal.Frame
import proofs.«160123_j33603824124566_2_alg».proof.Proof.Gen.ReferenceIdeal
import proofs.«160123_j33603824124566_2_alg».proof.Proof.Gen.Pre_finite_inputs
import proofs.«160123_j33603824124566_2_alg».proof.Proof.Gen.KernelIdeal.Value
import proofs.«160123_j33603824124566_2_alg».proof.Proof.RefRun
import proofs.«160123_j33603824124566_2_alg».proof.Proof.TileValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- Both runs end with the result array at the reference's function of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.TileValue.result m c, Cert.TileValue.run m ρ, ?_⟩
  refine (θ_run Cert.ReferenceIdeal.defs _ _).mono (fun _ h c => ⟨(h c).1.trans ?_, (h c).2⟩)
    (Cert.RefRun.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
